-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192 : Shape := ⟨2, ![128, 8192]⟩
abbrev S8192x2048 : Shape := ⟨2, ![8192, 2048]⟩
abbrev S2048x18 : Shape := ⟨2, ![2048, 18]⟩
abbrev S18 : Shape := ⟨1, ![18]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x18 : S_.BroadcastsInDim S2048x18 (![] : Fin 0 → Fin S2048x18.rank)
  reducesTo_S2048x18_S_d0_1 : S2048x18.ReducesTo [0, 1] S_
  bcast_S_S18 : S_.BroadcastsInDim S18 (![] : Fin 0 → Fin S18.rank)
  reducesTo_S18_S_d0 : S18.ReducesTo [0] S_

variable [Facts]

def fn_part3 {F : FTy → Type} [FloatOps F] (main_v48 : IVec S_ 1) (main_v49 : FVec F S18 .f32) (main_v50 : FVec F S18 .f32) : IVec S_ 1 :=
  let main_v51 : IVec S18 1 := cmpf .olt main_v49 main_v50
  let main_c_19 : IVec S_ 1 := constantI S_ 1 1#1
  let main_v52 : IVec S_ 1 := (fun x v => Host.reduce IntOp.andi x v reducesTo_S18_S_d0 h_S_) main_v51 main_c_19
  let main_v53 : IVec S_ 1 := andi main_v48 main_v52
  main_v53

def fn_part2 {F : FTy → Type} [FloatOps F] (main_arg7 : FVec F S8192x2048 .f32) (main_arg8 : FVec F S8192x2048 .f32) (main_arg9 : FVec F S2048x18 .f32) (main_arg10 : FVec F S18 .f32) (main_v33 : IVec S_ 1) : IVec S_ 1 :=
  let main_v34 : FVec F S8192x2048 .f32 := Host.absf main_arg7
  let main_cst_12 : FVec F S_ .f32 := constant S_ .f32 0x7F800000#32
  let main_v35 : FVec F S8192x2048 .f32 := broadcastInDim S8192x2048 ![] bcast_S_S8192x2048 main_cst_12
  let main_v36 : IVec S8192x2048 1 := cmpf .olt main_v34 main_v35
  let main_c_13 : IVec S_ 1 := constantI S_ 1 1#1
  let main_v37 : IVec S_ 1 := (fun x v => Host.reduce IntOp.andi x v reducesTo_S8192x2048_S_d0_1 h_S_) main_v36 main_c_13
  let main_v38 : IVec S_ 1 := andi main_v33 main_v37
  let main_v39 : FVec F S8192x2048 .f32 := Host.absf main_arg8
  let main_cst_14 : FVec F S_ .f32 := constant S_ .f32 0x7F800000#32
  let main_v40 : FVec F S8192x2048 .f32 := broadcastInDim S8192x2048 ![] bcast_S_S8192x2048 main_cst_14
  let main_v41 : IVec S8192x2048 1 := cmpf .olt main_v39 main_v40
  let main_c_15 : IVec S_ 1 := constantI S_ 1 1#1
  let main_v42 : IVec S_ 1 := (fun x v => Host.reduce IntOp.andi x v reducesTo_S8192x2048_S_d0_1 h_S_) main_v41 main_c_15
  let main_v43 : IVec S_ 1 := andi main_v38 main_v42
  let main_v44 : FVec F S2048x18 .f32 := Host.absf main_arg9
  let main_cst_16 : FVec F S_ .f32 := constant S_ .f32 0x7F800000#32
  let main_v45 : FVec F S2048x18 .f32 := broadcastInDim S2048x18 ![] bcast_S_S2048x18 main_cst_16
  let main_v46 : IVec S2048x18 1 := cmpf .olt main_v44 main_v45
  let main_c_17 : IVec S_ 1 := constantI S_ 1 1#1
  let main_v47 : IVec S_ 1 := (fun x v => Host.reduce IntOp.andi x v reducesTo_S2048x18_S_d0_1 h_S_) main_v46 main_c_17
  let main_v48 : IVec S_ 1 := andi main_v43 main_v47
  let main_v49 : FVec F S18 .f32 := Host.absf main_arg10
  let main_cst_18 : FVec F S_ .f32 := constant S_ .f32 0x7F800000#32
  let main_v50 : FVec F S18 .f32 := broadcastInDim S18 ![] bcast_S_S18 main_cst_18
  fn_part3 (F := F) main_v48 main_v49 main_v50

def fn_part1 {F : FTy → Type} [FloatOps F] (main_arg4 : FVec F S8192x2048 .f32) (main_arg5 : FVec F S8192x2048 .f32) (main_arg6 : FVec F S8192x2048 .f32) (main_arg7 : FVec F S8192x2048 .f32) (main_arg8 : FVec F S8192x2048 .f32) (main_arg9 : FVec F S2048x18 .f32) (main_arg10 : FVec F S18 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192x2048 .f32 := Host.absf main_arg6
  let main_cst_10 : FVec F S_ .f32 := constant S_ .f32 0x7F800000#32
  let main_v30 : FVec F S8192x2048 .f32 := broadcastInDim S8192x2048 ![] bcast_S_S8192x2048 main_cst_10
  let main_v31 : IVec S8192x2048 1 := cmpf .olt main_v29 main_v30
  let main_c_11 : IVec S_ 1 := constantI S_ 1 1#1
  let main_v32 : IVec S_ 1 := (fun x v => Host.reduce IntOp.andi x v reducesTo_S8192x2048_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S128x8192 .f32) (main_arg1 : FVec F S128x8192 .f32) (main_arg2 : FVec F S128x8192 .f32) (main_arg3 : FVec F S8192x2048 .f32) (main_arg4 : FVec F S8192x2048 .f32) (main_arg5 : FVec F S8192x2048 .f32) (main_arg6 : FVec F S8192x2048 .f32) (main_arg7 : FVec F S8192x2048 .f32) (main_arg8 : FVec F S8192x2048 .f32) (main_arg9 : FVec F S2048x18 .f32) (main_arg10 : FVec F S18 .f32) : IVec S_ 1 :=
  let main_v0 : FVec F S128x8192 .f32 := Host.absf main_arg0
  let main_cst : FVec F S_ .f32 := constant S_ .f32 0x7F800000#32
  let main_v1 : FVec F S128x8192 .f32 := broadcastInDim S128x8192 ![] bcast_S_S128x8192 main_cst
  let main_v2 : IVec S128x8192 1 := cmpf .olt main_v0 main_v1
  let main_c : IVec S_ 1 := constantI S_ 1 1#1
  let main_v3 : IVec S_ 1 := (fun x v => Host.reduce IntOp.andi x v reducesTo_S128x8192_S_d0_1 h_S_) main_v2 main_c
  let main_v4 : FVec F S128x8192 .f32 := Host.absf main_arg1
  let main_cst_0 : FVec F S_ .f32 := constant S_ .f32 0x7F800000#32
  let main_v5 : FVec F S128x8192 .f32 := broadcastInDim S128x8192 ![] bcast_S_S128x8192 main_cst_0
  let main_v6 : IVec S128x8192 1 := cmpf .olt main_v4 main_v5
  let main_c_1 : IVec S_ 1 := constantI S_ 1 1#1
  let main_v7 : IVec S_ 1 := (fun x v => Host.reduce IntOp.andi x v reducesTo_S128x8192_S_d0_1 h_S_) main_v6 main_c_1
  let main_v8 : IVec S_ 1 := andi main_v3 main_v7
  let main_v9 : FVec F S128x8192 .f32 := Host.absf main_arg2
  let main_cst_2 : FVec F S_ .f32 := constant S_ .f32 0x7F800000#32
  let main_v10 : FVec F S128x8192 .f32 := broadcastInDim S128x8192 ![] bcast_S_S128x8192 main_cst_2
  let main_v11 : IVec S128x8192 1 := cmpf .olt main_v9 main_v10
  let main_c_3 : IVec S_ 1 := constantI S_ 1 1#1
  let main_v12 : IVec S_ 1 := (fun x v => Host.reduce IntOp.andi x v reducesTo_S128x8192_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_arg7 main_arg8 main_arg9 main_arg10 main_v13 main_v16
-- ==== Kernel.lean ====
abbrev S128x8192 : Shape := ⟨2, ![128, 8192]⟩
abbrev S8192x2048 : Shape := ⟨2, ![8192, 2048]⟩
abbrev S2048x18 : Shape := ⟨2, ![2048, 18]⟩
abbrev S18 : Shape := ⟨1, ![18]⟩
abbrev S128x2048 : Shape := ⟨2, ![128, 2048]⟩
abbrev S128x512 : Shape := ⟨2, ![128, 512]⟩
abbrev S512x2048 : Shape := ⟨2, ![512, 2048]⟩
abbrev S128 : Shape := ⟨1, ![128]⟩
abbrev S128x1 : Shape := ⟨2, ![128, 1]⟩
abbrev S128x6144 : Shape := ⟨2, ![128, 6144]⟩
abbrev S128x2048x3 : Shape := ⟨3, ![128, 2048, 3]⟩
abbrev S_ : Shape := ⟨0, ![]⟩
abbrev S128x18 : Shape := ⟨2, ![128, 18]⟩
abbrev S1x18 : Shape := ⟨2, ![1, 18]⟩

abbrev nBuf : Space → Nat
  | .hbm => 39
  | .vmem => 27
  | .smem => 0
  | _ => 0

abbrev bufTy : (tb : Table) → Fin (tcTables nBuf tb) → BufTy
  | .hbm, ⟨0, _⟩ => ⟨S128x8192, .f32⟩
  | .hbm, ⟨1, _⟩ => ⟨S128x8192, .f32⟩
  | .hbm, ⟨2, _⟩ => ⟨S128x8192, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S2048x18, .f32⟩
  | .hbm, ⟨10, _⟩ => ⟨S18, .f32⟩
  | .hbm, ⟨11, _⟩ => ⟨S128x2048, .f32⟩
  | .hbm, ⟨12, _⟩ => ⟨S128x2048, .f32⟩
  | .hbm, ⟨13, _⟩ => ⟨S128x2048, .f32⟩
  | .hbm, ⟨14, _⟩ => ⟨S128x6144, .f32⟩
  | .hbm, ⟨15, _⟩ => ⟨S128x2048x3, .f32⟩
  | .hbm, ⟨16, _⟩ => ⟨S_, .f32⟩
  | .hbm, ⟨17, _⟩ => ⟨S128x2048, .f32⟩
  | .hbm, ⟨18, _⟩ => ⟨S_, .f32⟩
  | .hbm, ⟨19, _⟩ => ⟨S128x2048, .f32⟩
  | .hbm, ⟨20, _⟩ => ⟨S128x2048, .f32⟩
  | .hbm, ⟨21, _⟩ => ⟨S128x18, .f32⟩
  | .hbm, ⟨22, _⟩ => ⟨S1x18, .f32⟩
  | .hbm, ⟨23, _⟩ => ⟨S128x18, .f32⟩
  | .hbm, ⟨24, _⟩ => ⟨S128x18, .f32⟩
  | .hbm, ⟨25, _⟩ => ⟨S_, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128x1, .f32⟩
  | .hbm, ⟨31, _⟩ => ⟨S128x18, .f32⟩
  | .hbm, ⟨32, _⟩ => ⟨S128x18, .f32⟩
  | .hbm, ⟨33, _⟩ => ⟨S128x18, .f32⟩
  | .hbm, ⟨34, _⟩ => ⟨S_, .f32⟩
  | .hbm, ⟨35, _⟩ => ⟨S128, .f32⟩
  | .hbm, ⟨36, _⟩ => ⟨S128x1, .f32⟩
  | .hbm, ⟨37, _⟩ => ⟨S128x18, .f32⟩
  | .hbm, ⟨38, _⟩ => ⟨S128x18, .f32⟩
  | .local _ .vmem, ⟨0, _⟩ => ⟨S128x512, .f32⟩
  | .local _ .vmem, ⟨1, _⟩ => ⟨S128x512, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x512, .f32⟩
  | .local _ .vmem, ⟨10, _⟩ => ⟨S128x512, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x512, .f32⟩
  | .local _ .vmem, ⟨19, _⟩ => ⟨S128x512, .f32⟩
  | .local _ .vmem, ⟨20, _⟩ => ⟨S512x2048, .f32⟩
  | .local _ .vmem, ⟨21, _⟩ => ⟨S512x2048, .f32⟩
  | .local _ .vmem, ⟨22, _⟩ => ⟨S512x2048, .f32⟩
  | .local _ .vmem, ⟨23, _⟩ => ⟨S512x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_scratch0 : Ref sig .tc := ⟨.vmem, 25, rfl⟩
abbrev cc2_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v21 : BitVec 1 := Scalar.cmpi .eq arg0 c15_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v21 : BitVec 1 := Scalar.cmpi .eq arg0 c15_i32
  let v22 : BitVec 32 := Scalar.extui v21
  let c0_i32_15 : BitVec 32 := 0#32
  let v23 : BitVec 1 := Scalar.cmpi .ne v22 c0_i32_15
  v23

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![16], ![false]⟩

def k2_cond2 (i : grid2.Coords) : BitVec 1 :=
  let arg0 : BitVec 32 := BitVec.ofNat 32 (i 0).val
  let c15_i32 : BitVec 32 := 15#32
  let v21 : BitVec 1 := Scalar.cmpi .eq arg0 c15_i32
  let v22 : BitVec 32 := Scalar.extui v21
  let c0_i32_15 : BitVec 32 := 0#32
  let v23 : BitVec 1 := Scalar.cmpi .ne v22 c0_i32_15
  v23

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S128x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  reduces_S128x2048_S128 : S128x2048.Reduces [1] S128
  shapeCasts_S128_S128x1 : S128.ShapeCasts S128x1
  broadcasts_S128x1_S128x2048 : S128x1.Broadcasts S128x2048
  concatenates_S128x2048_S128x2048_S128x2048_S128x6144_d1 : Shape.Concatenates [S128x2048, S128x2048, S128x2048] S128x6144 1
  shapeCasts_S128x6144_S128x2048x3 : S128x6144.ShapeCasts S128x2048x3
  reducesTo_S128x2048x3_S128x2048_d2 : S128x2048x3.ReducesTo [2] S128x2048
  h_S_ : 0 < S_.numel
  bcast_S_S128x2048 : S_.BroadcastsInDim S128x2048 (![] : Fin 0 → Fin S128x2048.rank)
  bcast_S18_S1x18_1 : S18.BroadcastsInDim S1x18 (![1] : Fin 1 → Fin S1x18.rank)
  bcast_S1x18_S128x18_0_1 : S1x18.BroadcastsInDim S128x18 (![0, 1] : Fin 2 → Fin S128x18.rank)
  reducesTo_S128x18_S128_d1 : S128x18.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x18_0_1 : S128x1.BroadcastsInDim S128x18 (![0, 1] : Fin 2 → Fin S128x18.rank)
  dot_S128x512_S512x2048_S128x2048_1_0_0_1_n_n_wf : DotDims.WF S128x512 S512x2048 S128x2048 [1] [0] [0] [1] [] []
  dot_S128x2048_S2048x18_S128x18_1_0_0_1_n_n_wf : DotDims.WF S128x2048 S2048x18 S128x18 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S128x8192.size a
  hwx0_0 : ∀ i : grid0.Coords, EltTy.bits .f32 = 32 ∨ (Rect.block (s := S128x8192) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x2048.size a
  hwx0_3 : ∀ i : grid0.Coords, EltTy.bits .f32 = 32 ∨ (Rect.block (s := S128x2048) S128x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S128x8192.size a
  hwx1_0 : ∀ i : grid1.Coords, EltTy.bits .f32 = 32 ∨ (Rect.block (s := S128x8192) S128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S8192x2048.size a
  hwx1_1 : ∀ i : grid1.Coords, EltTy.bits .f32 = 32 ∨ (Rect.block (s := S8192x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S8192x2048.size a
  hwx1_2 : ∀ i : grid1.Coords, EltTy.bits .f32 = 32 ∨ (Rect.block (s := S8192x2048) S512x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x2048.size a ≤ S128x2048.size a
  hwx1_3 : ∀ i : grid1.Coords, EltTy.bits .f32 = 32 ∨ (Rect.block (s := S128x2048) S128x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x512.size a ≤ S128x8192.size a
  hwx2_0 : ∀ i : grid2.Coords, EltTy.bits .f32 = 32 ∨ (Rect.block (s := S128x8192) S128x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S8192x2048.size a
  hwx2_1 : ∀ i : grid2.Coords, EltTy.bits .f32 = 32 ∨ (Rect.block (s := S8192x2048) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S8192x2048.size a
  hwx2_2 : ∀ i : grid2.Coords, EltTy.bits .f32 = 32 ∨ (Rect.block (s := S8192x2048) S512x2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x2048.size a ≤ S128x2048.size a
  hwx2_3 : ∀ i : grid2.Coords, EltTy.bits .f32 = 32 ∨ (Rect.block (s := S128x2048) S128x2048.size (cc2_transform_3 i) (hinb2_3 i)).WholeWords (EltTy.packing .f32)

variable [Facts₀]

def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf
def dot_S128x2048_S2048x18_S128x18_1_0_0_1_n_n : DotDims S128x2048 S2048x18 S128x18 where
  lhsContracting := [1]
  rhsContracting := [0]
  lhsNonContracting := [0]
  rhsNonContracting := [1]
  lhsBatch := []
  rhsBatch := []
  wf := dot_S128x2048_S2048x18_S128x18_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x2048.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S128x2048.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg2) S128x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S512x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S128x2048.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S128x8192 : Shape := ⟨2, ![128, 8192]⟩
abbrev S8192x2048 : Shape := ⟨2, ![8192, 2048]⟩
abbrev S2048x18 : Shape := ⟨2, ![2048, 18]⟩
abbrev S18 : Shape := ⟨1, ![18]⟩
abbrev S128x2048 : Shape := ⟨2, ![128, 2048]⟩
abbrev S_ : Shape := ⟨0, ![]⟩
abbrev S128 : Shape := ⟨1, ![128]⟩
abbrev S128x1 : Shape := ⟨2, ![128, 1]⟩
abbrev S128x6144 : Shape := ⟨2, ![128, 6144]⟩
abbrev S128x2048x3 : Shape := ⟨3, ![128, 2048, 3]⟩
abbrev S128x18 : Shape := ⟨2, ![128, 18]⟩
abbrev S1x18 : Shape := ⟨2, ![1, 18]⟩

abbrev nBuf : Space → Nat
  | .hbm => 66
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S128x8192, .f32⟩
  | .hbm, ⟨2, _⟩ => ⟨S128x8192, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S2048x18, .f32⟩
  | .hbm, ⟨10, _⟩ => ⟨S18, .f32⟩
  | .hbm, ⟨11, _⟩ => ⟨S128x2048, .f32⟩
  | .hbm, ⟨12, _⟩ => ⟨S128x2048, .f32⟩
  | .hbm, ⟨13, _⟩ => ⟨S_, .f32⟩
  | .hbm, ⟨14, _⟩ => ⟨S128, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x2048, .f32⟩
  | .hbm, ⟨20, _⟩ => ⟨S128x2048, .f32⟩
  | .hbm, ⟨21, _⟩ => ⟨S128x2048, .f32⟩
  | .hbm, ⟨22, _⟩ => ⟨S128x2048, .f32⟩
  | .hbm, ⟨23, _⟩ => ⟨S_, .f32⟩
  | .hbm, ⟨24, _⟩ => ⟨S128, .f32⟩
  | .hbm, ⟨25, _⟩ => ⟨S128x1, .f32⟩
  | .hbm, ⟨26, _⟩ => ⟨S_, .f32⟩
  | .hbm, ⟨27, _⟩ => ⟨S128x1, .f32⟩
  | .hbm, ⟨28, _⟩ => ⟨S128x1, .f32⟩
  | .hbm, ⟨29, _⟩ => ⟨S128x2048, .f32⟩
  | .hbm, ⟨30, _⟩ => ⟨S128x2048, .f32⟩
  | .hbm, ⟨31, _⟩ => ⟨S128x2048, .f32⟩
  | .hbm, ⟨32, _⟩ => ⟨S128x2048, .f32⟩
  | .hbm, ⟨33, _⟩ => ⟨S_, .f32⟩
  | .hbm, ⟨34, _⟩ => ⟨S128, .f32⟩
  | .hbm, ⟨35, _⟩ => ⟨S128x1, .f32⟩
  | .hbm, ⟨36, _⟩ => ⟨S_, .f32⟩
  | .hbm, ⟨37, _⟩ => ⟨S128x1, .f32⟩
  | .hbm, ⟨38, _⟩ => ⟨S128x1, .f32⟩
  | .hbm, ⟨39, _⟩ => ⟨S128x2048, .f32⟩
  | .hbm, ⟨40, _⟩ => ⟨S128x2048, .f32⟩
  | .hbm, ⟨41, _⟩ => ⟨S128x6144, .f32⟩
  | .hbm, ⟨42, _⟩ => ⟨S128x2048x3, .f32⟩
  | .hbm, ⟨43, _⟩ => ⟨S_, .f32⟩
  | .hbm, ⟨44, _⟩ => ⟨S128x2048, .f32⟩
  | .hbm, ⟨45, _⟩ => ⟨S_, .f32⟩
  | .hbm, ⟨46, _⟩ => ⟨S128x2048, .f32⟩
  | .hbm, ⟨47, _⟩ => ⟨S128x2048, .f32⟩
  | .hbm, ⟨48, _⟩ => ⟨S128x18, .f32⟩
  | .hbm, ⟨49, _⟩ => ⟨S1x18, .f32⟩
  | .hbm, ⟨50, _⟩ => ⟨S128x18, .f32⟩
  | .hbm, ⟨51, _⟩ => ⟨S128x18, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128x1, .f32⟩
  | .hbm, ⟨58, _⟩ => ⟨S128x18, .f32⟩
  | .hbm, ⟨59, _⟩ => ⟨S128x18, .f32⟩
  | .hbm, ⟨60, _⟩ => ⟨S128x18, .f32⟩
  | .hbm, ⟨61, _⟩ => ⟨S_, .f32⟩
  | .hbm, ⟨62, _⟩ => ⟨S128, .f32⟩
  | .hbm, ⟨63, _⟩ => ⟨S128x1, .f32⟩
  | .hbm, ⟨64, _⟩ => ⟨S128x18, .f32⟩
  | .hbm, ⟨65, _⟩ => ⟨S128x18, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]

class Facts₀ : Prop where
  reducesTo_S128x2048_S128_d1 : S128x2048.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x2048_0_1 : S128x1.BroadcastsInDim S128x2048 (![0, 1] : Fin 2 → Fin S128x2048.rank)
  concatenates_S128x2048_S128x2048_S128x2048_S128x6144_d1 : Shape.Concatenates [S128x2048, S128x2048, S128x2048] S128x6144 1
  shapeCasts_S128x6144_S128x2048x3 : S128x6144.ShapeCasts S128x2048x3
  reducesTo_S128x2048x3_S128x2048_d2 : S128x2048x3.ReducesTo [2] S128x2048
  bcast_S_S128x2048 : S_.BroadcastsInDim S128x2048 (![] : Fin 0 → Fin S128x2048.rank)
  bcast_S18_S1x18_1 : S18.BroadcastsInDim S1x18 (![1] : Fin 1 → Fin S1x18.rank)
  bcast_S1x18_S128x18_0_1 : S1x18.BroadcastsInDim S128x18 (![0, 1] : Fin 2 → Fin S128x18.rank)
  reducesTo_S128x18_S128_d1 : S128x18.ReducesTo [1] S128
  bcast_S_S128 : S_.BroadcastsInDim S128 (![] : Fin 0 → Fin S128.rank)
  bcast_S128x1_S128x18_0_1 : S128x1.BroadcastsInDim S128x18 (![0, 1] : Fin 2 → Fin S128x18.rank)
  dot_S128x8192_S8192x2048_S128x2048_1_0_0_1_n_n_wf : DotDims.WF S128x8192 S8192x2048 S128x2048 [1] [0] [0] [1] [] []
  dot_S128x2048_S2048x18_S128x18_1_0_0_1_n_n_wf : DotDims.WF S128x2048 S2048x18 S128x18 [1] [0] [0] [1] [] []

variable [Facts₀]

def dot_S128x8192_S8192x2048_S128x2048_1_0_0_1_n_n : DotDims S128x8192 S8192x2048 S128x2048 where
  lhsContracting := [1]
  rhsContracting := [0]
  lhsNonContracting := [0]
  rhsNonContracting := [1]
  lhsBatch := []
  rhsBatch := []
  wf := dot_S128x8192_S8192x2048_S128x2048_1_0_0_1_n_n_wf
def dot_S128x2048_S2048x18_S128x18_1_0_0_1_n_n : DotDims S128x2048 S2048x18 S128x18 where
  lhsContracting := [1]
  rhsContracting := [0]
  lhsNonContracting := [0]
  rhsNonContracting := [1]
  lhsBatch := []
  rhsBatch := []
  wf := dot_S128x2048_S2048x18_S128x18_1_0_0_1_n_n_wf

class Facts : Prop extends Facts₀ where

variable [Facts]
-- ==== Proof.KBShared.lean ====
/-
  What the three branches' frame proofs share: the closed forms of each body's two conditionals over the sixteen
  grid points, where each output window is idle, the memrefs a body is called with, the class invariant with the two
  accumulators split out, and each window's block at a grid point read off the array the region is entered with.
-/
import proofs.«181729_j86371792323176_1_alg».proof.Proof.Gen.Kernel.Launch
import proofs.«181729_j86371792323176_1_alg».proof.Proof.Gen.Kernel.Skeleton
import proofs.«181729_j86371792323176_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Branch 0: where its two conditionals hold, where its output window is idle, its memrefs -/

/-- The first conditional of branch 0's body (zero the two accumulators) as a proposition over the grid coordinates. -/
abbrev cond0_0 (i : grid0.Coords) : Prop := (Scalar.cmpi .ne (Scalar.extui (Scalar.cmpi .eq (BitVec.ofNat 32 (i 0).val) 0#32)) 0#32) = 1#1
/-- It holds at the first grid point only. -/
theorem hcond0_0 : ∀ t : Fin cfg0.N, cond0_0 (grid0.coords t) ↔ t.val = 0 :=
  (by decide +kernel : ∀ t : Fin grid0.N, cond0_0 (grid0.coords t) ↔ t.val = 0)
/-- The second conditional (scale and store the result). -/
abbrev cond0_1 (i : grid0.Coords) : Prop := k0_cond2 i = 1#1
/-- It holds at the last grid point only. -/
theorem hcond0_1 : ∀ t : Fin cfg0.N, cond0_1 (grid0.coords t) ↔ t.val = 15 :=
  (by decide +kernel : ∀ t : Fin grid0.N, cond0_1 (grid0.coords t) ↔ t.val = 15)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point it is live. -/
theorem liveAt0_3 : ∀ t : Fin cfg0.N, cond0_1 (grid0.coords t) → cfg0.idle 3 (grid0.coords t) = false := by decide +kernel

/-- Each window's current staging memref at point t, as the pipeline passes it to the body, and its wholeness. -/
abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
/-- The two accumulators: whole scratch buffers of the kernel's own. -/
abbrev scM0_0 : Memref sig .tc .vmem S128x2048 .f32 := Memref.whole cc0_scratch0
abbrev scM0_1 : Memref sig .tc .vmem S128x2048 .f32 := Memref.whole cc0_scratch1
/-- Views through which the contents of the output's staging buffer and of the two accumulators are stated. -/
abbrev VO0_3 : View sig .tc .vmem S128x2048 .f32 := (Memref.whole cc0_stg3_0 : Memref sig .tc .vmem S128x2048 .f32).view
abbrev VS0_0 : View sig .tc .vmem S128x2048 .f32 := scM0_0.view
abbrev VS0_1 : View sig .tc .vmem S128x2048 .f32 := scM0_1.view

/-- The region's class invariant with branch 0's two accumulators split out of the scoped rest, each owned whole at
    some contents; every other scoped buffer stays unopened. -/
theorem PhiA0_eq (c : Dev nD) :
    (Pipeline.ΦA spec0 c : sProp 𝕄)
      = iprop(((((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r))) := by
  unfold Pipeline.ΦA
  rw [Pipeline.scopedRest_split_of_list spec0 c [cc0_scratch0, cc0_scratch1] (by decide) (by decide)]
  simp only [scM0_0, scM0_1, owns_whole, bigSepL, List.foldr, BI.sep_emp]
  rfl

/-! ## Branch 1: where its two conditionals hold, where its output window is idle, its memrefs -/

/-- The first conditional of branch 1's body (zero the two accumulators) as a proposition over the grid coordinates. -/
abbrev cond1_0 (i : grid1.Coords) : Prop := (Scalar.cmpi .ne (Scalar.extui (Scalar.cmpi .eq (BitVec.ofNat 32 (i 0).val) 0#32)) 0#32) = 1#1
/-- It holds at the first grid point only. -/
theorem hcond1_0 : ∀ t : Fin cfg1.N, cond1_0 (grid1.coords t) ↔ t.val = 0 :=
  (by decide +kernel : ∀ t : Fin grid1.N, cond1_0 (grid1.coords t) ↔ t.val = 0)
/-- The second conditional (scale and store the result). -/
abbrev cond1_1 (i : grid1.Coords) : Prop := k1_cond2 i = 1#1
/-- It holds at the last grid point only. -/
theorem hcond1_1 : ∀ t : Fin cfg1.N, cond1_1 (grid1.coords t) ↔ t.val = 15 :=
  (by decide +kernel : ∀ t : Fin grid1.N, cond1_1 (grid1.coords t) ↔ t.val = 15)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last point it is live. -/
theorem liveAt1_3 : ∀ t : Fin cfg1.N, cond1_1 (grid1.coords t) → cfg1.idle 3 (grid1.coords t) = false := by decide +kernel

/-- Each window's current staging memref at point t, as the pipeline passes it to the body, and its wholeness. -/
abbrev ms1_0 (t : Fin cfg1.N) : Memref sig .tc .vmem S128x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x2048 .f32 := win1_3.stage (cfg1.slots t 3)
abbrev hs1_3 (t : Fin cfg1.N) : (ms1_3 t).IsWhole := hstage1_3 ((cfg1.slots t 3).cast nbuf1_3)
/-- The two accumulators: whole scratch buffers of the kernel's own. -/
abbrev scM1_0 : Memref sig .tc .vmem S128x2048 .f32 := Memref.whole cc1_scratch0
abbrev scM1_1 : Memref sig .tc .vmem S128x2048 .f32 := Memref.whole cc1_scratch1
/-- Views through which the contents of the output's staging buffer and of the two accumulators are stated. -/
abbrev VO1_3 : View sig .tc .vmem S128x2048 .f32 := (Memref.whole cc1_stg3_0 : Memref sig .tc .vmem S128x2048 .f32).view
abbrev VS1_0 : View sig .tc .vmem S128x2048 .f32 := scM1_0.view
abbrev VS1_1 : View sig .tc .vmem S128x2048 .f32 := scM1_1.view

/-- The region's class invariant with branch 1's two accumulators split out of the scoped rest, each owned whole at
    some contents; every other scoped buffer stays unopened. -/
theorem PhiA1_eq (c : Dev nD) :
    (Pipeline.ΦA spec1 c : sProp 𝕄)
      = iprop(((((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r))) := by
  unfold Pipeline.ΦA
  rw [Pipeline.scopedRest_split_of_list spec1 c [cc1_scratch0, cc1_scratch1] (by decide) (by decide)]
  simp only [scM1_0, scM1_1, owns_whole, bigSepL, List.foldr, BI.sep_emp]
  rfl

/-! ## Branch 2: where its two conditionals hold, where its output window is idle, its memrefs -/

/-- The first conditional of branch 2's body (zero the two accumulators) as a proposition over the grid coordinates. -/
abbrev cond2_0 (i : grid2.Coords) : Prop := (Scalar.cmpi .ne (Scalar.extui (Scalar.cmpi .eq (BitVec.ofNat 32 (i 0).val) 0#32)) 0#32) = 1#1
/-- It holds at the first grid point only. -/
theorem hcond2_0 : ∀ t : Fin cfg2.N, cond2_0 (grid2.coords t) ↔ t.val = 0 :=
  (by decide +kernel : ∀ t : Fin grid2.N, cond2_0 (grid2.coords t) ↔ t.val = 0)
/-- The second conditional (scale and store the result). -/
abbrev cond2_1 (i : grid2.Coords) : Prop := k2_cond2 i = 1#1
/-- It holds at the last grid point only. -/
theorem hcond2_1 : ∀ t : Fin cfg2.N, cond2_1 (grid2.coords t) ↔ t.val = 15 :=
  (by decide +kernel : ∀ t : Fin grid2.N, cond2_1 (grid2.coords t) ↔ t.val = 15)

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last point the output window is idle and is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last point it is live. -/
theorem liveAt2_3 : ∀ t : Fin cfg2.N, cond2_1 (grid2.coords t) → cfg2.idle 3 (grid2.coords t) = false := by decide +kernel

/-- Each window's current staging memref at point t, as the pipeline passes it to the body, and its wholeness. -/
abbrev ms2_0 (t : Fin cfg2.N) : Memref sig .tc .vmem S128x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x2048 .f32 := win2_3.stage (cfg2.slots t 3)
abbrev hs2_3 (t : Fin cfg2.N) : (ms2_3 t).IsWhole := hstage2_3 ((cfg2.slots t 3).cast nbuf2_3)
/-- The two accumulators: whole scratch buffers of the kernel's own. -/
abbrev scM2_0 : Memref sig .tc .vmem S128x2048 .f32 := Memref.whole cc2_scratch0
abbrev scM2_1 : Memref sig .tc .vmem S128x2048 .f32 := Memref.whole cc2_scratch1
/-- Views through which the contents of the output's staging buffer and of the two accumulators are stated. -/
abbrev VO2_3 : View sig .tc .vmem S128x2048 .f32 := (Memref.whole cc2_stg3_0 : Memref sig .tc .vmem S128x2048 .f32).view
abbrev VS2_0 : View sig .tc .vmem S128x2048 .f32 := scM2_0.view
abbrev VS2_1 : View sig .tc .vmem S128x2048 .f32 := scM2_1.view

/-- The region's class invariant with branch 2's two accumulators split out of the scoped rest, each owned whole at
    some contents; every other scoped buffer stays unopened. -/
theorem PhiA2_eq (c : Dev nD) :
    (Pipeline.ΦA spec2 c : sProp 𝕄)
      = iprop(((((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r))) := by
  unfold Pipeline.ΦA
  rw [Pipeline.scopedRest_split_of_list spec2 c [cc2_scratch0, cc2_scratch1] (by decide) (by decide)]
  simp only [scM2_0, scM2_1, owns_whole, bigSepL, List.foldr, BI.sep_emp]
  rfl

section Blocks
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Blocks

end Cert.Kernel.Hand

end
-- ==== Proof.KBRun0A.lean ====
/-
  Branch 0's body run at the first grid point (the accumulators are zeroed first; nothing is stored into the output): from whole memrefs holding the three input blocks, the body
  runs to its end leaving the inputs as they were and each buffer it stores into at its stores' pieces; the piece lists
  are found by the symbolic run.
-/
import proofs.«181729_j86371792323176_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written (the output's staging buffer, not stored into here, as it was). -/
noncomputable def kernelRun0_A (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond0_0 i) (hc1 : ¬cond0_1 i)
    (x0 : Vec F S128x512 .f32) (x1 : Vec F S512x2048 .f32) (x2 : Vec F S512x2048 .f32) :
    Σ' (LS0 : List (View.Piece (Elt F) S128x2048 .f32)), { LS1 : List (View.Piece (Elt F) S128x2048 .f32) //
      ∀ (x3 : Vec F S128x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__branch_kernel i arg1 harg1 arg2 harg2 arg3 harg3 arg4 harg4 arg5 harg5 arg6 harg6) K } := by
  refine ⟨?_, ?_, fun x3 E K => ?run⟩
  case run =>
    simp only [cc0__branch_kernel_eq_skeleton]; unfold cc0__branch_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact hf3
      iexact H3
    isplitl [HS0]; · iexists _; iexact HS0
    iexists _; iexact HS1

end Cert.Kernel.Hand

end
-- ==== Proof.KBRun0B.lean ====
/-
  Branch 0's body run at a middle grid point (the accumulators are added to; nothing is stored into the output): from whole memrefs holding the three input blocks and the two accumulators' contents, the body
  runs to its end leaving the inputs as they were and each buffer it stores into at its stores' pieces; the piece lists
  are found by the symbolic run.
-/
import proofs.«181729_j86371792323176_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written (the output's staging buffer, not stored into here, as it was). -/
noncomputable def kernelRun0_B (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : ¬cond0_1 i)
    (x0 : Vec F S128x512 .f32) (x1 : Vec F S512x2048 .f32) (x2 : Vec F S512x2048 .f32) (xs0 xs1 : Vec F S128x2048 .f32) :
    Σ' (LS0 : List (View.Piece (Elt F) S128x2048 .f32)), { LS1 : List (View.Piece (Elt F) S128x2048 .f32) //
      ∀ (x3 : Vec F S128x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__branch_kernel i arg1 harg1 arg2 harg2 arg3 harg3 arg4 harg4 arg5 harg5 arg6 harg6) K } := by
  refine ⟨?_, ?_, fun x3 E K => ?run⟩
  case run =>
    simp only [cc0__branch_kernel_eq_skeleton]; unfold cc0__branch_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact hf3
      iexact H3
    isplitl [HS0]; · iexists _; iexact HS0
    iexists _; iexact HS1

end Cert.Kernel.Hand

end
-- ==== Proof.KBRun0C.lean ====
/-
  Branch 0's body run at the last grid point (the accumulators are added to, then the scaled result is stored into the output): from whole memrefs holding the three input blocks and the two accumulators' contents, the body
  runs to its end leaving the inputs as they were and each buffer it stores into at its stores' pieces; the piece lists
  are found by the symbolic run.
-/
import proofs.«181729_j86371792323176_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written. -/
noncomputable def kernelRun0_C (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i)
    (x0 : Vec F S128x512 .f32) (x1 : Vec F S512x2048 .f32) (x2 : Vec F S512x2048 .f32) (xs0 xs1 : Vec F S128x2048 .f32) :
    Σ' (L3 : List (View.Piece (Elt F) S128x2048 .f32)) (LS0 : List (View.Piece (Elt F) S128x2048 .f32)), { LS1 : List (View.Piece (Elt F) S128x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__branch_kernel i arg1 harg1 arg2 harg2 arg3 harg3 arg4 harg4 arg5 harg5 arg6 harg6) K } := by
  refine ⟨?_, ?_, ?_, fun E K => ?run⟩
  case run =>
    simp only [cc0__branch_kernel_eq_skeleton]; unfold cc0__branch_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Cert.Kernel.Hand

end
-- ==== Proof.KBRegion0.lean ====
/-
  Branch 0 as one region of the program, at the contents V the region is entered with: what each case of the body
  leaves in the two accumulators and in the output's staging buffer (the runs' pieces read back), what they hold
  after each grid point (by recursion on the point: the first point's case, then the middle case fourteen
  times, then the last point's), the region invariant carrying the accumulators from point to point, the pipeline's
  proof data and the body obligation at every point.
-/
import proofs.«181729_j86371792323176_1_alg».proof.Proof.KBRun0A
import proofs.«181729_j86371792323176_1_alg».proof.Proof.KBRun0B
import proofs.«181729_j86371792323176_1_alg».proof.Proof.KBRun0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- The first point's pieces for the first accumulator cover it. -/
theorem scover0_A_0 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond0_0 i) (hc1 : ¬cond0_1 i) (x0 : Vec F S128x512 .f32) (x1 : Vec F S512x2048 .f32) (x2 : Vec F S512x2048 .f32) (y : S128x2048.Idx) :
    ∃ pc ∈ (kernelRun0_A c i arg1 harg1 arg2 harg2 arg3 harg3 arg4 harg4 arg5 harg5 arg6 harg6 hc0 hc1 x0 x1 x2).1, y ∈ pc.1.set :=
  View.cover_of_tiledL (kernelRun0_A c i arg1 harg1 arg2 harg2 arg3 harg3 arg4 harg4 arg5 harg5 arg6 harg6 hc0 hc1 x0 x1 x2).1 S128x2048.size (by sl_kernel_rfl) y

/-- What the first point leaves in the first accumulator. -/
def sout0_A_0 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond0_0 i) (hc1 : ¬cond0_1 i) (x0 : Vec F S128x512 .f32) (x1 : Vec F S512x2048 .f32) (x2 : Vec F S512x2048 .f32) : Vec F S128x2048 .f32 :=
  VS0_0.read (Elt F) (VS0_0.writes (Elt F) VS0_0.junk (kernelRun0_A c i arg1 harg1 arg2 harg2 arg3 harg3 arg4 harg4 arg5 harg5 arg6 harg6 hc0 hc1 x0 x1 x2).1)

/-- The first point's pieces for the second accumulator cover it. -/
theorem scover0_A_1 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond0_0 i) (hc1 : ¬cond0_1 i) (x0 : Vec F S128x512 .f32) (x1 : Vec F S512x2048 .f32) (x2 : Vec F S512x2048 .f32) (y : S128x2048.Idx) :
    ∃ pc ∈ (kernelRun0_A c i arg1 harg1 arg2 harg2 arg3 harg3 arg4 harg4 arg5 harg5 arg6 harg6 hc0 hc1 x0 x1 x2).2.1, y ∈ pc.1.set :=
  View.cover_of_tiledL (kernelRun0_A c i arg1 harg1 arg2 harg2 arg3 harg3 arg4 harg4 arg5 harg5 arg6 harg6 hc0 hc1 x0 x1 x2).2.1 S128x2048.size (by sl_kernel_rfl) y

/-- What the first point leaves in the second accumulator. -/
def sout0_A_1 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond0_0 i) (hc1 : ¬cond0_1 i) (x0 : Vec F S128x512 .f32) (x1 : Vec F S512x2048 .f32) (x2 : Vec F S512x2048 .f32) : Vec F S128x2048 .f32 :=
  VS0_1.read (Elt F) (VS0_1.writes (Elt F) VS0_1.junk (kernelRun0_A c i arg1 harg1 arg2 harg2 arg3 harg3 arg4 harg4 arg5 harg5 arg6 harg6 hc0 hc1 x0 x1 x2).2.1)

/-- A middle point's pieces for the first accumulator cover it. -/
theorem scover0_B_0 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : ¬cond0_1 i) (x0 : Vec F S128x512 .f32) (x1 : Vec F S512x2048 .f32) (x2 : Vec F S512x2048 .f32) (xs0 xs1 : Vec F S128x2048 .f32) (y : S128x2048.Idx) :
    ∃ pc ∈ (kernelRun0_B c i arg1 harg1 arg2 harg2 arg3 harg3 arg4 harg4 arg5 harg5 arg6 harg6 hc0 hc1 x0 x1 x2 xs0 xs1).1, y ∈ pc.1.set :=
  View.cover_of_tiledL (kernelRun0_B c i arg1 harg1 arg2 harg2 arg3 harg3 arg4 harg4 arg5 harg5 arg6 harg6 hc0 hc1 x0 x1 x2 xs0 xs1).1 S128x2048.size (by sl_kernel_rfl) y

/-- What a middle point leaves in the first accumulator. -/
def sout0_B_0 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : ¬cond0_1 i) (x0 : Vec F S128x512 .f32) (x1 : Vec F S512x2048 .f32) (x2 : Vec F S512x2048 .f32) (xs0 xs1 : Vec F S128x2048 .f32) : Vec F S128x2048 .f32 :=
  VS0_0.read (Elt F) (VS0_0.writes (Elt F) VS0_0.junk (kernelRun0_B c i arg1 harg1 arg2 harg2 arg3 harg3 arg4 harg4 arg5 harg5 arg6 harg6 hc0 hc1 x0 x1 x2 xs0 xs1).1)

/-- A middle point's pieces for the second accumulator cover it. -/
theorem scover0_B_1 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : ¬cond0_1 i) (x0 : Vec F S128x512 .f32) (x1 : Vec F S512x2048 .f32) (x2 : Vec F S512x2048 .f32) (xs0 xs1 : Vec F S128x2048 .f32) (y : S128x2048.Idx) :
    ∃ pc ∈ (kernelRun0_B c i arg1 harg1 arg2 harg2 arg3 harg3 arg4 harg4 arg5 harg5 arg6 harg6 hc0 hc1 x0 x1 x2 xs0 xs1).2.1, y ∈ pc.1.set :=
  View.cover_of_tiledL (kernelRun0_B c i arg1 harg1 arg2 harg2 arg3 harg3 arg4 harg4 arg5 harg5 arg6 harg6 hc0 hc1 x0 x1 x2 xs0 xs1).2.1 S128x2048.size (by sl_kernel_rfl) y

/-- What a middle point leaves in the second accumulator. -/
def sout0_B_1 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : ¬cond0_1 i) (x0 : Vec F S128x512 .f32) (x1 : Vec F S512x2048 .f32) (x2 : Vec F S512x2048 .f32) (xs0 xs1 : Vec F S128x2048 .f32) : Vec F S128x2048 .f32 :=
  VS0_1.read (Elt F) (VS0_1.writes (Elt F) VS0_1.junk (kernelRun0_B c i arg1 harg1 arg2 harg2 arg3 harg3 arg4 harg4 arg5 harg5 arg6 harg6 hc0 hc1 x0 x1 x2 xs0 xs1).2.1)

/-- The last point's pieces for the output's staging buffer cover it. -/
theorem cover0_C_3 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) (y : S128x2048.Idx) :
    ∃ pc ∈ (kernelRun0_C c i arg1 harg1 arg2 harg2 arg3 harg3 arg4 harg4 arg5 harg5 arg6 harg6 hc0 hc1 x0 x1 x2 xs0 xs1).1, y ∈ pc.1.set :=
  View.cover_of_tiledL (kernelRun0_C c i arg1 harg1 arg2 harg2 arg3 harg3 arg4 harg4 arg5 harg5 arg6 harg6 hc0 hc1 x0 x1 x2 xs0 xs1).1 S128x2048.size (by sl_kernel_rfl) y

/-- What the last point leaves in the output's staging buffer. -/
def out0_C_3 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) : Vec F S128x2048 .f32 :=
  VO0_3.read (Elt F) (VO0_3.writes (Elt F) VO0_3.junk (kernelRun0_C c i arg1 harg1 arg2 harg2 arg3 harg3 arg4 harg4 arg5 harg5 arg6 harg6 hc0 hc1 x0 x1 x2 xs0 xs1).1)

/-- The last point's pieces for the first accumulator cover it. -/
theorem scover0_C_0 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) (y : S128x2048.Idx) :
    ∃ pc ∈ (kernelRun0_C c i arg1 harg1 arg2 harg2 arg3 harg3 arg4 harg4 arg5 harg5 arg6 harg6 hc0 hc1 x0 x1 x2 xs0 xs1).2.1, y ∈ pc.1.set :=
  View.cover_of_tiledL (kernelRun0_C c i arg1 harg1 arg2 harg2 arg3 harg3 arg4 harg4 arg5 harg5 arg6 harg6 hc0 hc1 x0 x1 x2 xs0 xs1).2.1 S128x2048.size (by sl_kernel_rfl) y

/-- What the last point leaves in the first accumulator. -/
def sout0_C_0 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) : Vec F S128x2048 .f32 :=
  VS0_0.read (Elt F) (VS0_0.writes (Elt F) VS0_0.junk (kernelRun0_C c i arg1 harg1 arg2 harg2 arg3 harg3 arg4 harg4 arg5 harg5 arg6 harg6 hc0 hc1 x0 x1 x2 xs0 xs1).2.1)

/-- The last point's pieces for the second accumulator cover it. -/
theorem scover0_C_1 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) (y : S128x2048.Idx) :
    ∃ pc ∈ (kernelRun0_C c i arg1 harg1 arg2 harg2 arg3 harg3 arg4 harg4 arg5 harg5 arg6 harg6 hc0 hc1 x0 x1 x2 xs0 xs1).2.2.1, y ∈ pc.1.set :=
  View.cover_of_tiledL (kernelRun0_C c i arg1 harg1 arg2 harg2 arg3 harg3 arg4 harg4 arg5 harg5 arg6 harg6 hc0 hc1 x0 x1 x2 xs0 xs1).2.2.1 S128x2048.size (by sl_kernel_rfl) y

/-- What the last point leaves in the second accumulator. -/
def sout0_C_1 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) : Vec F S128x2048 .f32 :=
  VS0_1.read (Elt F) (VS0_1.writes (Elt F) VS0_1.junk (kernelRun0_C c i arg1 harg1 arg2 harg2 arg3 harg3 arg4 harg4 arg5 harg5 arg6 harg6 hc0 hc1 x0 x1 x2 xs0 xs1).2.2.1)

section Region
variable (V : (c : Dev nD) → (b : Ref sig .tc) → Buf (Elt F) ((c : Thread nD τ).loc b))

/-! ## The accumulation over the grid -/

/-- A placeholder for the output's staging buffer at the points that store nothing into it (nothing reads it). -/
def idleOut0 : Vec F S128x2048 .f32 := VO0_3.read (Elt F) VO0_3.junk

/-- What the output's staging buffer and the two accumulators hold after the body at grid position n. -/
def outsAt0 (c : Dev nD) : (n : ℕ) → n < cfg0.N → Vec F S128x2048 .f32 × Vec F S128x2048 .f32 × Vec F S128x2048 .f32
  | 0, hn => (idleOut0,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr rfl) (fun h => absurd ((hcond0_1 ⟨0, hn⟩).mp h) (show (0 : ℕ) ≠ 15 by decide)) (iblk0 V c 0 ⟨0, hn⟩) (iblk0 V c 1 ⟨0, hn⟩) (iblk0 V c 2 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr rfl) (fun h => absurd ((hcond0_1 ⟨0, hn⟩).mp h) (show (0 : ℕ) ≠ 15 by decide)) (iblk0 V c 0 ⟨0, hn⟩) (iblk0 V c 1 ⟨0, hn⟩) (iblk0 V c 2 ⟨0, hn⟩))
  | n + 1, hn =>
    if h1 : n + 1 = 15 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
    else
      (idleOut0,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- At the first point. -/
theorem outsAt0_A (c : Dev nD) (t : Fin cfg0.N) (h0 : t.val = 0) :
    outsAt0 V c t.val t.isLt = (idleOut0,
      sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => by have := (hcond0_1 t).mp h; omega) (iblk0 V c 0 t) (iblk0 V c 1 t) (iblk0 V c 2 t),
      sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => by have := (hcond0_1 t).mp h; omega) (iblk0 V c 0 t) (iblk0 V c 1 t) (iblk0 V c 2 t)) := by
  obtain ⟨n, hn⟩ := t
  cases n with
  | zero => rfl
  | succ n => exact absurd h0 (Nat.succ_ne_zero n)

/-- At a middle point: over what the point before left in the accumulators. -/
theorem outsAt0_B (c : Dev nD) (t : Fin cfg0.N) (h0 : t.val ≠ 0) (h1 : t.val ≠ 15) :
    outsAt0 V c t.val t.isLt = (idleOut0,
      sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
      sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd rfl h0
  | succ n => exact (dif_neg h1).trans rfl

/-- At the last point: over what the point before left in the accumulators. -/
theorem outsAt0_C (c : Dev nD) (t : Fin cfg0.N) (h0 : t.val ≠ 0) (h1 : t.val = 15) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
      sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
      sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd rfl h0
  | succ n => exact (dif_pos h1).trans rfl

/-! ## The region invariant -/

/-- Before grid position n: at the first point the class invariant (the accumulators at anything); afterwards the two
    accumulators at what the point before left in them, the other scoped buffers unopened, the generator register at
    some state. -/
def PhiS0 (c : Dev nD) : (n : ℕ) → n ≤ cfg0.N → sProp 𝕄
  | 0, _ => Pipeline.ΦA spec0 c
  | n + 1, hn => iprop((((owns (c : Thread nD τ) scM0_0 fullShare ((outsAt0 V c n hn).2.1) ∗ owns (c : Thread nD τ) scM0_1 fullShare ((outsAt0 V c n hn).2.2))
      ∗ Pipeline.scopedRestBut (Ix := Unit) (Name := ℕ) (U := UR sig nD τ) (Lvl := ℕ) (Val := Elt F) spec0 c [cc0_scratch0, cc0_scratch1])
      ∗ (∃ r, prngReg c r)))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((((owns (c : Thread nD τ) scM0_0 fullShare ((outsAt0 V c n hn).2.1) ∗ owns (c : Thread nD τ) scM0_1 fullShare ((outsAt0 V c n hn).2.2))
      ∗ Pipeline.scopedRestBut (Ix := Unit) (Name := ℕ) (U := UR sig nD τ) (Lvl := ℕ) (Val := Elt F) spec0 c [cc0_scratch0, cc0_scratch1])
      ∗ (∃ r, prngReg c r))) := rfl

theorem PhiS0_pos (c : Dev nD) (n : ℕ) (h : n ≤ cfg0.N) (hz : n ≠ 0) :
    PhiS0 V c n h = iprop((((owns (c : Thread nD τ) scM0_0 fullShare ((outsAt0 V c (n - 1) (by omega)).2.1) ∗ owns (c : Thread nD τ) scM0_1 fullShare ((outsAt0 V c (n - 1) (by omega)).2.2))
      ∗ Pipeline.scopedRestBut (Ix := Unit) (Name := ℕ) (U := UR sig nD τ) (Lvl := ℕ) (Val := Elt F) spec0 c [cc0_scratch0, cc0_scratch1])
      ∗ (∃ r, prngReg c r))) := by
  cases n with
  | zero => exact absurd rfl hz
  | succ n => rfl

/-! ## The pipeline's proof data -/

/-- The arrays as the region finds them; after the body at point t each input's staging buffer at its block and the
    output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val = 0
  · have hc1 : ¬cond0_1 (grid0.coords t) := fun h => by have := (hcond0_1 t).mp h; omega
    rw [Dat.leavesExact_idle (dat0 V c) 3 t (idleAt0_3 t hc1) (noFlush0_3 t hc1)]
    rw [outsAt0_A V c t h0]
    unfold sout0_A_0 sout0_A_1; (try dsimp only)
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩⟩
    iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) hc1 (iblk0 V c 0 t) (iblk0 V c 1 t) (iblk0 V c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    ·
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 _ _ _ _ _ _ _ _ _ _ _ _ _ _ _ _ _ _ _)
            · unfold owns; iexists _; isplitr
              swap; · iexact HS1
              ipureintro; exact View.read_writes_of_cover _ _ _ _ _ (scover0_A_1 _ _ _ _ _ _ _ _ _ _ _ _ _ _ _ _ _ _ _)
          · iexact Hrest
        · iexact Hg
      isplitl [Ho]; · iexact Ho
      isplitl [H0]; · iexact H0
      isplitl [H1]; · iexact H1
      isplitl [H2]; · iexact H2
      iexists _; iexact H3
  · by_cases h1 : t.val = 15
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0 sout0_C_1; (try dsimp only)
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      ·
        iintro ⟨H0, H1, H2, H3, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_C_0 _ _ _ _ _ _ _ _ _ _ _ _ _ _ _ _ _ _ _ _ _)
              · unfold owns; iexists _; isplitr
                swap; · iexact HS1
                ipureintro; exact View.read_writes_of_cover _ _ _ _ _ (scover0_C_1 _ _ _ _ _ _ _ _ _ _ _ _ _ _ _ _ _ _ _ _ _)
            · iexact Hrest
          · iexact Hg
        isplitl [Ho]; · iexact Ho
        isplitl [H0]; · iexact H0
        isplitl [H1]; · iexact H1
        isplitl [H2]; · iexact H2
        icases H3 with ⟨%e3, H3⟩
        unfold owns; iexists _; isplitr
        swap; · iexact H3
        ipureintro; exact View.read_writes_of_cover _ _ _ _ _ (cover0_C_3 _ _ _ _ _ _ _ _ _ _ _ _ _ _ _ _ _ _ _ _ _)
    · have hc1 : ¬cond0_1 (grid0.coords t) := fun h => h1 ((hcond0_1 t).mp h)
      rw [Dat.leavesExact_idle (dat0 V c) 3 t (idleAt0_3 t hc1) (noFlush0_3 t hc1)]
      rw [outsAt0_B V c t h0 h1]
      unfold sout0_B_0 sout0_B_1; (try dsimp only)
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) hc1 (iblk0 V c 0 t) (iblk0 V c 1 t) (iblk0 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      ·
        iintro ⟨H0, H1, H2, H3, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_B_0 _ _ _ _ _ _ _ _ _ _ _ _ _ _ _ _ _ _ _ _ _)
              · unfold owns; iexists _; isplitr
                swap; · iexact HS1
                ipureintro; exact View.read_writes_of_cover _ _ _ _ _ (scover0_B_1 _ _ _ _ _ _ _ _ _ _ _ _ _ _ _ _ _ _ _ _ _)
            · iexact Hrest
          · iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

end Region

end Cert.Kernel.Hand

end
-- ==== Proof.KBRun1A.lean ====
/-
  Branch 1's body run at the first grid point (the accumulators are zeroed first; nothing is stored into the output): from whole memrefs holding the three input blocks, the body
  runs to its end leaving the inputs as they were and each buffer it stores into at its stores' pieces; the piece lists
  are found by the symbolic run.
-/
import proofs.«181729_j86371792323176_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written (the output's staging buffer, not stored into here, as it was). -/
noncomputable def kernelRun1_A (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i)
    (x0 : Vec F S128x512 .f32) (x1 : Vec F S512x2048 .f32) (x2 : Vec F S512x2048 .f32) :
    Σ' (LS0 : List (View.Piece (Elt F) S128x2048 .f32)), { LS1 : List (View.Piece (Elt F) S128x2048 .f32) //
      ∀ (x3 : Vec F S128x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__branch_kernel i arg1 harg1 arg2 harg2 arg3 harg3 arg4 harg4 arg5 harg5 arg6 harg6) K } := by
  refine ⟨?_, ?_, fun x3 E K => ?run⟩
  case run =>
    simp only [cc1__branch_kernel_eq_skeleton]; unfold cc1__branch_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact hf3
      iexact H3
    isplitl [HS0]; · iexists _; iexact HS0
    iexists _; iexact HS1

end Cert.Kernel.Hand

end
-- ==== Proof.KBRun1B.lean ====
/-
  Branch 1's body run at a middle grid point (the accumulators are added to; nothing is stored into the output): from whole memrefs holding the three input blocks and the two accumulators' contents, the body
  runs to its end leaving the inputs as they were and each buffer it stores into at its stores' pieces; the piece lists
  are found by the symbolic run.
-/
import proofs.«181729_j86371792323176_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written (the output's staging buffer, not stored into here, as it was). -/
noncomputable def kernelRun1_B (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i)
    (x0 : Vec F S128x512 .f32) (x1 : Vec F S512x2048 .f32) (x2 : Vec F S512x2048 .f32) (xs0 xs1 : Vec F S128x2048 .f32) :
    Σ' (LS0 : List (View.Piece (Elt F) S128x2048 .f32)), { LS1 : List (View.Piece (Elt F) S128x2048 .f32) //
      ∀ (x3 : Vec F S128x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__branch_kernel i arg1 harg1 arg2 harg2 arg3 harg3 arg4 harg4 arg5 harg5 arg6 harg6) K } := by
  refine ⟨?_, ?_, fun x3 E K => ?run⟩
  case run =>
    simp only [cc1__branch_kernel_eq_skeleton]; unfold cc1__branch_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact hf3
      iexact H3
    isplitl [HS0]; · iexists _; iexact HS0
    iexists _; iexact HS1

end Cert.Kernel.Hand

end
-- ==== Proof.KBRun1C.lean ====
/-
  Branch 1's body run at the last grid point (the accumulators are added to, then the scaled result is stored into the output): from whole memrefs holding the three input blocks and the two accumulators' contents, the body
  runs to its end leaving the inputs as they were and each buffer it stores into at its stores' pieces; the piece lists
  are found by the symbolic run.
-/
import proofs.«181729_j86371792323176_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written. -/
noncomputable def kernelRun1_C (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i)
    (x0 : Vec F S128x512 .f32) (x1 : Vec F S512x2048 .f32) (x2 : Vec F S512x2048 .f32) (xs0 xs1 : Vec F S128x2048 .f32) :
    Σ' (L3 : List (View.Piece (Elt F) S128x2048 .f32)) (LS0 : List (View.Piece (Elt F) S128x2048 .f32)), { LS1 : List (View.Piece (Elt F) S128x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__branch_kernel i arg1 harg1 arg2 harg2 arg3 harg3 arg4 harg4 arg5 harg5 arg6 harg6) K } := by
  refine ⟨?_, ?_, ?_, fun E K => ?run⟩
  case run =>
    simp only [cc1__branch_kernel_eq_skeleton]; unfold cc1__branch_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Cert.Kernel.Hand

end
-- ==== Proof.KBRegion1.lean ====
/-
  Branch 1 as one region of the program, at the contents V the region is entered with: what each case of the body
  leaves in the two accumulators and in the output's staging buffer (the runs' pieces read back), what they hold
  after each grid point (by recursion on the point: the first point's case, then the middle case fourteen
  times, then the last point's), the region invariant carrying the accumulators from point to point, the pipeline's
  proof data and the body obligation at every point.
-/
import proofs.«181729_j86371792323176_1_alg».proof.Proof.KBRun1A
import proofs.«181729_j86371792323176_1_alg».proof.Proof.KBRun1B
import proofs.«181729_j86371792323176_1_alg».proof.Proof.KBRun1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- The first point's pieces for the first accumulator cover it. -/
theorem scover1_A_0 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i) (x0 : Vec F S128x512 .f32) (x1 : Vec F S512x2048 .f32) (x2 : Vec F S512x2048 .f32) (y : S128x2048.Idx) :
    ∃ pc ∈ (kernelRun1_A c i arg1 harg1 arg2 harg2 arg3 harg3 arg4 harg4 arg5 harg5 arg6 harg6 hc0 hc1 x0 x1 x2).1, y ∈ pc.1.set :=
  View.cover_of_tiledL (kernelRun1_A c i arg1 harg1 arg2 harg2 arg3 harg3 arg4 harg4 arg5 harg5 arg6 harg6 hc0 hc1 x0 x1 x2).1 S128x2048.size (by sl_kernel_rfl) y

/-- What the first point leaves in the first accumulator. -/
def sout1_A_0 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i) (x0 : Vec F S128x512 .f32) (x1 : Vec F S512x2048 .f32) (x2 : Vec F S512x2048 .f32) : Vec F S128x2048 .f32 :=
  VS1_0.read (Elt F) (VS1_0.writes (Elt F) VS1_0.junk (kernelRun1_A c i arg1 harg1 arg2 harg2 arg3 harg3 arg4 harg4 arg5 harg5 arg6 harg6 hc0 hc1 x0 x1 x2).1)

/-- The first point's pieces for the second accumulator cover it. -/
theorem scover1_A_1 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i) (x0 : Vec F S128x512 .f32) (x1 : Vec F S512x2048 .f32) (x2 : Vec F S512x2048 .f32) (y : S128x2048.Idx) :
    ∃ pc ∈ (kernelRun1_A c i arg1 harg1 arg2 harg2 arg3 harg3 arg4 harg4 arg5 harg5 arg6 harg6 hc0 hc1 x0 x1 x2).2.1, y ∈ pc.1.set :=
  View.cover_of_tiledL (kernelRun1_A c i arg1 harg1 arg2 harg2 arg3 harg3 arg4 harg4 arg5 harg5 arg6 harg6 hc0 hc1 x0 x1 x2).2.1 S128x2048.size (by sl_kernel_rfl) y

/-- What the first point leaves in the second accumulator. -/
def sout1_A_1 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i) (x0 : Vec F S128x512 .f32) (x1 : Vec F S512x2048 .f32) (x2 : Vec F S512x2048 .f32) : Vec F S128x2048 .f32 :=
  VS1_1.read (Elt F) (VS1_1.writes (Elt F) VS1_1.junk (kernelRun1_A c i arg1 harg1 arg2 harg2 arg3 harg3 arg4 harg4 arg5 harg5 arg6 harg6 hc0 hc1 x0 x1 x2).2.1)

/-- A middle point's pieces for the first accumulator cover it. -/
theorem scover1_B_0 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i) (x0 : Vec F S128x512 .f32) (x1 : Vec F S512x2048 .f32) (x2 : Vec F S512x2048 .f32) (xs0 xs1 : Vec F S128x2048 .f32) (y : S128x2048.Idx) :
    ∃ pc ∈ (kernelRun1_B c i arg1 harg1 arg2 harg2 arg3 harg3 arg4 harg4 arg5 harg5 arg6 harg6 hc0 hc1 x0 x1 x2 xs0 xs1).1, y ∈ pc.1.set :=
  View.cover_of_tiledL (kernelRun1_B c i arg1 harg1 arg2 harg2 arg3 harg3 arg4 harg4 arg5 harg5 arg6 harg6 hc0 hc1 x0 x1 x2 xs0 xs1).1 S128x2048.size (by sl_kernel_rfl) y

/-- What a middle point leaves in the first accumulator. -/
def sout1_B_0 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i) (x0 : Vec F S128x512 .f32) (x1 : Vec F S512x2048 .f32) (x2 : Vec F S512x2048 .f32) (xs0 xs1 : Vec F S128x2048 .f32) : Vec F S128x2048 .f32 :=
  VS1_0.read (Elt F) (VS1_0.writes (Elt F) VS1_0.junk (kernelRun1_B c i arg1 harg1 arg2 harg2 arg3 harg3 arg4 harg4 arg5 harg5 arg6 harg6 hc0 hc1 x0 x1 x2 xs0 xs1).1)

/-- A middle point's pieces for the second accumulator cover it. -/
theorem scover1_B_1 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i) (x0 : Vec F S128x512 .f32) (x1 : Vec F S512x2048 .f32) (x2 : Vec F S512x2048 .f32) (xs0 xs1 : Vec F S128x2048 .f32) (y : S128x2048.Idx) :
    ∃ pc ∈ (kernelRun1_B c i arg1 harg1 arg2 harg2 arg3 harg3 arg4 harg4 arg5 harg5 arg6 harg6 hc0 hc1 x0 x1 x2 xs0 xs1).2.1, y ∈ pc.1.set :=
  View.cover_of_tiledL (kernelRun1_B c i arg1 harg1 arg2 harg2 arg3 harg3 arg4 harg4 arg5 harg5 arg6 harg6 hc0 hc1 x0 x1 x2 xs0 xs1).2.1 S128x2048.size (by sl_kernel_rfl) y

/-- What a middle point leaves in the second accumulator. -/
def sout1_B_1 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i) (x0 : Vec F S128x512 .f32) (x1 : Vec F S512x2048 .f32) (x2 : Vec F S512x2048 .f32) (xs0 xs1 : Vec F S128x2048 .f32) : Vec F S128x2048 .f32 :=
  VS1_1.read (Elt F) (VS1_1.writes (Elt F) VS1_1.junk (kernelRun1_B c i arg1 harg1 arg2 harg2 arg3 harg3 arg4 harg4 arg5 harg5 arg6 harg6 hc0 hc1 x0 x1 x2 xs0 xs1).2.1)

/-- The last point's pieces for the output's staging buffer cover it. -/
theorem cover1_C_3 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) (y : S128x2048.Idx) :
    ∃ pc ∈ (kernelRun1_C c i arg1 harg1 arg2 harg2 arg3 harg3 arg4 harg4 arg5 harg5 arg6 harg6 hc0 hc1 x0 x1 x2 xs0 xs1).1, y ∈ pc.1.set :=
  View.cover_of_tiledL (kernelRun1_C c i arg1 harg1 arg2 harg2 arg3 harg3 arg4 harg4 arg5 harg5 arg6 harg6 hc0 hc1 x0 x1 x2 xs0 xs1).1 S128x2048.size (by sl_kernel_rfl) y

/-- What the last point leaves in the output's staging buffer. -/
def out1_C_3 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) : Vec F S128x2048 .f32 :=
  VO1_3.read (Elt F) (VO1_3.writes (Elt F) VO1_3.junk (kernelRun1_C c i arg1 harg1 arg2 harg2 arg3 harg3 arg4 harg4 arg5 harg5 arg6 harg6 hc0 hc1 x0 x1 x2 xs0 xs1).1)

/-- The last point's pieces for the first accumulator cover it. -/
theorem scover1_C_0 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) (y : S128x2048.Idx) :
    ∃ pc ∈ (kernelRun1_C c i arg1 harg1 arg2 harg2 arg3 harg3 arg4 harg4 arg5 harg5 arg6 harg6 hc0 hc1 x0 x1 x2 xs0 xs1).2.1, y ∈ pc.1.set :=
  View.cover_of_tiledL (kernelRun1_C c i arg1 harg1 arg2 harg2 arg3 harg3 arg4 harg4 arg5 harg5 arg6 harg6 hc0 hc1 x0 x1 x2 xs0 xs1).2.1 S128x2048.size (by sl_kernel_rfl) y

/-- What the last point leaves in the first accumulator. -/
def sout1_C_0 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) : Vec F S128x2048 .f32 :=
  VS1_0.read (Elt F) (VS1_0.writes (Elt F) VS1_0.junk (kernelRun1_C c i arg1 harg1 arg2 harg2 arg3 harg3 arg4 harg4 arg5 harg5 arg6 harg6 hc0 hc1 x0 x1 x2 xs0 xs1).2.1)

/-- The last point's pieces for the second accumulator cover it. -/
theorem scover1_C_1 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) (y : S128x2048.Idx) :
    ∃ pc ∈ (kernelRun1_C c i arg1 harg1 arg2 harg2 arg3 harg3 arg4 harg4 arg5 harg5 arg6 harg6 hc0 hc1 x0 x1 x2 xs0 xs1).2.2.1, y ∈ pc.1.set :=
  View.cover_of_tiledL (kernelRun1_C c i arg1 harg1 arg2 harg2 arg3 harg3 arg4 harg4 arg5 harg5 arg6 harg6 hc0 hc1 x0 x1 x2 xs0 xs1).2.2.1 S128x2048.size (by sl_kernel_rfl) y

/-- What the last point leaves in the second accumulator. -/
def sout1_C_1 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) : Vec F S128x2048 .f32 :=
  VS1_1.read (Elt F) (VS1_1.writes (Elt F) VS1_1.junk (kernelRun1_C c i arg1 harg1 arg2 harg2 arg3 harg3 arg4 harg4 arg5 harg5 arg6 harg6 hc0 hc1 x0 x1 x2 xs0 xs1).2.2.1)

section Region
variable (V : (c : Dev nD) → (b : Ref sig .tc) → Buf (Elt F) ((c : Thread nD τ).loc b))

/-! ## The accumulation over the grid -/

/-- A placeholder for the output's staging buffer at the points that store nothing into it (nothing reads it). -/
def idleOut1 : Vec F S128x2048 .f32 := VO1_3.read (Elt F) VO1_3.junk

/-- What the output's staging buffer and the two accumulators hold after the body at grid position n. -/
def outsAt1 (c : Dev nD) : (n : ℕ) → n < cfg1.N → Vec F S128x2048 .f32 × Vec F S128x2048 .f32 × Vec F S128x2048 .f32
  | 0, hn => (idleOut1,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => absurd ((hcond1_1 ⟨0, hn⟩).mp h) (show (0 : ℕ) ≠ 15 by decide)) (iblk1 V c 0 ⟨0, hn⟩) (iblk1 V c 1 ⟨0, hn⟩) (iblk1 V c 2 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => absurd ((hcond1_1 ⟨0, hn⟩).mp h) (show (0 : ℕ) ≠ 15 by decide)) (iblk1 V c 0 ⟨0, hn⟩) (iblk1 V c 1 ⟨0, hn⟩) (iblk1 V c 2 ⟨0, hn⟩))
  | n + 1, hn =>
    if h1 : n + 1 = 15 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
    else
      (idleOut1,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- At the first point. -/
theorem outsAt1_A (c : Dev nD) (t : Fin cfg1.N) (h0 : t.val = 0) :
    outsAt1 V c t.val t.isLt = (idleOut1,
      sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => by have := (hcond1_1 t).mp h; omega) (iblk1 V c 0 t) (iblk1 V c 1 t) (iblk1 V c 2 t),
      sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => by have := (hcond1_1 t).mp h; omega) (iblk1 V c 0 t) (iblk1 V c 1 t) (iblk1 V c 2 t)) := by
  obtain ⟨n, hn⟩ := t
  cases n with
  | zero => rfl
  | succ n => exact absurd h0 (Nat.succ_ne_zero n)

/-- At a middle point: over what the point before left in the accumulators. -/
theorem outsAt1_B (c : Dev nD) (t : Fin cfg1.N) (h0 : t.val ≠ 0) (h1 : t.val ≠ 15) :
    outsAt1 V c t.val t.isLt = (idleOut1,
      sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd rfl h0
  | succ n => exact (dif_neg h1).trans rfl

/-- At the last point: over what the point before left in the accumulators. -/
theorem outsAt1_C (c : Dev nD) (t : Fin cfg1.N) (h0 : t.val ≠ 0) (h1 : t.val = 15) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd rfl h0
  | succ n => exact (dif_pos h1).trans rfl

/-! ## The region invariant -/

/-- Before grid position n: at the first point the class invariant (the accumulators at anything); afterwards the two
    accumulators at what the point before left in them, the other scoped buffers unopened, the generator register at
    some state. -/
def PhiS1 (c : Dev nD) : (n : ℕ) → n ≤ cfg1.N → sProp 𝕄
  | 0, _ => Pipeline.ΦA spec1 c
  | n + 1, hn => iprop((((owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1])
      ∗ (∃ r, prngReg c r)))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((((owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1])
      ∗ (∃ r, prngReg c r))) := rfl

theorem PhiS1_pos (c : Dev nD) (n : ℕ) (h : n ≤ cfg1.N) (hz : n ≠ 0) :
    PhiS1 V c n h = iprop((((owns (c : Thread nD τ) scM1_0 fullShare ((outsAt1 V c (n - 1) (by omega)).2.1) ∗ owns (c : Thread nD τ) scM1_1 fullShare ((outsAt1 V c (n - 1) (by omega)).2.2))
      ∗ Pipeline.scopedRestBut (Ix := Unit) (Name := ℕ) (U := UR sig nD τ) (Lvl := ℕ) (Val := Elt F) spec1 c [cc1_scratch0, cc1_scratch1])
      ∗ (∃ r, prngReg c r))) := by
  cases n with
  | zero => exact absurd rfl hz
  | succ n => rfl

/-! ## The pipeline's proof data -/

/-- The arrays as the region finds them; after the body at point t each input's staging buffer at its block and the
    output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val = 0
  · have hc1 : ¬cond1_1 (grid1.coords t) := fun h => by have := (hcond1_1 t).mp h; omega
    rw [Dat.leavesExact_idle (dat1 V c) 3 t (idleAt1_3 t hc1) (noFlush1_3 t hc1)]
    rw [outsAt1_A V c t h0]
    unfold sout1_A_0 sout1_A_1; (try dsimp only)
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩⟩
    iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) hc1 (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    ·
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 _ _ _ _ _ _ _ _ _ _ _ _ _ _ _ _ _ _ _)
            · unfold owns; iexists _; isplitr
              swap; · iexact HS1
              ipureintro; exact View.read_writes_of_cover _ _ _ _ _ (scover1_A_1 _ _ _ _ _ _ _ _ _ _ _ _ _ _ _ _ _ _ _)
          · iexact Hrest
        · iexact Hg
      isplitl [Ho]; · iexact Ho
      isplitl [H0]; · iexact H0
      isplitl [H1]; · iexact H1
      isplitl [H2]; · iexact H2
      iexists _; iexact H3
  · by_cases h1 : t.val = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1; (try dsimp only)
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      ·
        iintro ⟨H0, H1, H2, H3, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_C_0 _ _ _ _ _ _ _ _ _ _ _ _ _ _ _ _ _ _ _ _ _)
              · unfold owns; iexists _; isplitr
                swap; · iexact HS1
                ipureintro; exact View.read_writes_of_cover _ _ _ _ _ (scover1_C_1 _ _ _ _ _ _ _ _ _ _ _ _ _ _ _ _ _ _ _ _ _)
            · iexact Hrest
          · iexact Hg
        isplitl [Ho]; · iexact Ho
        isplitl [H0]; · iexact H0
        isplitl [H1]; · iexact H1
        isplitl [H2]; · iexact H2
        icases H3 with ⟨%e3, H3⟩
        unfold owns; iexists _; isplitr
        swap; · iexact H3
        ipureintro; exact View.read_writes_of_cover _ _ _ _ _ (cover1_C_3 _ _ _ _ _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1]
      unfold sout1_B_0 sout1_B_1; (try dsimp only)
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) hc1 (iblk1 V c 0 t) (iblk1 V c 1 t) (iblk1 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      ·
        iintro ⟨H0, H1, H2, H3, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_B_0 _ _ _ _ _ _ _ _ _ _ _ _ _ _ _ _ _ _ _ _ _)
              · unfold owns; iexists _; isplitr
                swap; · iexact HS1
                ipureintro; exact View.read_writes_of_cover _ _ _ _ _ (scover1_B_1 _ _ _ _ _ _ _ _ _ _ _ _ _ _ _ _ _ _ _ _ _)
            · iexact Hrest
          · iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulators' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

end Region

end Cert.Kernel.Hand

end
-- ==== Proof.KBRun2A.lean ====
/-
  Branch 2's body run at the first grid point (the accumulators are zeroed first; nothing is stored into the output): from whole memrefs holding the three input blocks, the body
  runs to its end leaving the inputs as they were and each buffer it stores into at its stores' pieces; the piece lists
  are found by the symbolic run.
-/
import proofs.«181729_j86371792323176_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written (the output's staging buffer, not stored into here, as it was). -/
noncomputable def kernelRun2_A (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond2_0 i) (hc1 : ¬cond2_1 i)
    (x0 : Vec F S128x512 .f32) (x1 : Vec F S512x2048 .f32) (x2 : Vec F S512x2048 .f32) :
    Σ' (LS0 : List (View.Piece (Elt F) S128x2048 .f32)), { LS1 : List (View.Piece (Elt F) S128x2048 .f32) //
      ∀ (x3 : Vec F S128x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__branch_kernel i arg1 harg1 arg2 harg2 arg3 harg3 arg4 harg4 arg5 harg5 arg6 harg6) K } := by
  refine ⟨?_, ?_, fun x3 E K => ?run⟩
  case run =>
    simp only [cc2__branch_kernel_eq_skeleton]; unfold cc2__branch_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact hf3
      iexact H3
    isplitl [HS0]; · iexists _; iexact HS0
    iexists _; iexact HS1

end Cert.Kernel.Hand

end
-- ==== Proof.KBRun2B.lean ====
/-
  Branch 2's body run at a middle grid point (the accumulators are added to; nothing is stored into the output): from whole memrefs holding the three input blocks and the two accumulators' contents, the body
  runs to its end leaving the inputs as they were and each buffer it stores into at its stores' pieces; the piece lists
  are found by the symbolic run.
-/
import proofs.«181729_j86371792323176_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written (the output's staging buffer, not stored into here, as it was). -/
noncomputable def kernelRun2_B (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : ¬cond2_1 i)
    (x0 : Vec F S128x512 .f32) (x1 : Vec F S512x2048 .f32) (x2 : Vec F S512x2048 .f32) (xs0 xs1 : Vec F S128x2048 .f32) :
    Σ' (LS0 : List (View.Piece (Elt F) S128x2048 .f32)), { LS1 : List (View.Piece (Elt F) S128x2048 .f32) //
      ∀ (x3 : Vec F S128x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__branch_kernel i arg1 harg1 arg2 harg2 arg3 harg3 arg4 harg4 arg5 harg5 arg6 harg6) K } := by
  refine ⟨?_, ?_, fun x3 E K => ?run⟩
  case run =>
    simp only [cc2__branch_kernel_eq_skeleton]; unfold cc2__branch_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact hf3
      iexact H3
    isplitl [HS0]; · iexists _; iexact HS0
    iexists _; iexact HS1

end Cert.Kernel.Hand

end
-- ==== Proof.KBRun2C.lean ====
/-
  Branch 2's body run at the last grid point (the accumulators are added to, then the scaled result is stored into the output): from whole memrefs holding the three input blocks and the two accumulators' contents, the body
  runs to its end leaving the inputs as they were and each buffer it stores into at its stores' pieces; the piece lists
  are found by the symbolic run.
-/
import proofs.«181729_j86371792323176_1_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written. -/
noncomputable def kernelRun2_C (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i)
    (x0 : Vec F S128x512 .f32) (x1 : Vec F S512x2048 .f32) (x2 : Vec F S512x2048 .f32) (xs0 xs1 : Vec F S128x2048 .f32) :
    Σ' (L3 : List (View.Piece (Elt F) S128x2048 .f32)) (LS0 : List (View.Piece (Elt F) S128x2048 .f32)), { LS1 : List (View.Piece (Elt F) S128x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__branch_kernel i arg1 harg1 arg2 harg2 arg3 harg3 arg4 harg4 arg5 harg5 arg6 harg6) K } := by
  refine ⟨?_, ?_, ?_, fun E K => ?run⟩
  case run =>
    simp only [cc2__branch_kernel_eq_skeleton]; unfold cc2__branch_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Cert.Kernel.Hand

end
-- ==== Proof.KBRegion2.lean ====
/-
  Branch 2 as one region of the program, at the contents V the region is entered with: what each case of the body
  leaves in the two accumulators and in the output's staging buffer (the runs' pieces read back), what they hold
  after each grid point (by recursion on the point: the first point's case, then the middle case fourteen
  times, then the last point's), the region invariant carrying the accumulators from point to point, the pipeline's
  proof data and the body obligation at every point.
-/
import proofs.«181729_j86371792323176_1_alg».proof.Proof.KBRun2A
import proofs.«181729_j86371792323176_1_alg».proof.Proof.KBRun2B
import proofs.«181729_j86371792323176_1_alg».proof.Proof.KBRun2C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- The first point's pieces for the first accumulator cover it. -/
theorem scover2_A_0 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond2_0 i) (hc1 : ¬cond2_1 i) (x0 : Vec F S128x512 .f32) (x1 : Vec F S512x2048 .f32) (x2 : Vec F S512x2048 .f32) (y : S128x2048.Idx) :
    ∃ pc ∈ (kernelRun2_A c i arg1 harg1 arg2 harg2 arg3 harg3 arg4 harg4 arg5 harg5 arg6 harg6 hc0 hc1 x0 x1 x2).1, y ∈ pc.1.set :=
  View.cover_of_tiledL (kernelRun2_A c i arg1 harg1 arg2 harg2 arg3 harg3 arg4 harg4 arg5 harg5 arg6 harg6 hc0 hc1 x0 x1 x2).1 S128x2048.size (by sl_kernel_rfl) y

/-- What the first point leaves in the first accumulator. -/
def sout2_A_0 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond2_0 i) (hc1 : ¬cond2_1 i) (x0 : Vec F S128x512 .f32) (x1 : Vec F S512x2048 .f32) (x2 : Vec F S512x2048 .f32) : Vec F S128x2048 .f32 :=
  VS2_0.read (Elt F) (VS2_0.writes (Elt F) VS2_0.junk (kernelRun2_A c i arg1 harg1 arg2 harg2 arg3 harg3 arg4 harg4 arg5 harg5 arg6 harg6 hc0 hc1 x0 x1 x2).1)

/-- The first point's pieces for the second accumulator cover it. -/
theorem scover2_A_1 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond2_0 i) (hc1 : ¬cond2_1 i) (x0 : Vec F S128x512 .f32) (x1 : Vec F S512x2048 .f32) (x2 : Vec F S512x2048 .f32) (y : S128x2048.Idx) :
    ∃ pc ∈ (kernelRun2_A c i arg1 harg1 arg2 harg2 arg3 harg3 arg4 harg4 arg5 harg5 arg6 harg6 hc0 hc1 x0 x1 x2).2.1, y ∈ pc.1.set :=
  View.cover_of_tiledL (kernelRun2_A c i arg1 harg1 arg2 harg2 arg3 harg3 arg4 harg4 arg5 harg5 arg6 harg6 hc0 hc1 x0 x1 x2).2.1 S128x2048.size (by sl_kernel_rfl) y

/-- What the first point leaves in the second accumulator. -/
def sout2_A_1 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond2_0 i) (hc1 : ¬cond2_1 i) (x0 : Vec F S128x512 .f32) (x1 : Vec F S512x2048 .f32) (x2 : Vec F S512x2048 .f32) : Vec F S128x2048 .f32 :=
  VS2_1.read (Elt F) (VS2_1.writes (Elt F) VS2_1.junk (kernelRun2_A c i arg1 harg1 arg2 harg2 arg3 harg3 arg4 harg4 arg5 harg5 arg6 harg6 hc0 hc1 x0 x1 x2).2.1)

/-- A middle point's pieces for the first accumulator cover it. -/
theorem scover2_B_0 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : ¬cond2_1 i) (x0 : Vec F S128x512 .f32) (x1 : Vec F S512x2048 .f32) (x2 : Vec F S512x2048 .f32) (xs0 xs1 : Vec F S128x2048 .f32) (y : S128x2048.Idx) :
    ∃ pc ∈ (kernelRun2_B c i arg1 harg1 arg2 harg2 arg3 harg3 arg4 harg4 arg5 harg5 arg6 harg6 hc0 hc1 x0 x1 x2 xs0 xs1).1, y ∈ pc.1.set :=
  View.cover_of_tiledL (kernelRun2_B c i arg1 harg1 arg2 harg2 arg3 harg3 arg4 harg4 arg5 harg5 arg6 harg6 hc0 hc1 x0 x1 x2 xs0 xs1).1 S128x2048.size (by sl_kernel_rfl) y

/-- What a middle point leaves in the first accumulator. -/
def sout2_B_0 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : ¬cond2_1 i) (x0 : Vec F S128x512 .f32) (x1 : Vec F S512x2048 .f32) (x2 : Vec F S512x2048 .f32) (xs0 xs1 : Vec F S128x2048 .f32) : Vec F S128x2048 .f32 :=
  VS2_0.read (Elt F) (VS2_0.writes (Elt F) VS2_0.junk (kernelRun2_B c i arg1 harg1 arg2 harg2 arg3 harg3 arg4 harg4 arg5 harg5 arg6 harg6 hc0 hc1 x0 x1 x2 xs0 xs1).1)

/-- A middle point's pieces for the second accumulator cover it. -/
theorem scover2_B_1 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : ¬cond2_1 i) (x0 : Vec F S128x512 .f32) (x1 : Vec F S512x2048 .f32) (x2 : Vec F S512x2048 .f32) (xs0 xs1 : Vec F S128x2048 .f32) (y : S128x2048.Idx) :
    ∃ pc ∈ (kernelRun2_B c i arg1 harg1 arg2 harg2 arg3 harg3 arg4 harg4 arg5 harg5 arg6 harg6 hc0 hc1 x0 x1 x2 xs0 xs1).2.1, y ∈ pc.1.set :=
  View.cover_of_tiledL (kernelRun2_B c i arg1 harg1 arg2 harg2 arg3 harg3 arg4 harg4 arg5 harg5 arg6 harg6 hc0 hc1 x0 x1 x2 xs0 xs1).2.1 S128x2048.size (by sl_kernel_rfl) y

/-- What a middle point leaves in the second accumulator. -/
def sout2_B_1 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : ¬cond2_1 i) (x0 : Vec F S128x512 .f32) (x1 : Vec F S512x2048 .f32) (x2 : Vec F S512x2048 .f32) (xs0 xs1 : Vec F S128x2048 .f32) : Vec F S128x2048 .f32 :=
  VS2_1.read (Elt F) (VS2_1.writes (Elt F) VS2_1.junk (kernelRun2_B c i arg1 harg1 arg2 harg2 arg3 harg3 arg4 harg4 arg5 harg5 arg6 harg6 hc0 hc1 x0 x1 x2 xs0 xs1).2.1)

/-- The last point's pieces for the output's staging buffer cover it. -/
theorem cover2_C_3 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) (y : S128x2048.Idx) :
    ∃ pc ∈ (kernelRun2_C c i arg1 harg1 arg2 harg2 arg3 harg3 arg4 harg4 arg5 harg5 arg6 harg6 hc0 hc1 x0 x1 x2 xs0 xs1).1, y ∈ pc.1.set :=
  View.cover_of_tiledL (kernelRun2_C c i arg1 harg1 arg2 harg2 arg3 harg3 arg4 harg4 arg5 harg5 arg6 harg6 hc0 hc1 x0 x1 x2 xs0 xs1).1 S128x2048.size (by sl_kernel_rfl) y

/-- What the last point leaves in the output's staging buffer. -/
def out2_C_3 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) : Vec F S128x2048 .f32 :=
  VO2_3.read (Elt F) (VO2_3.writes (Elt F) VO2_3.junk (kernelRun2_C c i arg1 harg1 arg2 harg2 arg3 harg3 arg4 harg4 arg5 harg5 arg6 harg6 hc0 hc1 x0 x1 x2 xs0 xs1).1)

/-- The last point's pieces for the first accumulator cover it. -/
theorem scover2_C_0 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) (y : S128x2048.Idx) :
    ∃ pc ∈ (kernelRun2_C c i arg1 harg1 arg2 harg2 arg3 harg3 arg4 harg4 arg5 harg5 arg6 harg6 hc0 hc1 x0 x1 x2 xs0 xs1).2.1, y ∈ pc.1.set :=
  View.cover_of_tiledL (kernelRun2_C c i arg1 harg1 arg2 harg2 arg3 harg3 arg4 harg4 arg5 harg5 arg6 harg6 hc0 hc1 x0 x1 x2 xs0 xs1).2.1 S128x2048.size (by sl_kernel_rfl) y

/-- What the last point leaves in the first accumulator. -/
def sout2_C_0 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) : Vec F S128x2048 .f32 :=
  VS2_0.read (Elt F) (VS2_0.writes (Elt F) VS2_0.junk (kernelRun2_C c i arg1 harg1 arg2 harg2 arg3 harg3 arg4 harg4 arg5 harg5 arg6 harg6 hc0 hc1 x0 x1 x2 xs0 xs1).2.1)

/-- The last point's pieces for the second accumulator cover it. -/
theorem scover2_C_1 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) (y : S128x2048.Idx) :
    ∃ pc ∈ (kernelRun2_C c i arg1 harg1 arg2 harg2 arg3 harg3 arg4 harg4 arg5 harg5 arg6 harg6 hc0 hc1 x0 x1 x2 xs0 xs1).2.2.1, y ∈ pc.1.set :=
  View.cover_of_tiledL (kernelRun2_C c i arg1 harg1 arg2 harg2 arg3 harg3 arg4 harg4 arg5 harg5 arg6 harg6 hc0 hc1 x0 x1 x2 xs0 xs1).2.2.1 S128x2048.size (by sl_kernel_rfl) y

/-- What the last point leaves in the second accumulator. -/
def sout2_C_1 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) : Vec F S128x2048 .f32 :=
  VS2_1.read (Elt F) (VS2_1.writes (Elt F) VS2_1.junk (kernelRun2_C c i arg1 harg1 arg2 harg2 arg3 harg3 arg4 harg4 arg5 harg5 arg6 harg6 hc0 hc1 x0 x1 x2 xs0 xs1).2.2.1)

section Region
variable (V : (c : Dev nD) → (b : Ref sig .tc) → Buf (Elt F) ((c : Thread nD τ).loc b))

/-! ## The accumulation over the grid -/

/-- A placeholder for the output's staging buffer at the points that store nothing into it (nothing reads it). -/
def idleOut2 : Vec F S128x2048 .f32 := VO2_3.read (Elt F) VO2_3.junk

/-- What the output's staging buffer and the two accumulators hold after the body at grid position n. -/
def outsAt2 (c : Dev nD) : (n : ℕ) → n < cfg2.N → Vec F S128x2048 .f32 × Vec F S128x2048 .f32 × Vec F S128x2048 .f32
  | 0, hn => (idleOut2,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) ((hcond2_0 ⟨0, hn⟩).mpr rfl) (fun h => absurd ((hcond2_1 ⟨0, hn⟩).mp h) (show (0 : ℕ) ≠ 15 by decide)) (iblk2 V c 0 ⟨0, hn⟩) (iblk2 V c 1 ⟨0, hn⟩) (iblk2 V c 2 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) ((hcond2_0 ⟨0, hn⟩).mpr rfl) (fun h => absurd ((hcond2_1 ⟨0, hn⟩).mp h) (show (0 : ℕ) ≠ 15 by decide)) (iblk2 V c 0 ⟨0, hn⟩) (iblk2 V c 1 ⟨0, hn⟩) (iblk2 V c 2 ⟨0, hn⟩))
  | n + 1, hn =>
    if h1 : n + 1 = 15 then
      (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2)
    else
      (idleOut2,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2)

/-- At the first point. -/
theorem outsAt2_A (c : Dev nD) (t : Fin cfg2.N) (h0 : t.val = 0) :
    outsAt2 V c t.val t.isLt = (idleOut2,
      sout2_A_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => by have := (hcond2_1 t).mp h; omega) (iblk2 V c 0 t) (iblk2 V c 1 t) (iblk2 V c 2 t),
      sout2_A_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => by have := (hcond2_1 t).mp h; omega) (iblk2 V c 0 t) (iblk2 V c 1 t) (iblk2 V c 2 t)) := by
  obtain ⟨n, hn⟩ := t
  cases n with
  | zero => rfl
  | succ n => exact absurd h0 (Nat.succ_ne_zero n)

/-- At a middle point: over what the point before left in the accumulators. -/
theorem outsAt2_B (c : Dev nD) (t : Fin cfg2.N) (h0 : t.val ≠ 0) (h1 : t.val ≠ 15) :
    outsAt2 V c t.val t.isLt = (idleOut2,
      sout2_B_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
      sout2_B_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact absurd rfl h0
  | succ n => exact (dif_neg h1).trans rfl

/-- At the last point: over what the point before left in the accumulators. -/
theorem outsAt2_C (c : Dev nD) (t : Fin cfg2.N) (h0 : t.val ≠ 0) (h1 : t.val = 15) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
      sout2_C_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
      sout2_C_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact absurd rfl h0
  | succ n => exact (dif_pos h1).trans rfl

/-! ## The region invariant -/

/-- Before grid position n: at the first point the class invariant (the accumulators at anything); afterwards the two
    accumulators at what the point before left in them, the other scoped buffers unopened, the generator register at
    some state. -/
def PhiS2 (c : Dev nD) : (n : ℕ) → n ≤ cfg2.N → sProp 𝕄
  | 0, _ => Pipeline.ΦA spec2 c
  | n + 1, hn => iprop((((owns (c : Thread nD τ) scM2_0 fullShare ((outsAt2 V c n hn).2.1) ∗ owns (c : Thread nD τ) scM2_1 fullShare ((outsAt2 V c n hn).2.2))
      ∗ Pipeline.scopedRestBut (Ix := Unit) (Name := ℕ) (U := UR sig nD τ) (Lvl := ℕ) (Val := Elt F) spec2 c [cc2_scratch0, cc2_scratch1])
      ∗ (∃ r, prngReg c r)))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((((owns (c : Thread nD τ) scM2_0 fullShare ((outsAt2 V c n hn).2.1) ∗ owns (c : Thread nD τ) scM2_1 fullShare ((outsAt2 V c n hn).2.2))
      ∗ Pipeline.scopedRestBut (Ix := Unit) (Name := ℕ) (U := UR sig nD τ) (Lvl := ℕ) (Val := Elt F) spec2 c [cc2_scratch0, cc2_scratch1])
      ∗ (∃ r, prngReg c r))) := rfl

theorem PhiS2_pos (c : Dev nD) (n : ℕ) (h : n ≤ cfg2.N) (hz : n ≠ 0) :
    PhiS2 V c n h = iprop((((owns (c : Thread nD τ) scM2_0 fullShare ((outsAt2 V c (n - 1) (by omega)).2.1) ∗ owns (c : Thread nD τ) scM2_1 fullShare ((outsAt2 V c (n - 1) (by omega)).2.2))
      ∗ Pipeline.scopedRestBut (Ix := Unit) (Name := ℕ) (U := UR sig nD τ) (Lvl := ℕ) (Val := Elt F) spec2 c [cc2_scratch0, cc2_scratch1])
      ∗ (∃ r, prngReg c r))) := by
  cases n with
  | zero => exact absurd rfl hz
  | succ n => rfl

/-! ## The pipeline's proof data -/

/-- The arrays as the region finds them; after the body at point t each input's staging buffer at its block and the
    output's at the accumulation's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val = 0
  · have hc1 : ¬cond2_1 (grid2.coords t) := fun h => by have := (hcond2_1 t).mp h; omega
    rw [Dat.leavesExact_idle (dat2 V c) 3 t (idleAt2_3 t hc1) (noFlush2_3 t hc1)]
    rw [outsAt2_A V c t h0]
    unfold sout2_A_0 sout2_A_1; (try dsimp only)
    rw [PhiS2_castSucc V c t, PhiS2_zero V c _ _ h0, PhiA2_eq]
    iintro ⟨⟨⟨⟨HS0, HS1⟩, Hrest⟩, Hg⟩, Ho, ⟨%d0, H0⟩, ⟨%d1, H1⟩, ⟨%d2, H2⟩, ⟨%d3, H3⟩⟩
    iapply ((kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) hc1 (iblk2 V c 0 t) (iblk2 V c 1 t) (iblk2 V c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    ·
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_A_0 _ _ _ _ _ _ _ _ _ _ _ _ _ _ _ _ _ _ _)
            · unfold owns; iexists _; isplitr
              swap; · iexact HS1
              ipureintro; exact View.read_writes_of_cover _ _ _ _ _ (scover2_A_1 _ _ _ _ _ _ _ _ _ _ _ _ _ _ _ _ _ _ _)
          · iexact Hrest
        · iexact Hg
      isplitl [Ho]; · iexact Ho
      isplitl [H0]; · iexact H0
      isplitl [H1]; · iexact H1
      isplitl [H2]; · iexact H2
      iexists _; iexact H3
  · by_cases h1 : t.val = 15
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C_3 sout2_C_0 sout2_C_1; (try dsimp only)
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩⟩
      iapply ((kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      ·
        iintro ⟨H0, H1, H2, H3, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover2_C_0 _ _ _ _ _ _ _ _ _ _ _ _ _ _ _ _ _ _ _ _ _)
              · unfold owns; iexists _; isplitr
                swap; · iexact HS1
                ipureintro; exact View.read_writes_of_cover _ _ _ _ _ (scover2_C_1 _ _ _ _ _ _ _ _ _ _ _ _ _ _ _ _ _ _ _ _ _)
            · iexact Hrest
          · iexact Hg
        isplitl [Ho]; · iexact Ho
        isplitl [H0]; · iexact H0
        isplitl [H1]; · iexact H1
        isplitl [H2]; · iexact H2
        icases H3 with ⟨%e3, H3⟩
        unfold owns; iexists _; isplitr
        swap; · iexact H3
        ipureintro; exact View.read_writes_of_cover _ _ _ _ _ (cover2_C_3 _ _ _ _ _ _ _ _ _ _ _ _ _ _ _ _ _ _ _ _ _)
    · have hc1 : ¬cond2_1 (grid2.coords t) := fun h => h1 ((hcond2_1 t).mp h)
      rw [Dat.leavesExact_idle (dat2 V c) 3 t (idleAt2_3 t hc1) (noFlush2_3 t hc1)]
      rw [outsAt2_B V c t h0 h1]
      unfold sout2_B_0 sout2_B_1; (try dsimp only)
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩⟩
      iapply ((kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) hc1 (iblk2 V c 0 t) (iblk2 V c 1 t) (iblk2 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      ·
        iintro ⟨H0, H1, H2, H3, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover2_B_0 _ _ _ _ _ _ _ _ _ _ _ _ _ _ _ _ _ _ _ _ _)
              · unfold owns; iexists _; isplitr
                swap; · iexact HS1
                ipureintro; exact View.read_writes_of_cover _ _ _ _ _ (scover2_B_1 _ _ _ _ _ _ _ _ _ _ _ _ _ _ _ _ _ _ _ _ _)
            · iexact Hrest
          · iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulators' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

end Region

end Cert.Kernel.Hand

end
-- ==== Proof.KBFrame.lean ====
/-
  The whole program as four segments — the three branches' regions, then the host operations that pool their outputs and
  classify — composed from the launch to the return: the buffers' contents at each boundary (a region leaves its
  arrays at what its write-backs fold to and every other buffer as it found it; the host stretch leaves what its
  operations compute), each region's record over the thread state "every unscoped buffer at the boundary's contents,
  the generator register at some state, nothing owed", and the run, which ends with every unscoped buffer at the last
  boundary's contents; the argument arrays read back through the boundaries to the launch memory.
-/
import proofs.«181729_j86371792323176_1_alg».proof.Proof.KBRegion0
import proofs.«181729_j86371792323176_1_alg».proof.Proof.KBRegion1
import proofs.«181729_j86371792323176_1_alg».proof.Proof.KBRegion2
import Idealize.ShloMosaic.Lib.Pipeline.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch: the first region's entry. -/
abbrev Wb0 : Dev nD → Valuation τ sig (Elt F) := fun c b => (s₀ m ρ).mem ((c : Dev nD), b)
abbrev Ve0 : (c : Dev nD) → (b : Ref sig .tc) → Buf (Elt F) ((c : Thread nD τ).loc b) := fun c b => Wb0 m ρ c b

/-- At region 0's exit: its arrays at what the pipeline leaves, every other buffer as entered. -/
def Wb1 (c : Dev nD) : Valuation τ sig (Elt F) :=
  Pipeline.withArrays spec0 c (Wb0 m ρ c) fun w => (dat0 (Ve0 m ρ) c).arrAt w cfg0.N
theorem Wb1_arr (c : Dev nD) (w : Fin cfg0.W) :
    Wb1 m ρ c (Proc.devRef .tc (Pipeline.arrRef spec0 w)) = (dat0 (Ve0 m ρ) c).arrAt w cfg0.N := by
  unfold Wb1; exact Pipeline.withArrays_arr spec0 launch0.win.arr_inj c _ _ w
theorem Wb1_of_ne (c : Dev nD) (b : Ref sig .tc) (hb : ∀ w, Pipeline.arrRef spec0 w ≠ b) :
    Wb1 m ρ c (Proc.devRef .tc b) = Wb0 m ρ c (Proc.devRef .tc b) := by
  unfold Wb1; exact Pipeline.withArrays_of_ne spec0 c _ _ b hb
abbrev Ve1 : (c : Dev nD) → (b : Ref sig .tc) → Buf (Elt F) ((c : Thread nD τ).loc b) := fun c b => Wb1 m ρ c b
theorem hF0 (c : Dev nD) (w : Fin cfg0.W) : (dat0 (Ve0 m ρ) c).arrAt w cfg0.N = Ve1 m ρ c (Pipeline.arrRef spec0 w) :=
  (Wb1_arr m ρ c w).symm
theorem hrest0 (c : Dev nD) : ∀ b, b ∉ Finset.univ.image (Pipeline.arrRef spec0) → Ve1 m ρ c b = Ve0 m ρ c b :=
  fun b hb => Wb1_of_ne m ρ c b fun w e => hb (Finset.mem_image.mpr ⟨w, Finset.mem_univ _, e⟩)

/-- At region 1's exit: its arrays at what the pipeline leaves, every other buffer as entered. -/
def Wb2 (c : Dev nD) : Valuation τ sig (Elt F) :=
  Pipeline.withArrays spec1 c (Wb1 m ρ c) fun w => (dat1 (Ve1 m ρ) c).arrAt w cfg1.N
theorem Wb2_arr (c : Dev nD) (w : Fin cfg1.W) :
    Wb2 m ρ c (Proc.devRef .tc (Pipeline.arrRef spec1 w)) = (dat1 (Ve1 m ρ) c).arrAt w cfg1.N := by
  unfold Wb2; exact Pipeline.withArrays_arr spec1 launch1.win.arr_inj c _ _ w
theorem Wb2_of_ne (c : Dev nD) (b : Ref sig .tc) (hb : ∀ w, Pipeline.arrRef spec1 w ≠ b) :
    Wb2 m ρ c (Proc.devRef .tc b) = Wb1 m ρ c (Proc.devRef .tc b) := by
  unfold Wb2; exact Pipeline.withArrays_of_ne spec1 c _ _ b hb
abbrev Ve2 : (c : Dev nD) → (b : Ref sig .tc) → Buf (Elt F) ((c : Thread nD τ).loc b) := fun c b => Wb2 m ρ c b
theorem hF1 (c : Dev nD) (w : Fin cfg1.W) : (dat1 (Ve1 m ρ) c).arrAt w cfg1.N = Ve2 m ρ c (Pipeline.arrRef spec1 w) :=
  (Wb2_arr m ρ c w).symm
theorem hrest1 (c : Dev nD) : ∀ b, b ∉ Finset.univ.image (Pipeline.arrRef spec1) → Ve2 m ρ c b = Ve1 m ρ c b :=
  fun b hb => Wb2_of_ne m ρ c b fun w e => hb (Finset.mem_image.mpr ⟨w, Finset.mem_univ _, e⟩)

/-- At region 2's exit: its arrays at what the pipeline leaves, every other buffer as entered. -/
def Wb3 (c : Dev nD) : Valuation τ sig (Elt F) :=
  Pipeline.withArrays spec2 c (Wb2 m ρ c) fun w => (dat2 (Ve2 m ρ) c).arrAt w cfg2.N
theorem Wb3_arr (c : Dev nD) (w : Fin cfg2.W) :
    Wb3 m ρ c (Proc.devRef .tc (Pipeline.arrRef spec2 w)) = (dat2 (Ve2 m ρ) c).arrAt w cfg2.N := by
  unfold Wb3; exact Pipeline.withArrays_arr spec2 launch2.win.arr_inj c _ _ w
theorem Wb3_of_ne (c : Dev nD) (b : Ref sig .tc) (hb : ∀ w, Pipeline.arrRef spec2 w ≠ b) :
    Wb3 m ρ c (Proc.devRef .tc b) = Wb2 m ρ c (Proc.devRef .tc b) := by
  unfold Wb3; exact Pipeline.withArrays_of_ne spec2 c _ _ b hb
abbrev Ve3 : (c : Dev nD) → (b : Ref sig .tc) → Buf (Elt F) ((c : Thread nD τ).loc b) := fun c b => Wb3 m ρ c b
theorem hF2 (c : Dev nD) (w : Fin cfg2.W) : (dat2 (Ve2 m ρ) c).arrAt w cfg2.N = Ve3 m ρ c (Pipeline.arrRef spec2 w) :=
  (Wb3_arr m ρ c w).symm
theorem hrest2 (c : Dev nD) : ∀ b, b ∉ Finset.univ.image (Pipeline.arrRef spec2) → Ve3 m ρ c b = Ve2 m ρ c b :=
  fun b hb => Wb3_of_ne m ρ c b fun w e => hb (Finset.mem_image.mpr ⟨w, Finset.mem_univ _, e⟩)

/-- After the host operations: the return. -/
abbrev Wb4 : Dev nD → Valuation τ sig (Elt F) := fun c => StableHlo.after hostOps3 (Wb3 m ρ c)

/-- No host operation allocates a buffer. -/
theorem hostOps3_fresh' : (hostOps3 : List (HloOp τ sig (Elt F))).Forall fun op => op.fresh = ∅ := by
  simp only [List.Forall]; repeat' constructor

/-! ### The arguments stay as launched through every boundary -/
theorem Wb1_main_arg0 (c : Dev nD) : Wb1 m ρ c (Proc.devRef .tc main_arg0) = m ((c : Thread nD τ).loc main_arg0) :=
  ((Wb1_arr m ρ c 0).trans (((dat0 (Ve0 m ρ) c).arrAt_in 0 rfl _).trans (A_eq0 (Ve0 m ρ) c 0))).trans (rfl)
theorem Wb2_main_arg0 (c : Dev nD) : Wb2 m ρ c (Proc.devRef .tc main_arg0) = m ((c : Thread nD τ).loc main_arg0) :=
  (Wb2_of_ne m ρ c main_arg0 (by decide)).trans (Wb1_main_arg0 m ρ c)
theorem Wb3_main_arg0 (c : Dev nD) : Wb3 m ρ c (Proc.devRef .tc main_arg0) = m ((c : Thread nD τ).loc main_arg0) :=
  (Wb3_of_ne m ρ c main_arg0 (by decide)).trans (Wb2_main_arg0 m ρ c)
theorem Wb4_main_arg0 (c : Dev nD) : Wb4 m ρ c (Proc.devRef .tc main_arg0) = m ((c : Thread nD τ).loc main_arg0) :=
  (StableHlo.after_of_forall_not_mem (b := Proc.devRef .tc main_arg0) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg0 m ρ c)
theorem Wb1_main_arg1 (c : Dev nD) : Wb1 m ρ c (Proc.devRef .tc main_arg1) = m ((c : Thread nD τ).loc main_arg1) :=
  (Wb1_of_ne m ρ c main_arg1 (by decide)).trans (rfl)
theorem Wb2_main_arg1 (c : Dev nD) : Wb2 m ρ c (Proc.devRef .tc main_arg1) = m ((c : Thread nD τ).loc main_arg1) :=
  ((Wb2_arr m ρ c 0).trans (((dat1 (Ve1 m ρ) c).arrAt_in 0 rfl _).trans (A_eq1 (Ve1 m ρ) c 0))).trans (Wb1_main_arg1 m ρ c)
theorem Wb3_main_arg1 (c : Dev nD) : Wb3 m ρ c (Proc.devRef .tc main_arg1) = m ((c : Thread nD τ).loc main_arg1) :=
  (Wb3_of_ne m ρ c main_arg1 (by decide)).trans (Wb2_main_arg1 m ρ c)
theorem Wb4_main_arg1 (c : Dev nD) : Wb4 m ρ c (Proc.devRef .tc main_arg1) = m ((c : Thread nD τ).loc main_arg1) :=
  (StableHlo.after_of_forall_not_mem (b := Proc.devRef .tc main_arg1) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg1 m ρ c)
theorem Wb1_main_arg2 (c : Dev nD) : Wb1 m ρ c (Proc.devRef .tc main_arg2) = m ((c : Thread nD τ).loc main_arg2) :=
  (Wb1_of_ne m ρ c main_arg2 (by decide)).trans (rfl)
theorem Wb2_main_arg2 (c : Dev nD) : Wb2 m ρ c (Proc.devRef .tc main_arg2) = m ((c : Thread nD τ).loc main_arg2) :=
  (Wb2_of_ne m ρ c main_arg2 (by decide)).trans (Wb1_main_arg2 m ρ c)
theorem Wb3_main_arg2 (c : Dev nD) : Wb3 m ρ c (Proc.devRef .tc main_arg2) = m ((c : Thread nD τ).loc main_arg2) :=
  ((Wb3_arr m ρ c 0).trans (((dat2 (Ve2 m ρ) c).arrAt_in 0 rfl _).trans (A_eq2 (Ve2 m ρ) c 0))).trans (Wb2_main_arg2 m ρ c)
theorem Wb4_main_arg2 (c : Dev nD) : Wb4 m ρ c (Proc.devRef .tc main_arg2) = m ((c : Thread nD τ).loc main_arg2) :=
  (StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg2 m ρ c)
theorem Wb1_main_arg3 (c : Dev nD) : Wb1 m ρ c (Proc.devRef .tc main_arg3) = m ((c : Thread nD τ).loc main_arg3) :=
  ((Wb1_arr m ρ c 1).trans (((dat0 (Ve0 m ρ) c).arrAt_in 1 rfl _).trans (A_eq0 (Ve0 m ρ) c 1))).trans (rfl)
theorem Wb2_main_arg3 (c : Dev nD) : Wb2 m ρ c (Proc.devRef .tc main_arg3) = m ((c : Thread nD τ).loc main_arg3) :=
  (Wb2_of_ne m ρ c main_arg3 (by decide)).trans (Wb1_main_arg3 m ρ c)
theorem Wb3_main_arg3 (c : Dev nD) : Wb3 m ρ c (Proc.devRef .tc main_arg3) = m ((c : Thread nD τ).loc main_arg3) :=
  (Wb3_of_ne m ρ c main_arg3 (by decide)).trans (Wb2_main_arg3 m ρ c)
theorem Wb4_main_arg3 (c : Dev nD) : Wb4 m ρ c (Proc.devRef .tc main_arg3) = m ((c : Thread nD τ).loc main_arg3) :=
  (StableHlo.after_of_forall_not_mem (b := Proc.devRef .tc main_arg3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg3 m ρ c)
theorem Wb1_main_arg4 (c : Dev nD) : Wb1 m ρ c (Proc.devRef .tc main_arg4) = m ((c : Thread nD τ).loc main_arg4) :=
  ((Wb1_arr m ρ c 2).trans (((dat0 (Ve0 m ρ) c).arrAt_in 2 rfl _).trans (A_eq0 (Ve0 m ρ) c 2))).trans (rfl)
theorem Wb2_main_arg4 (c : Dev nD) : Wb2 m ρ c (Proc.devRef .tc main_arg4) = m ((c : Thread nD τ).loc main_arg4) :=
  (Wb2_of_ne m ρ c main_arg4 (by decide)).trans (Wb1_main_arg4 m ρ c)
theorem Wb3_main_arg4 (c : Dev nD) : Wb3 m ρ c (Proc.devRef .tc main_arg4) = m ((c : Thread nD τ).loc main_arg4) :=
  (Wb3_of_ne m ρ c main_arg4 (by decide)).trans (Wb2_main_arg4 m ρ c)
theorem Wb4_main_arg4 (c : Dev nD) : Wb4 m ρ c (Proc.devRef .tc main_arg4) = m ((c : Thread nD τ).loc main_arg4) :=
  (StableHlo.after_of_forall_not_mem (b := Proc.devRef .tc main_arg4) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg4 m ρ c)
theorem Wb1_main_arg5 (c : Dev nD) : Wb1 m ρ c (Proc.devRef .tc main_arg5) = m ((c : Thread nD τ).loc main_arg5) :=
  (Wb1_of_ne m ρ c main_arg5 (by decide)).trans (rfl)
theorem Wb2_main_arg5 (c : Dev nD) : Wb2 m ρ c (Proc.devRef .tc main_arg5) = m ((c : Thread nD τ).loc main_arg5) :=
  ((Wb2_arr m ρ c 1).trans (((dat1 (Ve1 m ρ) c).arrAt_in 1 rfl _).trans (A_eq1 (Ve1 m ρ) c 1))).trans (Wb1_main_arg5 m ρ c)
theorem Wb3_main_arg5 (c : Dev nD) : Wb3 m ρ c (Proc.devRef .tc main_arg5) = m ((c : Thread nD τ).loc main_arg5) :=
  (Wb3_of_ne m ρ c main_arg5 (by decide)).trans (Wb2_main_arg5 m ρ c)
theorem Wb4_main_arg5 (c : Dev nD) : Wb4 m ρ c (Proc.devRef .tc main_arg5) = m ((c : Thread nD τ).loc main_arg5) :=
  (StableHlo.after_of_forall_not_mem (b := Proc.devRef .tc main_arg5) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg5 m ρ c)
theorem Wb1_main_arg6 (c : Dev nD) : Wb1 m ρ c (Proc.devRef .tc main_arg6) = m ((c : Thread nD τ).loc main_arg6) :=
  (Wb1_of_ne m ρ c main_arg6 (by decide)).trans (rfl)
theorem Wb2_main_arg6 (c : Dev nD) : Wb2 m ρ c (Proc.devRef .tc main_arg6) = m ((c : Thread nD τ).loc main_arg6) :=
  ((Wb2_arr m ρ c 2).trans (((dat1 (Ve1 m ρ) c).arrAt_in 2 rfl _).trans (A_eq1 (Ve1 m ρ) c 2))).trans (Wb1_main_arg6 m ρ c)
theorem Wb3_main_arg6 (c : Dev nD) : Wb3 m ρ c (Proc.devRef .tc main_arg6) = m ((c : Thread nD τ).loc main_arg6) :=
  (Wb3_of_ne m ρ c main_arg6 (by decide)).trans (Wb2_main_arg6 m ρ c)
theorem Wb4_main_arg6 (c : Dev nD) : Wb4 m ρ c (Proc.devRef .tc main_arg6) = m ((c : Thread nD τ).loc main_arg6) :=
  (StableHlo.after_of_forall_not_mem (b := Proc.devRef .tc main_arg6) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg6 m ρ c)
theorem Wb1_main_arg7 (c : Dev nD) : Wb1 m ρ c (Proc.devRef .tc main_arg7) = m ((c : Thread nD τ).loc main_arg7) :=
  (Wb1_of_ne m ρ c main_arg7 (by decide)).trans (rfl)
theorem Wb2_main_arg7 (c : Dev nD) : Wb2 m ρ c (Proc.devRef .tc main_arg7) = m ((c : Thread nD τ).loc main_arg7) :=
  (Wb2_of_ne m ρ c main_arg7 (by decide)).trans (Wb1_main_arg7 m ρ c)
theorem Wb3_main_arg7 (c : Dev nD) : Wb3 m ρ c (Proc.devRef .tc main_arg7) = m ((c : Thread nD τ).loc main_arg7) :=
  ((Wb3_arr m ρ c 1).trans (((dat2 (Ve2 m ρ) c).arrAt_in 1 rfl _).trans (A_eq2 (Ve2 m ρ) c 1))).trans (Wb2_main_arg7 m ρ c)
theorem Wb4_main_arg7 (c : Dev nD) : Wb4 m ρ c (Proc.devRef .tc main_arg7) = m ((c : Thread nD τ).loc main_arg7) :=
  (StableHlo.after_of_forall_not_mem (b := Proc.devRef .tc main_arg7) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg7 m ρ c)
theorem Wb1_main_arg8 (c : Dev nD) : Wb1 m ρ c (Proc.devRef .tc main_arg8) = m ((c : Thread nD τ).loc main_arg8) :=
  (Wb1_of_ne m ρ c main_arg8 (by decide)).trans (rfl)
theorem Wb2_main_arg8 (c : Dev nD) : Wb2 m ρ c (Proc.devRef .tc main_arg8) = m ((c : Thread nD τ).loc main_arg8) :=
  (Wb2_of_ne m ρ c main_arg8 (by decide)).trans (Wb1_main_arg8 m ρ c)
theorem Wb3_main_arg8 (c : Dev nD) : Wb3 m ρ c (Proc.devRef .tc main_arg8) = m ((c : Thread nD τ).loc main_arg8) :=
  ((Wb3_arr m ρ c 2).trans (((dat2 (Ve2 m ρ) c).arrAt_in 2 rfl _).trans (A_eq2 (Ve2 m ρ) c 2))).trans (Wb2_main_arg8 m ρ c)
theorem Wb4_main_arg8 (c : Dev nD) : Wb4 m ρ c (Proc.devRef .tc main_arg8) = m ((c : Thread nD τ).loc main_arg8) :=
  (StableHlo.after_of_forall_not_mem (b := Proc.devRef .tc main_arg8) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg8 m ρ c)
theorem Wb1_main_arg9 (c : Dev nD) : Wb1 m ρ c (Proc.devRef .tc main_arg9) = m ((c : Thread nD τ).loc main_arg9) :=
  (Wb1_of_ne m ρ c main_arg9 (by decide)).trans (rfl)
theorem Wb2_main_arg9 (c : Dev nD) : Wb2 m ρ c (Proc.devRef .tc main_arg9) = m ((c : Thread nD τ).loc main_arg9) :=
  (Wb2_of_ne m ρ c main_arg9 (by decide)).trans (Wb1_main_arg9 m ρ c)
theorem Wb3_main_arg9 (c : Dev nD) : Wb3 m ρ c (Proc.devRef .tc main_arg9) = m ((c : Thread nD τ).loc main_arg9) :=
  (Wb3_of_ne m ρ c main_arg9 (by decide)).trans (Wb2_main_arg9 m ρ c)
theorem Wb4_main_arg9 (c : Dev nD) : Wb4 m ρ c (Proc.devRef .tc main_arg9) = m ((c : Thread nD τ).loc main_arg9) :=
  (StableHlo.after_of_forall_not_mem (b := Proc.devRef .tc main_arg9) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg9 m ρ c)
theorem Wb1_main_arg10 (c : Dev nD) : Wb1 m ρ c (Proc.devRef .tc main_arg10) = m ((c : Thread nD τ).loc main_arg10) :=
  (Wb1_of_ne m ρ c main_arg10 (by decide)).trans (rfl)
theorem Wb2_main_arg10 (c : Dev nD) : Wb2 m ρ c (Proc.devRef .tc main_arg10) = m ((c : Thread nD τ).loc main_arg10) :=
  (Wb2_of_ne m ρ c main_arg10 (by decide)).trans (Wb1_main_arg10 m ρ c)
theorem Wb3_main_arg10 (c : Dev nD) : Wb3 m ρ c (Proc.devRef .tc main_arg10) = m ((c : Thread nD τ).loc main_arg10) :=
  (Wb3_of_ne m ρ c main_arg10 (by decide)).trans (Wb2_main_arg10 m ρ c)
theorem Wb4_main_arg10 (c : Dev nD) : Wb4 m ρ c (Proc.devRef .tc main_arg10) = m ((c : Thread nD τ).loc main_arg10) :=
  (StableHlo.after_of_forall_not_mem (b := Proc.devRef .tc main_arg10) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg10 m ρ c)

/-- Each branch's output array is still what its own region left when the host operations start. -/
theorem Wb3_main_v0 (c : Dev nD) : Wb3 m ρ c (Proc.devRef .tc main_v0) = (dat0 (Ve0 m ρ) c).arrAt 3 cfg0.N :=
  (Wb3_of_ne m ρ c main_v0 (by decide)).trans ((Wb2_of_ne m ρ c main_v0 (by decide)).trans (Wb1_arr m ρ c 3))
theorem Wb3_main_v1 (c : Dev nD) : Wb3 m ρ c (Proc.devRef .tc main_v1) = (dat1 (Ve1 m ρ) c).arrAt 3 cfg1.N :=
  (Wb3_of_ne m ρ c main_v1 (by decide)).trans (Wb2_arr m ρ c 3)
theorem Wb3_main_v2 (c : Dev nD) : Wb3 m ρ c (Proc.devRef .tc main_v2) = (dat2 (Ve2 m ρ) c).arrAt 3 cfg2.N :=
  Wb3_arr m ρ c 3

/-! ## The proof data family and the thread state -/

/-- No pipeline has a prefetched table. -/
abbrev padm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) padm p) c
  | ⟨0, _⟩ => fun c => dat0 (Ve0 m ρ) c
  | ⟨1, _⟩ => fun c => dat1 (Ve1 m ρ) c
  | ⟨2, _⟩ => fun c => dat2 (Ve2 m ρ) c
abbrev 𝒱r : Variants := Variants.none
/-- No core owes another anything: no level is assigned. -/
abbrev Lr : GSem nD τ sig → Finset Unit := fun _ => ∅
abbrev lvr : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)
/-- The host stretch as a segment over the unscoped references from the contents W. -/
abbrev hsegr (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped reference is among those the thread state holds. -/
theorem mem_ucr (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes term. -/
abbrev Tlast (c : Dev nD) : sProp 𝕄 := iprop(StableHlo.held (c : Thread nD τ) (Pipeline.ucRefs τ sig) (Wb4 m ρ c) ∗ ∃ r, prngReg c r)

/-! ## The regions as segments -/

set_option backward.isDefEq.respectTransparency.types false in
/-- Region 0 over the thread state: entered from every unscoped buffer at boundary 0's contents, left at boundary 1's. Its
    arrays are split out of the unscoped buffers and put back at the exit contents; the generator register goes into the
    invariant and comes back; nothing is owed; the kernel has no semaphore of its own. -/
def reg0 : Pipeline.RegionSeg (pcfgs (F := F)) padm (pdats m ρ) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ Lr lvr 0 fun _ _ => rfl
  pre c := iprop(StableHlo.held (c : Thread nD τ) (Pipeline.ucRefs τ sig) (Wb0 m ρ c) ∗ Rr c)
  post c := iprop(StableHlo.held (c : Thread nD τ) (Pipeline.ucRefs τ sig) (Wb1 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Ve0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (Ve0 m ρ c) (Ve1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 1's contents, left at boundary 2's. Its
    arrays are split out of the unscoped buffers and put back at the exit contents; the generator register goes into the
    invariant and comes back; nothing is owed; the kernel has no semaphore of its own. -/
def reg1 : Pipeline.RegionSeg (pcfgs (F := F)) padm (pdats m ρ) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ Lr lvr 1 fun _ _ => rfl
  pre c := iprop(StableHlo.held (c : Thread nD τ) (Pipeline.ucRefs τ sig) (Wb1 m ρ c) ∗ Rr c)
  post c := iprop(StableHlo.held (c : Thread nD τ) (Pipeline.ucRefs τ sig) (Wb2 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (Ve1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (Ve1 m ρ c) (Ve2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 2's contents, left at boundary 3's. Its
    arrays are split out of the unscoped buffers and put back at the exit contents; the generator register goes into the
    invariant and comes back; nothing is owed; the kernel has no semaphore of its own. -/
def reg2 : Pipeline.RegionSeg (pcfgs (F := F)) padm (pdats m ρ) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (Ve2 m ρ) c).loose
  hwaits := Pipeline.hwaits_of_owed_zero _ _ _ _ Lr lvr 2 fun _ _ => rfl
  pre c := iprop(StableHlo.held (c : Thread nD τ) (Pipeline.ucRefs τ sig) (Wb2 m ρ c) ∗ Rr c)
  post c := iprop(StableHlo.held (c : Thread nD τ) (Pipeline.ucRefs τ sig) (Wb3 m ρ c) ∗ Rr c)
  X c := iprop(∃ r, prngReg c r)
  Y c := iprop(∃ r, prngReg c r)
  Z c := Pipeline.unscopedRest (Ix := Unit) (Name := ℕ) (U := UR sig nD τ) (Lvl := ℕ) spec2 c (Ve2 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (Ve2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (Ve2 m ρ c) (Ve3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The four segments in order. -/
abbrev segsr : List (Pipeline.Seg (pcfgs (F := F)) padm (pdats m ρ) () defs₀ 𝒱r Lr lvr) :=
  [ .region (reg0 m ρ),
    .region (reg1 m ρ),
    .region (reg2 m ρ),
    .host (hsegr hostOps3 hostOps3_sub hostOps3_fresh' (Wb3 m ρ)) ]
/-- The program is the run of the segments. -/
theorem main_runr (c : Dev nD) : main (F := F) c = Pipeline.Seg.run (segsr m ρ) := (main_chain c).trans (by chain_rfl)

set_option backward.isDefEq.respectTransparency.types false in
/-- From any memory with zero counters every weakly fair execution terminates, nothing faulting, and the final memory
    holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb4 m ρ c b) :=
  Pipeline.θ_run_regions_kit (pcfgs (F := F)) padm (pdats m ρ) () cellOf_inj emb₁ defs₀ 𝒱r Lr lvr m ρ main (segsr m ρ)
    (fun c Q => by rw [main_runr m ρ c])
    (by simp only [segsr, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ Rr c)) (Tₙ := Tlast m ρ)
    (hch := ⟨fun _ => .rfl, fun _ => .rfl, fun _ => .rfl, fun _ => .rfl, fun c => by
      show iprop(StableHlo.held (c : Thread nD τ) (Pipeline.ucRefs τ sig) (Wb4 m ρ c) ∗ Rr c) ⊢ _
      iintro ⟨Hh, Hp, Ho⟩
      isplitl [Hh Hp]
      · isplitl [Hh]
        · iexact Hh
        · iexact Hp
      · iexact Ho⟩)
    (hinit := by
      refine Pipeline.initEach Lr lvr fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_ucr main_arg0 (by decide))).trans (Wb4_main_arg0 m ρ c),
    (h c _ (mem_ucr main_arg1 (by decide))).trans (Wb4_main_arg1 m ρ c),
    (h c _ (mem_ucr main_arg2 (by decide))).trans (Wb4_main_arg2 m ρ c),
    (h c _ (mem_ucr main_arg3 (by decide))).trans (Wb4_main_arg3 m ρ c),
    (h c _ (mem_ucr main_arg4 (by decide))).trans (Wb4_main_arg4 m ρ c),
    (h c _ (mem_ucr main_arg5 (by decide))).trans (Wb4_main_arg5 m ρ c),
    (h c _ (mem_ucr main_arg6 (by decide))).trans (Wb4_main_arg6 m ρ c),
    (h c _ (mem_ucr main_arg7 (by decide))).trans (Wb4_main_arg7 m ρ c),
    (h c _ (mem_ucr main_arg8 (by decide))).trans (Wb4_main_arg8 m ρ c),
    (h c _ (mem_ucr main_arg9 (by decide))).trans (Wb4_main_arg9 m ρ c),
    (h c _ (mem_ucr main_arg10 (by decide))).trans (Wb4_main_arg10 m ρ c)⟩) (run_all m ρ)

end Cert.Kernel.Hand

end
-- ==== Proof.KIShared.lean ====
/-
  What the three branches' frame proofs share: the closed forms of each body's two conditionals over the sixteen
  grid points, where each output window is idle, the memrefs a body is called with, the class invariant with the two
  accumulators split out, and each window's block at a grid point read off the array the region is entered with.
-/
import proofs.«181729_j86371792323176_1_alg».proof.Proof.Gen.KernelIdeal.Launch
import proofs.«181729_j86371792323176_1_alg».proof.Proof.Gen.KernelIdeal.Skeleton
import proofs.«181729_j86371792323176_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Branch 0: where its two conditionals hold, where its output window is idle, its memrefs -/

/-- The first conditional of branch 0's body (zero the two accumulators) as a proposition over the grid coordinates. -/
abbrev cond0_0 (i : grid0.Coords) : Prop := (Scalar.cmpi .ne (Scalar.extui (Scalar.cmpi .eq (BitVec.ofNat 32 (i 0).val) 0#32)) 0#32) = 1#1
/-- It holds at the first grid point only. -/
theorem hcond0_0 : ∀ t : Fin cfg0.N, cond0_0 (grid0.coords t) ↔ t.val = 0 :=
  (by decide +kernel : ∀ t : Fin grid0.N, cond0_0 (grid0.coords t) ↔ t.val = 0)
/-- The second conditional (scale and store the result). -/
abbrev cond0_1 (i : grid0.Coords) : Prop := k0_cond2 i = 1#1
/-- It holds at the last grid point only. -/
theorem hcond0_1 : ∀ t : Fin cfg0.N, cond0_1 (grid0.coords t) ↔ t.val = 15 :=
  (by decide +kernel : ∀ t : Fin grid0.N, cond0_1 (grid0.coords t) ↔ t.val = 15)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the output window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point it is live. -/
theorem liveAt0_3 : ∀ t : Fin cfg0.N, cond0_1 (grid0.coords t) → cfg0.idle 3 (grid0.coords t) = false := by decide +kernel

/-- Each window's current staging memref at point t, as the pipeline passes it to the body, and its wholeness. -/
abbrev ms0_0 (t : Fin cfg0.N) : Memref sig .tc .vmem S128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
/-- The two accumulators: whole scratch buffers of the kernel's own. -/
abbrev scM0_0 : Memref sig .tc .vmem S128x2048 .f32 := Memref.whole cc0_scratch0
abbrev scM0_1 : Memref sig .tc .vmem S128x2048 .f32 := Memref.whole cc0_scratch1
/-- Views through which the contents of the output's staging buffer and of the two accumulators are stated. -/
abbrev VO0_3 : View sig .tc .vmem S128x2048 .f32 := (Memref.whole cc0_stg3_0 : Memref sig .tc .vmem S128x2048 .f32).view
abbrev VS0_0 : View sig .tc .vmem S128x2048 .f32 := scM0_0.view
abbrev VS0_1 : View sig .tc .vmem S128x2048 .f32 := scM0_1.view

/-- The region's class invariant with branch 0's two accumulators split out of the scoped rest, each owned whole at
    some contents; every other scoped buffer stays unopened. -/
theorem PhiA0_eq (c : Dev nD) :
    (Pipeline.ΦA spec0 c : sProp 𝕄)
      = iprop(((((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1])
          ∗ (∃ r, prngReg c r))) := by
  unfold Pipeline.ΦA
  rw [Pipeline.scopedRest_split_of_list spec0 c [cc0_scratch0, cc0_scratch1] (by decide) (by decide)]
  simp only [scM0_0, scM0_1, owns_whole, bigSepL, List.foldr, BI.sep_emp]
  rfl

/-! ## Branch 1: where its two conditionals hold, where its output window is idle, its memrefs -/

/-- The first conditional of branch 1's body (zero the two accumulators) as a proposition over the grid coordinates. -/
abbrev cond1_0 (i : grid1.Coords) : Prop := (Scalar.cmpi .ne (Scalar.extui (Scalar.cmpi .eq (BitVec.ofNat 32 (i 0).val) 0#32)) 0#32) = 1#1
/-- It holds at the first grid point only. -/
theorem hcond1_0 : ∀ t : Fin cfg1.N, cond1_0 (grid1.coords t) ↔ t.val = 0 :=
  (by decide +kernel : ∀ t : Fin grid1.N, cond1_0 (grid1.coords t) ↔ t.val = 0)
/-- The second conditional (scale and store the result). -/
abbrev cond1_1 (i : grid1.Coords) : Prop := k1_cond2 i = 1#1
/-- It holds at the last grid point only. -/
theorem hcond1_1 : ∀ t : Fin cfg1.N, cond1_1 (grid1.coords t) ↔ t.val = 15 :=
  (by decide +kernel : ∀ t : Fin grid1.N, cond1_1 (grid1.coords t) ↔ t.val = 15)

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last point it is live. -/
theorem liveAt1_3 : ∀ t : Fin cfg1.N, cond1_1 (grid1.coords t) → cfg1.idle 3 (grid1.coords t) = false := by decide +kernel

/-- Each window's current staging memref at point t, as the pipeline passes it to the body, and its wholeness. -/
abbrev ms1_0 (t : Fin cfg1.N) : Memref sig .tc .vmem S128x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x2048 .f32 := win1_3.stage (cfg1.slots t 3)
abbrev hs1_3 (t : Fin cfg1.N) : (ms1_3 t).IsWhole := hstage1_3 ((cfg1.slots t 3).cast nbuf1_3)
/-- The two accumulators: whole scratch buffers of the kernel's own. -/
abbrev scM1_0 : Memref sig .tc .vmem S128x2048 .f32 := Memref.whole cc1_scratch0
abbrev scM1_1 : Memref sig .tc .vmem S128x2048 .f32 := Memref.whole cc1_scratch1
/-- Views through which the contents of the output's staging buffer and of the two accumulators are stated. -/
abbrev VO1_3 : View sig .tc .vmem S128x2048 .f32 := (Memref.whole cc1_stg3_0 : Memref sig .tc .vmem S128x2048 .f32).view
abbrev VS1_0 : View sig .tc .vmem S128x2048 .f32 := scM1_0.view
abbrev VS1_1 : View sig .tc .vmem S128x2048 .f32 := scM1_1.view

/-- The region's class invariant with branch 1's two accumulators split out of the scoped rest, each owned whole at
    some contents; every other scoped buffer stays unopened. -/
theorem PhiA1_eq (c : Dev nD) :
    (Pipeline.ΦA spec1 c : sProp 𝕄)
      = iprop(((((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r))) := by
  unfold Pipeline.ΦA
  rw [Pipeline.scopedRest_split_of_list spec1 c [cc1_scratch0, cc1_scratch1] (by decide) (by decide)]
  simp only [scM1_0, scM1_1, owns_whole, bigSepL, List.foldr, BI.sep_emp]
  rfl

/-! ## Branch 2: where its two conditionals hold, where its output window is idle, its memrefs -/

/-- The first conditional of branch 2's body (zero the two accumulators) as a proposition over the grid coordinates. -/
abbrev cond2_0 (i : grid2.Coords) : Prop := (Scalar.cmpi .ne (Scalar.extui (Scalar.cmpi .eq (BitVec.ofNat 32 (i 0).val) 0#32)) 0#32) = 1#1
/-- It holds at the first grid point only. -/
theorem hcond2_0 : ∀ t : Fin cfg2.N, cond2_0 (grid2.coords t) ↔ t.val = 0 :=
  (by decide +kernel : ∀ t : Fin grid2.N, cond2_0 (grid2.coords t) ↔ t.val = 0)
/-- The second conditional (scale and store the result). -/
abbrev cond2_1 (i : grid2.Coords) : Prop := k2_cond2 i = 1#1
/-- It holds at the last grid point only. -/
theorem hcond2_1 : ∀ t : Fin cfg2.N, cond2_1 (grid2.coords t) ↔ t.val = 15 :=
  (by decide +kernel : ∀ t : Fin grid2.N, cond2_1 (grid2.coords t) ↔ t.val = 15)

/-- The three input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last point the output window is idle and is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last point it is live. -/
theorem liveAt2_3 : ∀ t : Fin cfg2.N, cond2_1 (grid2.coords t) → cfg2.idle 3 (grid2.coords t) = false := by decide +kernel

/-- Each window's current staging memref at point t, as the pipeline passes it to the body, and its wholeness. -/
abbrev ms2_0 (t : Fin cfg2.N) : Memref sig .tc .vmem S128x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x2048 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x2048 .f32 := win2_3.stage (cfg2.slots t 3)
abbrev hs2_3 (t : Fin cfg2.N) : (ms2_3 t).IsWhole := hstage2_3 ((cfg2.slots t 3).cast nbuf2_3)
/-- The two accumulators: whole scratch buffers of the kernel's own. -/
abbrev scM2_0 : Memref sig .tc .vmem S128x2048 .f32 := Memref.whole cc2_scratch0
abbrev scM2_1 : Memref sig .tc .vmem S128x2048 .f32 := Memref.whole cc2_scratch1
/-- Views through which the contents of the output's staging buffer and of the two accumulators are stated. -/
abbrev VO2_3 : View sig .tc .vmem S128x2048 .f32 := (Memref.whole cc2_stg3_0 : Memref sig .tc .vmem S128x2048 .f32).view
abbrev VS2_0 : View sig .tc .vmem S128x2048 .f32 := scM2_0.view
abbrev VS2_1 : View sig .tc .vmem S128x2048 .f32 := scM2_1.view

/-- The region's class invariant with branch 2's two accumulators split out of the scoped rest, each owned whole at
    some contents; every other scoped buffer stays unopened. -/
theorem PhiA2_eq (c : Dev nD) :
    (Pipeline.ΦA spec2 c : sProp 𝕄)
      = iprop(((((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1])
          ∗ (∃ r, prngReg c r))) := by
  unfold Pipeline.ΦA
  rw [Pipeline.scopedRest_split_of_list spec2 c [cc2_scratch0, cc2_scratch1] (by decide) (by decide)]
  simp only [scM2_0, scM2_1, owns_whole, bigSepL, List.foldr, BI.sep_emp]
  rfl

section Blocks
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Blocks

end Cert.KernelIdeal.Hand

end
-- ==== Proof.KIRun0A.lean ====
/-
  Branch 0's body run at the first grid point (the accumulators are zeroed first; nothing is stored into the output): from whole memrefs holding the three input blocks, the body
  runs to its end leaving the inputs as they were and each buffer it stores into at its stores' pieces; the piece lists
  are found by the symbolic run.
-/
import proofs.«181729_j86371792323176_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written (the output's staging buffer, not stored into here, as it was). -/
noncomputable def kernelRun0_A (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond0_0 i) (hc1 : ¬cond0_1 i)
    (x0 : Vec F S128x512 .f32) (x1 : Vec F S512x2048 .f32) (x2 : Vec F S512x2048 .f32) :
    Σ' (LS0 : List (View.Piece (Elt F) S128x2048 .f32)), { LS1 : List (View.Piece (Elt F) S128x2048 .f32) //
      ∀ (x3 : Vec F S128x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__branch_kernel i arg1 harg1 arg2 harg2 arg3 harg3 arg4 harg4 arg5 harg5 arg6 harg6) K } := by
  refine ⟨?_, ?_, fun x3 E K => ?run⟩
  case run =>
    simp only [cc0__branch_kernel_eq_skeleton]; unfold cc0__branch_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact hf3
      iexact H3
    isplitl [HS0]; · iexists _; iexact HS0
    iexists _; iexact HS1

end Cert.KernelIdeal.Hand

end
-- ==== Proof.KIRun0B.lean ====
/-
  Branch 0's body run at a middle grid point (the accumulators are added to; nothing is stored into the output): from whole memrefs holding the three input blocks and the two accumulators' contents, the body
  runs to its end leaving the inputs as they were and each buffer it stores into at its stores' pieces; the piece lists
  are found by the symbolic run.
-/
import proofs.«181729_j86371792323176_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written (the output's staging buffer, not stored into here, as it was). -/
noncomputable def kernelRun0_B (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : ¬cond0_1 i)
    (x0 : Vec F S128x512 .f32) (x1 : Vec F S512x2048 .f32) (x2 : Vec F S512x2048 .f32) (xs0 xs1 : Vec F S128x2048 .f32) :
    Σ' (LS0 : List (View.Piece (Elt F) S128x2048 .f32)), { LS1 : List (View.Piece (Elt F) S128x2048 .f32) //
      ∀ (x3 : Vec F S128x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__branch_kernel i arg1 harg1 arg2 harg2 arg3 harg3 arg4 harg4 arg5 harg5 arg6 harg6) K } := by
  refine ⟨?_, ?_, fun x3 E K => ?run⟩
  case run =>
    simp only [cc0__branch_kernel_eq_skeleton]; unfold cc0__branch_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact hf3
      iexact H3
    isplitl [HS0]; · iexists _; iexact HS0
    iexists _; iexact HS1

end Cert.KernelIdeal.Hand

end
-- ==== Proof.KIRun0C.lean ====
/-
  Branch 0's body run at the last grid point (the accumulators are added to, then the scaled result is stored into the output): from whole memrefs holding the three input blocks and the two accumulators' contents, the body
  runs to its end leaving the inputs as they were and each buffer it stores into at its stores' pieces; the piece lists
  are found by the symbolic run.
-/
import proofs.«181729_j86371792323176_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written. -/
noncomputable def kernelRun0_C (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i)
    (x0 : Vec F S128x512 .f32) (x1 : Vec F S512x2048 .f32) (x2 : Vec F S512x2048 .f32) (xs0 xs1 : Vec F S128x2048 .f32) :
    Σ' (L3 : List (View.Piece (Elt F) S128x2048 .f32)) (LS0 : List (View.Piece (Elt F) S128x2048 .f32)), { LS1 : List (View.Piece (Elt F) S128x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__branch_kernel i arg1 harg1 arg2 harg2 arg3 harg3 arg4 harg4 arg5 harg5 arg6 harg6) K } := by
  refine ⟨?_, ?_, ?_, fun E K => ?run⟩
  case run =>
    simp only [cc0__branch_kernel_eq_skeleton]; unfold cc0__branch_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Cert.KernelIdeal.Hand

end
-- ==== Proof.KIRegion0.lean ====
/-
  Branch 0 as one region of the program, at the contents V the region is entered with: what each case of the body
  leaves in the two accumulators and in the output's staging buffer (the runs' pieces read back), what they hold
  after each grid point (by recursion on the point: the first point's case, then the middle case fourteen
  times, then the last point's), the region invariant carrying the accumulators from point to point, the pipeline's
  proof data and the body obligation at every point.
-/
import proofs.«181729_j86371792323176_1_alg».proof.Proof.KIRun0A
import proofs.«181729_j86371792323176_1_alg».proof.Proof.KIRun0B
import proofs.«181729_j86371792323176_1_alg».proof.Proof.KIRun0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- The first point's pieces for the first accumulator cover it. -/
theorem scover0_A_0 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond0_0 i) (hc1 : ¬cond0_1 i) (x0 : Vec F S128x512 .f32) (x1 : Vec F S512x2048 .f32) (x2 : Vec F S512x2048 .f32) (y : S128x2048.Idx) :
    ∃ pc ∈ (kernelRun0_A c i arg1 harg1 arg2 harg2 arg3 harg3 arg4 harg4 arg5 harg5 arg6 harg6 hc0 hc1 x0 x1 x2).1, y ∈ pc.1.set :=
  View.cover_of_tiledL (kernelRun0_A c i arg1 harg1 arg2 harg2 arg3 harg3 arg4 harg4 arg5 harg5 arg6 harg6 hc0 hc1 x0 x1 x2).1 S128x2048.size (by sl_kernel_rfl) y

/-- What the first point leaves in the first accumulator. -/
def sout0_A_0 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond0_0 i) (hc1 : ¬cond0_1 i) (x0 : Vec F S128x512 .f32) (x1 : Vec F S512x2048 .f32) (x2 : Vec F S512x2048 .f32) : Vec F S128x2048 .f32 :=
  VS0_0.read (Elt F) (VS0_0.writes (Elt F) VS0_0.junk (kernelRun0_A c i arg1 harg1 arg2 harg2 arg3 harg3 arg4 harg4 arg5 harg5 arg6 harg6 hc0 hc1 x0 x1 x2).1)

/-- The first point's pieces for the second accumulator cover it. -/
theorem scover0_A_1 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond0_0 i) (hc1 : ¬cond0_1 i) (x0 : Vec F S128x512 .f32) (x1 : Vec F S512x2048 .f32) (x2 : Vec F S512x2048 .f32) (y : S128x2048.Idx) :
    ∃ pc ∈ (kernelRun0_A c i arg1 harg1 arg2 harg2 arg3 harg3 arg4 harg4 arg5 harg5 arg6 harg6 hc0 hc1 x0 x1 x2).2.1, y ∈ pc.1.set :=
  View.cover_of_tiledL (kernelRun0_A c i arg1 harg1 arg2 harg2 arg3 harg3 arg4 harg4 arg5 harg5 arg6 harg6 hc0 hc1 x0 x1 x2).2.1 S128x2048.size (by sl_kernel_rfl) y

/-- What the first point leaves in the second accumulator. -/
def sout0_A_1 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond0_0 i) (hc1 : ¬cond0_1 i) (x0 : Vec F S128x512 .f32) (x1 : Vec F S512x2048 .f32) (x2 : Vec F S512x2048 .f32) : Vec F S128x2048 .f32 :=
  VS0_1.read (Elt F) (VS0_1.writes (Elt F) VS0_1.junk (kernelRun0_A c i arg1 harg1 arg2 harg2 arg3 harg3 arg4 harg4 arg5 harg5 arg6 harg6 hc0 hc1 x0 x1 x2).2.1)

/-- A middle point's pieces for the first accumulator cover it. -/
theorem scover0_B_0 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : ¬cond0_1 i) (x0 : Vec F S128x512 .f32) (x1 : Vec F S512x2048 .f32) (x2 : Vec F S512x2048 .f32) (xs0 xs1 : Vec F S128x2048 .f32) (y : S128x2048.Idx) :
    ∃ pc ∈ (kernelRun0_B c i arg1 harg1 arg2 harg2 arg3 harg3 arg4 harg4 arg5 harg5 arg6 harg6 hc0 hc1 x0 x1 x2 xs0 xs1).1, y ∈ pc.1.set :=
  View.cover_of_tiledL (kernelRun0_B c i arg1 harg1 arg2 harg2 arg3 harg3 arg4 harg4 arg5 harg5 arg6 harg6 hc0 hc1 x0 x1 x2 xs0 xs1).1 S128x2048.size (by sl_kernel_rfl) y

/-- What a middle point leaves in the first accumulator. -/
def sout0_B_0 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : ¬cond0_1 i) (x0 : Vec F S128x512 .f32) (x1 : Vec F S512x2048 .f32) (x2 : Vec F S512x2048 .f32) (xs0 xs1 : Vec F S128x2048 .f32) : Vec F S128x2048 .f32 :=
  VS0_0.read (Elt F) (VS0_0.writes (Elt F) VS0_0.junk (kernelRun0_B c i arg1 harg1 arg2 harg2 arg3 harg3 arg4 harg4 arg5 harg5 arg6 harg6 hc0 hc1 x0 x1 x2 xs0 xs1).1)

/-- A middle point's pieces for the second accumulator cover it. -/
theorem scover0_B_1 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : ¬cond0_1 i) (x0 : Vec F S128x512 .f32) (x1 : Vec F S512x2048 .f32) (x2 : Vec F S512x2048 .f32) (xs0 xs1 : Vec F S128x2048 .f32) (y : S128x2048.Idx) :
    ∃ pc ∈ (kernelRun0_B c i arg1 harg1 arg2 harg2 arg3 harg3 arg4 harg4 arg5 harg5 arg6 harg6 hc0 hc1 x0 x1 x2 xs0 xs1).2.1, y ∈ pc.1.set :=
  View.cover_of_tiledL (kernelRun0_B c i arg1 harg1 arg2 harg2 arg3 harg3 arg4 harg4 arg5 harg5 arg6 harg6 hc0 hc1 x0 x1 x2 xs0 xs1).2.1 S128x2048.size (by sl_kernel_rfl) y

/-- What a middle point leaves in the second accumulator. -/
def sout0_B_1 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : ¬cond0_1 i) (x0 : Vec F S128x512 .f32) (x1 : Vec F S512x2048 .f32) (x2 : Vec F S512x2048 .f32) (xs0 xs1 : Vec F S128x2048 .f32) : Vec F S128x2048 .f32 :=
  VS0_1.read (Elt F) (VS0_1.writes (Elt F) VS0_1.junk (kernelRun0_B c i arg1 harg1 arg2 harg2 arg3 harg3 arg4 harg4 arg5 harg5 arg6 harg6 hc0 hc1 x0 x1 x2 xs0 xs1).2.1)

/-- The last point's pieces for the output's staging buffer cover it. -/
theorem cover0_C_3 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) (y : S128x2048.Idx) :
    ∃ pc ∈ (kernelRun0_C c i arg1 harg1 arg2 harg2 arg3 harg3 arg4 harg4 arg5 harg5 arg6 harg6 hc0 hc1 x0 x1 x2 xs0 xs1).1, y ∈ pc.1.set :=
  View.cover_of_tiledL (kernelRun0_C c i arg1 harg1 arg2 harg2 arg3 harg3 arg4 harg4 arg5 harg5 arg6 harg6 hc0 hc1 x0 x1 x2 xs0 xs1).1 S128x2048.size (by sl_kernel_rfl) y

/-- What the last point leaves in the output's staging buffer. -/
def out0_C_3 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) : Vec F S128x2048 .f32 :=
  VO0_3.read (Elt F) (VO0_3.writes (Elt F) VO0_3.junk (kernelRun0_C c i arg1 harg1 arg2 harg2 arg3 harg3 arg4 harg4 arg5 harg5 arg6 harg6 hc0 hc1 x0 x1 x2 xs0 xs1).1)

/-- The last point's pieces for the first accumulator cover it. -/
theorem scover0_C_0 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) (y : S128x2048.Idx) :
    ∃ pc ∈ (kernelRun0_C c i arg1 harg1 arg2 harg2 arg3 harg3 arg4 harg4 arg5 harg5 arg6 harg6 hc0 hc1 x0 x1 x2 xs0 xs1).2.1, y ∈ pc.1.set :=
  View.cover_of_tiledL (kernelRun0_C c i arg1 harg1 arg2 harg2 arg3 harg3 arg4 harg4 arg5 harg5 arg6 harg6 hc0 hc1 x0 x1 x2 xs0 xs1).2.1 S128x2048.size (by sl_kernel_rfl) y

/-- What the last point leaves in the first accumulator. -/
def sout0_C_0 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) : Vec F S128x2048 .f32 :=
  VS0_0.read (Elt F) (VS0_0.writes (Elt F) VS0_0.junk (kernelRun0_C c i arg1 harg1 arg2 harg2 arg3 harg3 arg4 harg4 arg5 harg5 arg6 harg6 hc0 hc1 x0 x1 x2 xs0 xs1).2.1)

/-- The last point's pieces for the second accumulator cover it. -/
theorem scover0_C_1 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) (y : S128x2048.Idx) :
    ∃ pc ∈ (kernelRun0_C c i arg1 harg1 arg2 harg2 arg3 harg3 arg4 harg4 arg5 harg5 arg6 harg6 hc0 hc1 x0 x1 x2 xs0 xs1).2.2.1, y ∈ pc.1.set :=
  View.cover_of_tiledL (kernelRun0_C c i arg1 harg1 arg2 harg2 arg3 harg3 arg4 harg4 arg5 harg5 arg6 harg6 hc0 hc1 x0 x1 x2 xs0 xs1).2.2.1 S128x2048.size (by sl_kernel_rfl) y

/-- What the last point leaves in the second accumulator. -/
def sout0_C_1 (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) : Vec F S128x2048 .f32 :=
  VS0_1.read (Elt F) (VS0_1.writes (Elt F) VS0_1.junk (kernelRun0_C c i arg1 harg1 arg2 harg2 arg3 harg3 arg4 harg4 arg5 harg5 arg6 harg6 hc0 hc1 x0 x1 x2 xs0 xs1).2.2.1)

section Region
variable (V : (c : Dev nD) → (b : Ref sig .tc) → Buf (Elt F) ((c : Thread nD τ).loc b))

/-! ## The accumulation over the grid -/

/-- A placeholder for the output's staging buffer at the points that store nothing into it (nothing reads it). -/
def idleOut0 : Vec F S128x2048 .f32 := VO0_3.read (Elt F) VO0_3.junk

/-- What the output's staging buffer and the two accumulators hold after the body at grid position n. -/
def outsAt0 (c : Dev nD) : (n : ℕ) → n < cfg0.N → Vec F S128x2048 .f32 × Vec F S128x2048 .f32 × Vec F S128x2048 .f32
  | 0, hn => (idleOut0,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr rfl) (fun h => absurd ((hcond0_1 ⟨0, hn⟩).mp h) (show (0 : ℕ) ≠ 15 by decide)) (iblk0 V c 0 ⟨0, hn⟩) (iblk0 V c 1 ⟨0, hn⟩) (iblk0 V c 2 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr rfl) (fun h => absurd ((hcond0_1 ⟨0, hn⟩).mp h) (show (0 : ℕ) ≠ 15 by decide)) (iblk0 V c 0 ⟨0, hn⟩) (iblk0 V c 1 ⟨0, hn⟩) (iblk0 V c 2 ⟨0, hn⟩))
  | n + 1, hn =>
    if h1 : n + 1 = 15 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
    else
      (idleOut0,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- At the first point. -/
theorem outsAt0_A (c : Dev nD) (t : Fin cfg0.N) (h0 : t.val = 0) :
    outsAt0 V c t.val t.isLt = (idleOut0,
      sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => by have := (hcond0_1 t).mp h; omega) (iblk0 V c 0 t) (iblk0 V c 1 t) (iblk0 V c 2 t),
      sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => by have := (hcond0_1 t).mp h; omega) (iblk0 V c 0 t) (iblk0 V c 1 t) (iblk0 V c 2 t)) := by
  obtain ⟨n, hn⟩ := t
  cases n with
  | zero => rfl
  | succ n => exact absurd h0 (Nat.succ_ne_zero n)

/-- At a middle point: over what the point before left in the accumulators. -/
theorem outsAt0_B (c : Dev nD) (t : Fin cfg0.N) (h0 : t.val ≠ 0) (h1 : t.val ≠ 15) :
    outsAt0 V c t.val t.isLt = (idleOut0,
      sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
      sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd rfl h0
  | succ n => exact (dif_neg h1).trans rfl

/-- At the last point: over what the point before left in the accumulators. -/
theorem outsAt0_C (c : Dev nD) (t : Fin cfg0.N) (h0 : t.val ≠ 0) (h1 : t.val = 15) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
      sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2,
      sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd rfl h0
  | succ n => exact (dif_pos h1).trans rfl

/-! ## The region invariant -/

/-- Before grid position n: at the first point the class invariant (the accumulators at anything); afterwards the two
    accumulators at what the point before left in them, the other scoped buffers unopened, the generator register at
    some state. -/
def PhiS0 (c : Dev nD) : (n : ℕ) → n ≤ cfg0.N → sProp 𝕄
  | 0, _ => Pipeline.ΦA spec0 c
  | n + 1, hn => iprop((((owns (c : Thread nD τ) scM0_0 fullShare ((outsAt0 V c n hn).2.1) ∗ owns (c : Thread nD τ) scM0_1 fullShare ((outsAt0 V c n hn).2.2))
      ∗ Pipeline.scopedRestBut (Ix := Unit) (Name := ℕ) (U := UR sig nD τ) (Lvl := ℕ) (Val := Elt F) spec0 c [cc0_scratch0, cc0_scratch1])
      ∗ (∃ r, prngReg c r)))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((((owns (c : Thread nD τ) scM0_0 fullShare ((outsAt0 V c n hn).2.1) ∗ owns (c : Thread nD τ) scM0_1 fullShare ((outsAt0 V c n hn).2.2))
      ∗ Pipeline.scopedRestBut (Ix := Unit) (Name := ℕ) (U := UR sig nD τ) (Lvl := ℕ) (Val := Elt F) spec0 c [cc0_scratch0, cc0_scratch1])
      ∗ (∃ r, prngReg c r))) := rfl

theorem PhiS0_pos (c : Dev nD) (n : ℕ) (h : n ≤ cfg0.N) (hz : n ≠ 0) :
    PhiS0 V c n h = iprop((((owns (c : Thread nD τ) scM0_0 fullShare ((outsAt0 V c (n - 1) (by omega)).2.1) ∗ owns (c : Thread nD τ) scM0_1 fullShare ((outsAt0 V c (n - 1) (by omega)).2.2))
      ∗ Pipeline.scopedRestBut (Ix := Unit) (Name := ℕ) (U := UR sig nD τ) (Lvl := ℕ) (Val := Elt F) spec0 c [cc0_scratch0, cc0_scratch1])
      ∗ (∃ r, prngReg c r))) := by
  cases n with
  | zero => exact absurd rfl hz
  | succ n => rfl

/-! ## The pipeline's proof data -/

/-- The arrays as the region finds them; after the body at point t each input's staging buffer at its block and the
    output's at the accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val = 0
  · have hc1 : ¬cond0_1 (grid0.coords t) := fun h => by have := (hcond0_1 t).mp h; omega
    rw [Dat.leavesExact_idle (dat0 V c) 3 t (idleAt0_3 t hc1) (noFlush0_3 t hc1)]
    rw [outsAt0_A V c t h0]
    unfold sout0_A_0 sout0_A_1; (try dsimp only)
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩⟩
    iapply ((kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) hc1 (iblk0 V c 0 t) (iblk0 V c 1 t) (iblk0 V c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    ·
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_A_0 _ _ _ _ _ _ _ _ _ _ _ _ _ _ _ _ _ _ _)
            · unfold owns; iexists _; isplitr
              swap; · iexact HS1
              ipureintro; exact View.read_writes_of_cover _ _ _ _ _ (scover0_A_1 _ _ _ _ _ _ _ _ _ _ _ _ _ _ _ _ _ _ _)
          · iexact Hrest
        · iexact Hg
      isplitl [Ho]; · iexact Ho
      isplitl [H0]; · iexact H0
      isplitl [H1]; · iexact H1
      isplitl [H2]; · iexact H2
      iexists _; iexact H3
  · by_cases h1 : t.val = 15
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C_3 sout0_C_0 sout0_C_1; (try dsimp only)
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      ·
        iintro ⟨H0, H1, H2, H3, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_C_0 _ _ _ _ _ _ _ _ _ _ _ _ _ _ _ _ _ _ _ _ _)
              · unfold owns; iexists _; isplitr
                swap; · iexact HS1
                ipureintro; exact View.read_writes_of_cover _ _ _ _ _ (scover0_C_1 _ _ _ _ _ _ _ _ _ _ _ _ _ _ _ _ _ _ _ _ _)
            · iexact Hrest
          · iexact Hg
        isplitl [Ho]; · iexact Ho
        isplitl [H0]; · iexact H0
        isplitl [H1]; · iexact H1
        isplitl [H2]; · iexact H2
        icases H3 with ⟨%e3, H3⟩
        unfold owns; iexists _; isplitr
        swap; · iexact H3
        ipureintro; exact View.read_writes_of_cover _ _ _ _ _ (cover0_C_3 _ _ _ _ _ _ _ _ _ _ _ _ _ _ _ _ _ _ _ _ _)
    · have hc1 : ¬cond0_1 (grid0.coords t) := fun h => h1 ((hcond0_1 t).mp h)
      rw [Dat.leavesExact_idle (dat0 V c) 3 t (idleAt0_3 t hc1) (noFlush0_3 t hc1)]
      rw [outsAt0_B V c t h0 h1]
      unfold sout0_B_0 sout0_B_1; (try dsimp only)
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) hc1 (iblk0 V c 0 t) (iblk0 V c 1 t) (iblk0 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      ·
        iintro ⟨H0, H1, H2, H3, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover0_B_0 _ _ _ _ _ _ _ _ _ _ _ _ _ _ _ _ _ _ _ _ _)
              · unfold owns; iexists _; isplitr
                swap; · iexact HS1
                ipureintro; exact View.read_writes_of_cover _ _ _ _ _ (scover0_B_1 _ _ _ _ _ _ _ _ _ _ _ _ _ _ _ _ _ _ _ _ _)
            · iexact Hrest
          · iexact Hg
        isplitl [Ho]; · iexact Ho
        isplitl [H0]; · iexact H0
        isplitl [H1]; · iexact H1
        isplitl [H2]; · iexact H2
        iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

end Region

end Cert.KernelIdeal.Hand

end
-- ==== Proof.KIRun1A.lean ====
/-
  Branch 1's body run at the first grid point (the accumulators are zeroed first; nothing is stored into the output): from whole memrefs holding the three input blocks, the body
  runs to its end leaving the inputs as they were and each buffer it stores into at its stores' pieces; the piece lists
  are found by the symbolic run.
-/
import proofs.«181729_j86371792323176_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written (the output's staging buffer, not stored into here, as it was). -/
noncomputable def kernelRun1_A (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i)
    (x0 : Vec F S128x512 .f32) (x1 : Vec F S512x2048 .f32) (x2 : Vec F S512x2048 .f32) :
    Σ' (LS0 : List (View.Piece (Elt F) S128x2048 .f32)), { LS1 : List (View.Piece (Elt F) S128x2048 .f32) //
      ∀ (x3 : Vec F S128x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__branch_kernel i arg1 harg1 arg2 harg2 arg3 harg3 arg4 harg4 arg5 harg5 arg6 harg6) K } := by
  refine ⟨?_, ?_, fun x3 E K => ?run⟩
  case run =>
    simp only [cc1__branch_kernel_eq_skeleton]; unfold cc1__branch_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact hf3
      iexact H3
    isplitl [HS0]; · iexists _; iexact HS0
    iexists _; iexact HS1

end Cert.KernelIdeal.Hand

end
-- ==== Proof.KIRun1B.lean ====
/-
  Branch 1's body run at a middle grid point (the accumulators are added to; nothing is stored into the output): from whole memrefs holding the three input blocks and the two accumulators' contents, the body
  runs to its end leaving the inputs as they were and each buffer it stores into at its stores' pieces; the piece lists
  are found by the symbolic run.
-/
import proofs.«181729_j86371792323176_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written (the output's staging buffer, not stored into here, as it was). -/
noncomputable def kernelRun1_B (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i)
    (x0 : Vec F S128x512 .f32) (x1 : Vec F S512x2048 .f32) (x2 : Vec F S512x2048 .f32) (xs0 xs1 : Vec F S128x2048 .f32) :
    Σ' (LS0 : List (View.Piece (Elt F) S128x2048 .f32)), { LS1 : List (View.Piece (Elt F) S128x2048 .f32) //
      ∀ (x3 : Vec F S128x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__branch_kernel i arg1 harg1 arg2 harg2 arg3 harg3 arg4 harg4 arg5 harg5 arg6 harg6) K } := by
  refine ⟨?_, ?_, fun x3 E K => ?run⟩
  case run =>
    simp only [cc1__branch_kernel_eq_skeleton]; unfold cc1__branch_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact hf3
      iexact H3
    isplitl [HS0]; · iexists _; iexact HS0
    iexists _; iexact HS1

end Cert.KernelIdeal.Hand

end
-- ==== Proof.KIRun1C.lean ====
/-
  Branch 1's body run at the last grid point (the accumulators are added to, then the scaled result is stored into the output): from whole memrefs holding the three input blocks and the two accumulators' contents, the body
  runs to its end leaving the inputs as they were and each buffer it stores into at its stores' pieces; the piece lists
  are found by the symbolic run.
-/
import proofs.«181729_j86371792323176_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written. -/
noncomputable def kernelRun1_C (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i)
    (x0 : Vec F S128x512 .f32) (x1 : Vec F S512x2048 .f32) (x2 : Vec F S512x2048 .f32) (xs0 xs1 : Vec F S128x2048 .f32) :
    Σ' (L3 : List (View.Piece (Elt F) S128x2048 .f32)) (LS0 : List (View.Piece (Elt F) S128x2048 .f32)), { LS1 : List (View.Piece (Elt F) S128x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__branch_kernel i arg1 harg1 arg2 harg2 arg3 harg3 arg4 harg4 arg5 harg5 arg6 harg6) K } := by
  refine ⟨?_, ?_, ?_, fun E K => ?run⟩
  case run =>
    simp only [cc1__branch_kernel_eq_skeleton]; unfold cc1__branch_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Cert.KernelIdeal.Hand

end
-- ==== Proof.KIRegion1.lean ====
/-
  Branch 1 as one region of the program, at the contents V the region is entered with: what each case of the body
  leaves in the two accumulators and in the output's staging buffer (the runs' pieces read back), what they hold
  after each grid point (by recursion on the point: the first point's case, then the middle case fourteen
  times, then the last point's), the region invariant carrying the accumulators from point to point, the pipeline's
  proof data and the body obligation at every point.
-/
import proofs.«181729_j86371792323176_1_alg».proof.Proof.KIRun1A
import proofs.«181729_j86371792323176_1_alg».proof.Proof.KIRun1B
import proofs.«181729_j86371792323176_1_alg».proof.Proof.KIRun1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- The first point's pieces for the first accumulator cover it. -/
theorem scover1_A_0 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i) (x0 : Vec F S128x512 .f32) (x1 : Vec F S512x2048 .f32) (x2 : Vec F S512x2048 .f32) (y : S128x2048.Idx) :
    ∃ pc ∈ (kernelRun1_A c i arg1 harg1 arg2 harg2 arg3 harg3 arg4 harg4 arg5 harg5 arg6 harg6 hc0 hc1 x0 x1 x2).1, y ∈ pc.1.set :=
  View.cover_of_tiledL (kernelRun1_A c i arg1 harg1 arg2 harg2 arg3 harg3 arg4 harg4 arg5 harg5 arg6 harg6 hc0 hc1 x0 x1 x2).1 S128x2048.size (by sl_kernel_rfl) y

/-- What the first point leaves in the first accumulator. -/
def sout1_A_0 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i) (x0 : Vec F S128x512 .f32) (x1 : Vec F S512x2048 .f32) (x2 : Vec F S512x2048 .f32) : Vec F S128x2048 .f32 :=
  VS1_0.read (Elt F) (VS1_0.writes (Elt F) VS1_0.junk (kernelRun1_A c i arg1 harg1 arg2 harg2 arg3 harg3 arg4 harg4 arg5 harg5 arg6 harg6 hc0 hc1 x0 x1 x2).1)

/-- The first point's pieces for the second accumulator cover it. -/
theorem scover1_A_1 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i) (x0 : Vec F S128x512 .f32) (x1 : Vec F S512x2048 .f32) (x2 : Vec F S512x2048 .f32) (y : S128x2048.Idx) :
    ∃ pc ∈ (kernelRun1_A c i arg1 harg1 arg2 harg2 arg3 harg3 arg4 harg4 arg5 harg5 arg6 harg6 hc0 hc1 x0 x1 x2).2.1, y ∈ pc.1.set :=
  View.cover_of_tiledL (kernelRun1_A c i arg1 harg1 arg2 harg2 arg3 harg3 arg4 harg4 arg5 harg5 arg6 harg6 hc0 hc1 x0 x1 x2).2.1 S128x2048.size (by sl_kernel_rfl) y

/-- What the first point leaves in the second accumulator. -/
def sout1_A_1 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i) (x0 : Vec F S128x512 .f32) (x1 : Vec F S512x2048 .f32) (x2 : Vec F S512x2048 .f32) : Vec F S128x2048 .f32 :=
  VS1_1.read (Elt F) (VS1_1.writes (Elt F) VS1_1.junk (kernelRun1_A c i arg1 harg1 arg2 harg2 arg3 harg3 arg4 harg4 arg5 harg5 arg6 harg6 hc0 hc1 x0 x1 x2).2.1)

/-- A middle point's pieces for the first accumulator cover it. -/
theorem scover1_B_0 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i) (x0 : Vec F S128x512 .f32) (x1 : Vec F S512x2048 .f32) (x2 : Vec F S512x2048 .f32) (xs0 xs1 : Vec F S128x2048 .f32) (y : S128x2048.Idx) :
    ∃ pc ∈ (kernelRun1_B c i arg1 harg1 arg2 harg2 arg3 harg3 arg4 harg4 arg5 harg5 arg6 harg6 hc0 hc1 x0 x1 x2 xs0 xs1).1, y ∈ pc.1.set :=
  View.cover_of_tiledL (kernelRun1_B c i arg1 harg1 arg2 harg2 arg3 harg3 arg4 harg4 arg5 harg5 arg6 harg6 hc0 hc1 x0 x1 x2 xs0 xs1).1 S128x2048.size (by sl_kernel_rfl) y

/-- What a middle point leaves in the first accumulator. -/
def sout1_B_0 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i) (x0 : Vec F S128x512 .f32) (x1 : Vec F S512x2048 .f32) (x2 : Vec F S512x2048 .f32) (xs0 xs1 : Vec F S128x2048 .f32) : Vec F S128x2048 .f32 :=
  VS1_0.read (Elt F) (VS1_0.writes (Elt F) VS1_0.junk (kernelRun1_B c i arg1 harg1 arg2 harg2 arg3 harg3 arg4 harg4 arg5 harg5 arg6 harg6 hc0 hc1 x0 x1 x2 xs0 xs1).1)

/-- A middle point's pieces for the second accumulator cover it. -/
theorem scover1_B_1 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i) (x0 : Vec F S128x512 .f32) (x1 : Vec F S512x2048 .f32) (x2 : Vec F S512x2048 .f32) (xs0 xs1 : Vec F S128x2048 .f32) (y : S128x2048.Idx) :
    ∃ pc ∈ (kernelRun1_B c i arg1 harg1 arg2 harg2 arg3 harg3 arg4 harg4 arg5 harg5 arg6 harg6 hc0 hc1 x0 x1 x2 xs0 xs1).2.1, y ∈ pc.1.set :=
  View.cover_of_tiledL (kernelRun1_B c i arg1 harg1 arg2 harg2 arg3 harg3 arg4 harg4 arg5 harg5 arg6 harg6 hc0 hc1 x0 x1 x2 xs0 xs1).2.1 S128x2048.size (by sl_kernel_rfl) y

/-- What a middle point leaves in the second accumulator. -/
def sout1_B_1 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i) (x0 : Vec F S128x512 .f32) (x1 : Vec F S512x2048 .f32) (x2 : Vec F S512x2048 .f32) (xs0 xs1 : Vec F S128x2048 .f32) : Vec F S128x2048 .f32 :=
  VS1_1.read (Elt F) (VS1_1.writes (Elt F) VS1_1.junk (kernelRun1_B c i arg1 harg1 arg2 harg2 arg3 harg3 arg4 harg4 arg5 harg5 arg6 harg6 hc0 hc1 x0 x1 x2 xs0 xs1).2.1)

/-- The last point's pieces for the output's staging buffer cover it. -/
theorem cover1_C_3 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) (y : S128x2048.Idx) :
    ∃ pc ∈ (kernelRun1_C c i arg1 harg1 arg2 harg2 arg3 harg3 arg4 harg4 arg5 harg5 arg6 harg6 hc0 hc1 x0 x1 x2 xs0 xs1).1, y ∈ pc.1.set :=
  View.cover_of_tiledL (kernelRun1_C c i arg1 harg1 arg2 harg2 arg3 harg3 arg4 harg4 arg5 harg5 arg6 harg6 hc0 hc1 x0 x1 x2 xs0 xs1).1 S128x2048.size (by sl_kernel_rfl) y

/-- What the last point leaves in the output's staging buffer. -/
def out1_C_3 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) : Vec F S128x2048 .f32 :=
  VO1_3.read (Elt F) (VO1_3.writes (Elt F) VO1_3.junk (kernelRun1_C c i arg1 harg1 arg2 harg2 arg3 harg3 arg4 harg4 arg5 harg5 arg6 harg6 hc0 hc1 x0 x1 x2 xs0 xs1).1)

/-- The last point's pieces for the first accumulator cover it. -/
theorem scover1_C_0 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) (y : S128x2048.Idx) :
    ∃ pc ∈ (kernelRun1_C c i arg1 harg1 arg2 harg2 arg3 harg3 arg4 harg4 arg5 harg5 arg6 harg6 hc0 hc1 x0 x1 x2 xs0 xs1).2.1, y ∈ pc.1.set :=
  View.cover_of_tiledL (kernelRun1_C c i arg1 harg1 arg2 harg2 arg3 harg3 arg4 harg4 arg5 harg5 arg6 harg6 hc0 hc1 x0 x1 x2 xs0 xs1).2.1 S128x2048.size (by sl_kernel_rfl) y

/-- What the last point leaves in the first accumulator. -/
def sout1_C_0 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) : Vec F S128x2048 .f32 :=
  VS1_0.read (Elt F) (VS1_0.writes (Elt F) VS1_0.junk (kernelRun1_C c i arg1 harg1 arg2 harg2 arg3 harg3 arg4 harg4 arg5 harg5 arg6 harg6 hc0 hc1 x0 x1 x2 xs0 xs1).2.1)

/-- The last point's pieces for the second accumulator cover it. -/
theorem scover1_C_1 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) (y : S128x2048.Idx) :
    ∃ pc ∈ (kernelRun1_C c i arg1 harg1 arg2 harg2 arg3 harg3 arg4 harg4 arg5 harg5 arg6 harg6 hc0 hc1 x0 x1 x2 xs0 xs1).2.2.1, y ∈ pc.1.set :=
  View.cover_of_tiledL (kernelRun1_C c i arg1 harg1 arg2 harg2 arg3 harg3 arg4 harg4 arg5 harg5 arg6 harg6 hc0 hc1 x0 x1 x2 xs0 xs1).2.2.1 S128x2048.size (by sl_kernel_rfl) y

/-- What the last point leaves in the second accumulator. -/
def sout1_C_1 (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) : Vec F S128x2048 .f32 :=
  VS1_1.read (Elt F) (VS1_1.writes (Elt F) VS1_1.junk (kernelRun1_C c i arg1 harg1 arg2 harg2 arg3 harg3 arg4 harg4 arg5 harg5 arg6 harg6 hc0 hc1 x0 x1 x2 xs0 xs1).2.2.1)

section Region
variable (V : (c : Dev nD) → (b : Ref sig .tc) → Buf (Elt F) ((c : Thread nD τ).loc b))

/-! ## The accumulation over the grid -/

/-- A placeholder for the output's staging buffer at the points that store nothing into it (nothing reads it). -/
def idleOut1 : Vec F S128x2048 .f32 := VO1_3.read (Elt F) VO1_3.junk

/-- What the output's staging buffer and the two accumulators hold after the body at grid position n. -/
def outsAt1 (c : Dev nD) : (n : ℕ) → n < cfg1.N → Vec F S128x2048 .f32 × Vec F S128x2048 .f32 × Vec F S128x2048 .f32
  | 0, hn => (idleOut1,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => absurd ((hcond1_1 ⟨0, hn⟩).mp h) (show (0 : ℕ) ≠ 15 by decide)) (iblk1 V c 0 ⟨0, hn⟩) (iblk1 V c 1 ⟨0, hn⟩) (iblk1 V c 2 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => absurd ((hcond1_1 ⟨0, hn⟩).mp h) (show (0 : ℕ) ≠ 15 by decide)) (iblk1 V c 0 ⟨0, hn⟩) (iblk1 V c 1 ⟨0, hn⟩) (iblk1 V c 2 ⟨0, hn⟩))
  | n + 1, hn =>
    if h1 : n + 1 = 15 then
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
       sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
    else
      (idleOut1,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2,
       sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- At the first point. -/
theorem outsAt1_A (c : Dev nD) (t : Fin cfg1.N) (h0 : t.val = 0) :
    outsAt1 V c t.val t.isLt = (idleOut1,
      sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => by have := (hcond1_1 t).mp h; omega) (iblk1 V c 0 t) (iblk1 V c 1 t) (iblk1 V c 2 t),
      sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => by have := (hcond1_1 t).mp h; omega) (iblk1 V c 0 t) (iblk1 V c 1 t) (iblk1 V c 2 t)) := by
  obtain ⟨n, hn⟩ := t
  cases n with
  | zero => rfl
  | succ n => exact absurd h0 (Nat.succ_ne_zero n)

/-- At a middle point: over what the point before left in the accumulators. -/
theorem outsAt1_B (c : Dev nD) (t : Fin cfg1.N) (h0 : t.val ≠ 0) (h1 : t.val ≠ 15) :
    outsAt1 V c t.val t.isLt = (idleOut1,
      sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
      sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd rfl h0
  | succ n => exact (dif_neg h1).trans rfl

/-- At the last point: over what the point before left in the accumulators. -/
theorem outsAt1_C (c : Dev nD) (t : Fin cfg1.N) (h0 : t.val ≠ 0) (h1 : t.val = 15) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2,
      sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact absurd rfl h0
  | succ n => exact (dif_pos h1).trans rfl

/-! ## The region invariant -/

/-- Before grid position n: at the first point the class invariant (the accumulators at anything); afterwards the two
    accumulators at what the point before left in them, the other scoped buffers unopened, the generator register at
    some state. -/
def PhiS1 (c : Dev nD) : (n : ℕ) → n ≤ cfg1.N → sProp 𝕄
  | 0, _ => Pipeline.ΦA spec1 c
  | n + 1, hn => iprop((((owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1])
      ∗ (∃ r, prngReg c r)))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((((owns (c : Thread nD τ) scM1_0 fullShare ((outsAt1 V c n hn).2.1) ∗ owns (c : Thread nD τ) scM1_1 fullShare ((outsAt1 V c n hn).2.2))
      ∗ Pipeline.scopedRestBut (Ix := Unit) (Name := ℕ) (U := UR sig nD τ) (Lvl := ℕ) (Val := Elt F) spec1 c [cc1_scratch0, cc1_scratch1])
      ∗ (∃ r, prngReg c r))) := rfl

theorem PhiS1_pos (c : Dev nD) (n : ℕ) (h : n ≤ cfg1.N) (hz : n ≠ 0) :
    PhiS1 V c n h = iprop((((owns (c : Thread nD τ) scM1_0 fullShare ((outsAt1 V c (n - 1) (by omega)).2.1) ∗ owns (c : Thread nD τ) scM1_1 fullShare ((outsAt1 V c (n - 1) (by omega)).2.2))
      ∗ Pipeline.scopedRestBut (Ix := Unit) (Name := ℕ) (U := UR sig nD τ) (Lvl := ℕ) (Val := Elt F) spec1 c [cc1_scratch0, cc1_scratch1])
      ∗ (∃ r, prngReg c r))) := by
  cases n with
  | zero => exact absurd rfl hz
  | succ n => rfl

/-! ## The pipeline's proof data -/

/-- The arrays as the region finds them; after the body at point t each input's staging buffer at its block and the
    output's at the accumulation's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val = 0
  · have hc1 : ¬cond1_1 (grid1.coords t) := fun h => by have := (hcond1_1 t).mp h; omega
    rw [Dat.leavesExact_idle (dat1 V c) 3 t (idleAt1_3 t hc1) (noFlush1_3 t hc1)]
    rw [outsAt1_A V c t h0]
    unfold sout1_A_0 sout1_A_1; (try dsimp only)
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩⟩
    iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) hc1 (iblk1 V c 0 t) (iblk1 V c 1 t) (iblk1 V c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    ·
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover1_A_0 _ _ _ _ _ _ _ _ _ _ _ _ _ _ _ _ _ _ _)
            · unfold owns; iexists _; isplitr
              swap; · iexact HS1
              ipureintro; exact View.read_writes_of_cover _ _ _ _ _ (scover1_A_1 _ _ _ _ _ _ _ _ _ _ _ _ _ _ _ _ _ _ _)
          · iexact Hrest
        · iexact Hg
      isplitl [Ho]; · iexact Ho
      isplitl [H0]; · iexact H0
      isplitl [H1]; · iexact H1
      isplitl [H2]; · iexact H2
      iexists _; iexact H3
  · by_cases h1 : t.val = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0 sout1_C_1; (try dsimp only)
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      ·
        iintro ⟨H0, H1, H2, H3, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_C_0 _ _ _ _ _ _ _ _ _ _ _ _ _ _ _ _ _ _ _ _ _)
              · unfold owns; iexists _; isplitr
                swap; · iexact HS1
                ipureintro; exact View.read_writes_of_cover _ _ _ _ _ (scover1_C_1 _ _ _ _ _ _ _ _ _ _ _ _ _ _ _ _ _ _ _ _ _)
            · iexact Hrest
          · iexact Hg
        isplitl [Ho]; · iexact Ho
        isplitl [H0]; · iexact H0
        isplitl [H1]; · iexact H1
        isplitl [H2]; · iexact H2
        icases H3 with ⟨%e3, H3⟩
        unfold owns; iexists _; isplitr
        swap; · iexact H3
        ipureintro; exact View.read_writes_of_cover _ _ _ _ _ (cover1_C_3 _ _ _ _ _ _ _ _ _ _ _ _ _ _ _ _ _ _ _ _ _)
    · have hc1 : ¬cond1_1 (grid1.coords t) := fun h => h1 ((hcond1_1 t).mp h)
      rw [Dat.leavesExact_idle (dat1 V c) 3 t (idleAt1_3 t hc1) (noFlush1_3 t hc1)]
      rw [outsAt1_B V c t h0 h1]
      unfold sout1_B_0 sout1_B_1; (try dsimp only)
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) hc1 (iblk1 V c 0 t) (iblk1 V c 1 t) (iblk1 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      ·
        iintro ⟨H0, H1, H2, H3, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover1_B_0 _ _ _ _ _ _ _ _ _ _ _ _ _ _ _ _ _ _ _ _ _)
              · unfold owns; iexists _; isplitr
                swap; · iexact HS1
                ipureintro; exact View.read_writes_of_cover _ _ _ _ _ (scover1_B_1 _ _ _ _ _ _ _ _ _ _ _ _ _ _ _ _ _ _ _ _ _)
            · iexact Hrest
          · iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulators' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

end Region

end Cert.KernelIdeal.Hand

end
-- ==== Proof.KIRun2A.lean ====
/-
  Branch 2's body run at the first grid point (the accumulators are zeroed first; nothing is stored into the output): from whole memrefs holding the three input blocks, the body
  runs to its end leaving the inputs as they were and each buffer it stores into at its stores' pieces; the piece lists
  are found by the symbolic run.
-/
import proofs.«181729_j86371792323176_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written (the output's staging buffer, not stored into here, as it was). -/
noncomputable def kernelRun2_A (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond2_0 i) (hc1 : ¬cond2_1 i)
    (x0 : Vec F S128x512 .f32) (x1 : Vec F S512x2048 .f32) (x2 : Vec F S512x2048 .f32) :
    Σ' (LS0 : List (View.Piece (Elt F) S128x2048 .f32)), { LS1 : List (View.Piece (Elt F) S128x2048 .f32) //
      ∀ (x3 : Vec F S128x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__branch_kernel i arg1 harg1 arg2 harg2 arg3 harg3 arg4 harg4 arg5 harg5 arg6 harg6) K } := by
  refine ⟨?_, ?_, fun x3 E K => ?run⟩
  case run =>
    simp only [cc2__branch_kernel_eq_skeleton]; unfold cc2__branch_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact hf3
      iexact H3
    isplitl [HS0]; · iexists _; iexact HS0
    iexists _; iexact HS1

end Cert.KernelIdeal.Hand

end
-- ==== Proof.KIRun2B.lean ====
/-
  Branch 2's body run at a middle grid point (the accumulators are added to; nothing is stored into the output): from whole memrefs holding the three input blocks and the two accumulators' contents, the body
  runs to its end leaving the inputs as they were and each buffer it stores into at its stores' pieces; the piece lists
  are found by the symbolic run.
-/
import proofs.«181729_j86371792323176_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written (the output's staging buffer, not stored into here, as it was). -/
noncomputable def kernelRun2_B (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : ¬cond2_1 i)
    (x0 : Vec F S128x512 .f32) (x1 : Vec F S512x2048 .f32) (x2 : Vec F S512x2048 .f32) (xs0 xs1 : Vec F S128x2048 .f32) :
    Σ' (LS0 : List (View.Piece (Elt F) S128x2048 .f32)), { LS1 : List (View.Piece (Elt F) S128x2048 .f32) //
      ∀ (x3 : Vec F S128x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__branch_kernel i arg1 harg1 arg2 harg2 arg3 harg3 arg4 harg4 arg5 harg5 arg6 harg6) K } := by
  refine ⟨?_, ?_, fun x3 E K => ?run⟩
  case run =>
    simp only [cc2__branch_kernel_eq_skeleton]; unfold cc2__branch_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact hf3
      iexact H3
    isplitl [HS0]; · iexists _; iexact HS0
    iexists _; iexact HS1

end Cert.KernelIdeal.Hand

end
-- ==== Proof.KIRun2C.lean ====
/-
  Branch 2's body run at the last grid point (the accumulators are added to, then the scaled result is stored into the output): from whole memrefs holding the three input blocks and the two accumulators' contents, the body
  runs to its end leaving the inputs as they were and each buffer it stores into at its stores' pieces; the piece lists
  are found by the symbolic run.
-/
import proofs.«181729_j86371792323176_1_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave in the buffers it writes, with the proof that the body runs to a continuation
    holding every buffer at those pieces written. -/
noncomputable def kernelRun2_C (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i)
    (x0 : Vec F S128x512 .f32) (x1 : Vec F S512x2048 .f32) (x2 : Vec F S512x2048 .f32) (xs0 xs1 : Vec F S128x2048 .f32) :
    Σ' (L3 : List (View.Piece (Elt F) S128x2048 .f32)) (LS0 : List (View.Piece (Elt F) S128x2048 .f32)), { LS1 : List (View.Piece (Elt F) S128x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc2__branch_kernel i arg1 harg1 arg2 harg2 arg3 harg3 arg4 harg4 arg5 harg5 arg6 harg6) K } := by
  refine ⟨?_, ?_, ?_, fun E K => ?run⟩
  case run =>
    simp only [cc2__branch_kernel_eq_skeleton]; unfold cc2__branch_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Cert.KernelIdeal.Hand

end
-- ==== Proof.KIRegion2.lean ====
/-
  Branch 2 as one region of the program, at the contents V the region is entered with: what each case of the body
  leaves in the two accumulators and in the output's staging buffer (the runs' pieces read back), what they hold
  after each grid point (by recursion on the point: the first point's case, then the middle case fourteen
  times, then the last point's), the region invariant carrying the accumulators from point to point, the pipeline's
  proof data and the body obligation at every point.
-/
import proofs.«181729_j86371792323176_1_alg».proof.Proof.KIRun2A
import proofs.«181729_j86371792323176_1_alg».proof.Proof.KIRun2B
import proofs.«181729_j86371792323176_1_alg».proof.Proof.KIRun2C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- The first point's pieces for the first accumulator cover it. -/
theorem scover2_A_0 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond2_0 i) (hc1 : ¬cond2_1 i) (x0 : Vec F S128x512 .f32) (x1 : Vec F S512x2048 .f32) (x2 : Vec F S512x2048 .f32) (y : S128x2048.Idx) :
    ∃ pc ∈ (kernelRun2_A c i arg1 harg1 arg2 harg2 arg3 harg3 arg4 harg4 arg5 harg5 arg6 harg6 hc0 hc1 x0 x1 x2).1, y ∈ pc.1.set :=
  View.cover_of_tiledL (kernelRun2_A c i arg1 harg1 arg2 harg2 arg3 harg3 arg4 harg4 arg5 harg5 arg6 harg6 hc0 hc1 x0 x1 x2).1 S128x2048.size (by sl_kernel_rfl) y

/-- What the first point leaves in the first accumulator. -/
def sout2_A_0 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond2_0 i) (hc1 : ¬cond2_1 i) (x0 : Vec F S128x512 .f32) (x1 : Vec F S512x2048 .f32) (x2 : Vec F S512x2048 .f32) : Vec F S128x2048 .f32 :=
  VS2_0.read (Elt F) (VS2_0.writes (Elt F) VS2_0.junk (kernelRun2_A c i arg1 harg1 arg2 harg2 arg3 harg3 arg4 harg4 arg5 harg5 arg6 harg6 hc0 hc1 x0 x1 x2).1)

/-- The first point's pieces for the second accumulator cover it. -/
theorem scover2_A_1 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond2_0 i) (hc1 : ¬cond2_1 i) (x0 : Vec F S128x512 .f32) (x1 : Vec F S512x2048 .f32) (x2 : Vec F S512x2048 .f32) (y : S128x2048.Idx) :
    ∃ pc ∈ (kernelRun2_A c i arg1 harg1 arg2 harg2 arg3 harg3 arg4 harg4 arg5 harg5 arg6 harg6 hc0 hc1 x0 x1 x2).2.1, y ∈ pc.1.set :=
  View.cover_of_tiledL (kernelRun2_A c i arg1 harg1 arg2 harg2 arg3 harg3 arg4 harg4 arg5 harg5 arg6 harg6 hc0 hc1 x0 x1 x2).2.1 S128x2048.size (by sl_kernel_rfl) y

/-- What the first point leaves in the second accumulator. -/
def sout2_A_1 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond2_0 i) (hc1 : ¬cond2_1 i) (x0 : Vec F S128x512 .f32) (x1 : Vec F S512x2048 .f32) (x2 : Vec F S512x2048 .f32) : Vec F S128x2048 .f32 :=
  VS2_1.read (Elt F) (VS2_1.writes (Elt F) VS2_1.junk (kernelRun2_A c i arg1 harg1 arg2 harg2 arg3 harg3 arg4 harg4 arg5 harg5 arg6 harg6 hc0 hc1 x0 x1 x2).2.1)

/-- A middle point's pieces for the first accumulator cover it. -/
theorem scover2_B_0 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : ¬cond2_1 i) (x0 : Vec F S128x512 .f32) (x1 : Vec F S512x2048 .f32) (x2 : Vec F S512x2048 .f32) (xs0 xs1 : Vec F S128x2048 .f32) (y : S128x2048.Idx) :
    ∃ pc ∈ (kernelRun2_B c i arg1 harg1 arg2 harg2 arg3 harg3 arg4 harg4 arg5 harg5 arg6 harg6 hc0 hc1 x0 x1 x2 xs0 xs1).1, y ∈ pc.1.set :=
  View.cover_of_tiledL (kernelRun2_B c i arg1 harg1 arg2 harg2 arg3 harg3 arg4 harg4 arg5 harg5 arg6 harg6 hc0 hc1 x0 x1 x2 xs0 xs1).1 S128x2048.size (by sl_kernel_rfl) y

/-- What a middle point leaves in the first accumulator. -/
def sout2_B_0 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : ¬cond2_1 i) (x0 : Vec F S128x512 .f32) (x1 : Vec F S512x2048 .f32) (x2 : Vec F S512x2048 .f32) (xs0 xs1 : Vec F S128x2048 .f32) : Vec F S128x2048 .f32 :=
  VS2_0.read (Elt F) (VS2_0.writes (Elt F) VS2_0.junk (kernelRun2_B c i arg1 harg1 arg2 harg2 arg3 harg3 arg4 harg4 arg5 harg5 arg6 harg6 hc0 hc1 x0 x1 x2 xs0 xs1).1)

/-- A middle point's pieces for the second accumulator cover it. -/
theorem scover2_B_1 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : ¬cond2_1 i) (x0 : Vec F S128x512 .f32) (x1 : Vec F S512x2048 .f32) (x2 : Vec F S512x2048 .f32) (xs0 xs1 : Vec F S128x2048 .f32) (y : S128x2048.Idx) :
    ∃ pc ∈ (kernelRun2_B c i arg1 harg1 arg2 harg2 arg3 harg3 arg4 harg4 arg5 harg5 arg6 harg6 hc0 hc1 x0 x1 x2 xs0 xs1).2.1, y ∈ pc.1.set :=
  View.cover_of_tiledL (kernelRun2_B c i arg1 harg1 arg2 harg2 arg3 harg3 arg4 harg4 arg5 harg5 arg6 harg6 hc0 hc1 x0 x1 x2 xs0 xs1).2.1 S128x2048.size (by sl_kernel_rfl) y

/-- What a middle point leaves in the second accumulator. -/
def sout2_B_1 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : ¬cond2_1 i) (x0 : Vec F S128x512 .f32) (x1 : Vec F S512x2048 .f32) (x2 : Vec F S512x2048 .f32) (xs0 xs1 : Vec F S128x2048 .f32) : Vec F S128x2048 .f32 :=
  VS2_1.read (Elt F) (VS2_1.writes (Elt F) VS2_1.junk (kernelRun2_B c i arg1 harg1 arg2 harg2 arg3 harg3 arg4 harg4 arg5 harg5 arg6 harg6 hc0 hc1 x0 x1 x2 xs0 xs1).2.1)

/-- The last point's pieces for the output's staging buffer cover it. -/
theorem cover2_C_3 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) (y : S128x2048.Idx) :
    ∃ pc ∈ (kernelRun2_C c i arg1 harg1 arg2 harg2 arg3 harg3 arg4 harg4 arg5 harg5 arg6 harg6 hc0 hc1 x0 x1 x2 xs0 xs1).1, y ∈ pc.1.set :=
  View.cover_of_tiledL (kernelRun2_C c i arg1 harg1 arg2 harg2 arg3 harg3 arg4 harg4 arg5 harg5 arg6 harg6 hc0 hc1 x0 x1 x2 xs0 xs1).1 S128x2048.size (by sl_kernel_rfl) y

/-- What the last point leaves in the output's staging buffer. -/
def out2_C_3 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) : Vec F S128x2048 .f32 :=
  VO2_3.read (Elt F) (VO2_3.writes (Elt F) VO2_3.junk (kernelRun2_C c i arg1 harg1 arg2 harg2 arg3 harg3 arg4 harg4 arg5 harg5 arg6 harg6 hc0 hc1 x0 x1 x2 xs0 xs1).1)

/-- The last point's pieces for the first accumulator cover it. -/
theorem scover2_C_0 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) (y : S128x2048.Idx) :
    ∃ pc ∈ (kernelRun2_C c i arg1 harg1 arg2 harg2 arg3 harg3 arg4 harg4 arg5 harg5 arg6 harg6 hc0 hc1 x0 x1 x2 xs0 xs1).2.1, y ∈ pc.1.set :=
  View.cover_of_tiledL (kernelRun2_C c i arg1 harg1 arg2 harg2 arg3 harg3 arg4 harg4 arg5 harg5 arg6 harg6 hc0 hc1 x0 x1 x2 xs0 xs1).2.1 S128x2048.size (by sl_kernel_rfl) y

/-- What the last point leaves in the first accumulator. -/
def sout2_C_0 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) : Vec F S128x2048 .f32 :=
  VS2_0.read (Elt F) (VS2_0.writes (Elt F) VS2_0.junk (kernelRun2_C c i arg1 harg1 arg2 harg2 arg3 harg3 arg4 harg4 arg5 harg5 arg6 harg6 hc0 hc1 x0 x1 x2 xs0 xs1).2.1)

/-- The last point's pieces for the second accumulator cover it. -/
theorem scover2_C_1 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) (y : S128x2048.Idx) :
    ∃ pc ∈ (kernelRun2_C c i arg1 harg1 arg2 harg2 arg3 harg3 arg4 harg4 arg5 harg5 arg6 harg6 hc0 hc1 x0 x1 x2 xs0 xs1).2.2.1, y ∈ pc.1.set :=
  View.cover_of_tiledL (kernelRun2_C c i arg1 harg1 arg2 harg2 arg3 harg3 arg4 harg4 arg5 harg5 arg6 harg6 hc0 hc1 x0 x1 x2 xs0 xs1).2.2.1 S128x2048.size (by sl_kernel_rfl) y

/-- What the last point leaves in the second accumulator. -/
def sout2_C_1 (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) : Vec F S128x2048 .f32 :=
  VS2_1.read (Elt F) (VS2_1.writes (Elt F) VS2_1.junk (kernelRun2_C c i arg1 harg1 arg2 harg2 arg3 harg3 arg4 harg4 arg5 harg5 arg6 harg6 hc0 hc1 x0 x1 x2 xs0 xs1).2.2.1)

section Region
variable (V : (c : Dev nD) → (b : Ref sig .tc) → Buf (Elt F) ((c : Thread nD τ).loc b))

/-! ## The accumulation over the grid -/

/-- A placeholder for the output's staging buffer at the points that store nothing into it (nothing reads it). -/
def idleOut2 : Vec F S128x2048 .f32 := VO2_3.read (Elt F) VO2_3.junk

/-- What the output's staging buffer and the two accumulators hold after the body at grid position n. -/
def outsAt2 (c : Dev nD) : (n : ℕ) → n < cfg2.N → Vec F S128x2048 .f32 × Vec F S128x2048 .f32 × Vec F S128x2048 .f32
  | 0, hn => (idleOut2,
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) ((hcond2_0 ⟨0, hn⟩).mpr rfl) (fun h => absurd ((hcond2_1 ⟨0, hn⟩).mp h) (show (0 : ℕ) ≠ 15 by decide)) (iblk2 V c 0 ⟨0, hn⟩) (iblk2 V c 1 ⟨0, hn⟩) (iblk2 V c 2 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) scM2_1 (Memref.isWhole_whole _) ((hcond2_0 ⟨0, hn⟩).mpr rfl) (fun h => absurd ((hcond2_1 ⟨0, hn⟩).mp h) (show (0 : ℕ) ≠ 15 by decide)) (iblk2 V c 0 ⟨0, hn⟩) (iblk2 V c 1 ⟨0, hn⟩) (iblk2 V c 2 ⟨0, hn⟩))
  | n + 1, hn =>
    if h1 : n + 1 = 15 then
      (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2)
    else
      (idleOut2,
       sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2,
       sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) scM2_1 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2.1 (outsAt2 c n (Nat.lt_of_succ_lt hn)).2.2)

/-- At the first point. -/
theorem outsAt2_A (c : Dev nD) (t : Fin cfg2.N) (h0 : t.val = 0) :
    outsAt2 V c t.val t.isLt = (idleOut2,
      sout2_A_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => by have := (hcond2_1 t).mp h; omega) (iblk2 V c 0 t) (iblk2 V c 1 t) (iblk2 V c 2 t),
      sout2_A_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) (fun h => by have := (hcond2_1 t).mp h; omega) (iblk2 V c 0 t) (iblk2 V c 1 t) (iblk2 V c 2 t)) := by
  obtain ⟨n, hn⟩ := t
  cases n with
  | zero => rfl
  | succ n => exact absurd h0 (Nat.succ_ne_zero n)

/-- At a middle point: over what the point before left in the accumulators. -/
theorem outsAt2_B (c : Dev nD) (t : Fin cfg2.N) (h0 : t.val ≠ 0) (h1 : t.val ≠ 15) :
    outsAt2 V c t.val t.isLt = (idleOut2,
      sout2_B_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
      sout2_B_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact absurd rfl h0
  | succ n => exact (dif_neg h1).trans rfl

/-- At the last point: over what the point before left in the accumulators. -/
theorem outsAt2_C (c : Dev nD) (t : Fin cfg2.N) (h0 : t.val ≠ 0) (h1 : t.val = 15) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
      sout2_C_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2,
      sout2_C_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact absurd rfl h0
  | succ n => exact (dif_pos h1).trans rfl

/-! ## The region invariant -/

/-- Before grid position n: at the first point the class invariant (the accumulators at anything); afterwards the two
    accumulators at what the point before left in them, the other scoped buffers unopened, the generator register at
    some state. -/
def PhiS2 (c : Dev nD) : (n : ℕ) → n ≤ cfg2.N → sProp 𝕄
  | 0, _ => Pipeline.ΦA spec2 c
  | n + 1, hn => iprop((((owns (c : Thread nD τ) scM2_0 fullShare ((outsAt2 V c n hn).2.1) ∗ owns (c : Thread nD τ) scM2_1 fullShare ((outsAt2 V c n hn).2.2))
      ∗ Pipeline.scopedRestBut (Ix := Unit) (Name := ℕ) (U := UR sig nD τ) (Lvl := ℕ) (Val := Elt F) spec2 c [cc2_scratch0, cc2_scratch1])
      ∗ (∃ r, prngReg c r)))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((((owns (c : Thread nD τ) scM2_0 fullShare ((outsAt2 V c n hn).2.1) ∗ owns (c : Thread nD τ) scM2_1 fullShare ((outsAt2 V c n hn).2.2))
      ∗ Pipeline.scopedRestBut (Ix := Unit) (Name := ℕ) (U := UR sig nD τ) (Lvl := ℕ) (Val := Elt F) spec2 c [cc2_scratch0, cc2_scratch1])
      ∗ (∃ r, prngReg c r))) := rfl

theorem PhiS2_pos (c : Dev nD) (n : ℕ) (h : n ≤ cfg2.N) (hz : n ≠ 0) :
    PhiS2 V c n h = iprop((((owns (c : Thread nD τ) scM2_0 fullShare ((outsAt2 V c (n - 1) (by omega)).2.1) ∗ owns (c : Thread nD τ) scM2_1 fullShare ((outsAt2 V c (n - 1) (by omega)).2.2))
      ∗ Pipeline.scopedRestBut (Ix := Unit) (Name := ℕ) (U := UR sig nD τ) (Lvl := ℕ) (Val := Elt F) spec2 c [cc2_scratch0, cc2_scratch1])
      ∗ (∃ r, prngReg c r))) := by
  cases n with
  | zero => exact absurd rfl hz
  | succ n => rfl

/-! ## The pipeline's proof data -/

/-- The arrays as the region finds them; after the body at point t each input's staging buffer at its block and the
    output's at the accumulation's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the accumulators at what the point before left (at anything at the first point) and takes
    them back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val = 0
  · have hc1 : ¬cond2_1 (grid2.coords t) := fun h => by have := (hcond2_1 t).mp h; omega
    rw [Dat.leavesExact_idle (dat2 V c) 3 t (idleAt2_3 t hc1) (noFlush2_3 t hc1)]
    rw [outsAt2_A V c t h0]
    unfold sout2_A_0 sout2_A_1; (try dsimp only)
    rw [PhiS2_castSucc V c t, PhiS2_zero V c _ _ h0, PhiA2_eq]
    iintro ⟨⟨⟨⟨HS0, HS1⟩, Hrest⟩, Hg⟩, Ho, ⟨%d0, H0⟩, ⟨%d1, H1⟩, ⟨%d2, H2⟩, ⟨%d3, H3⟩⟩
    iapply ((kernelRun2_A c (grid2.coords t) (ms2_0 t) (hs2_0 t) (ms2_1 t) (hs2_1 t) (ms2_2 t) (hs2_2 t) (ms2_3 t) (hs2_3 t) scM2_0 (Memref.isWhole_whole _) scM2_1 (Memref.isWhole_whole _) ((hcond2_0 t).mpr h0) hc1 (iblk2 V c 0 t) (iblk2 V c 1 t) (iblk2 V c 2 t)).2.2 _ Set.univ _)
    isplitl [H0]; · iexact H0
    isplitl [H1]; · iexact H1
    isplitl [H2]; · iexact H2
    isplitl [H3]; · iexact H3
    isplitl [HS0]; · iexact HS0
    isplitl [HS1]; · iexact HS1
    ·
      iintro ⟨H0, H1, H2, H3, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover2_A_0 _ _ _ _ _ _ _ _ _ _ _ _ _ _ _ _ _ _ _)
            · unfold owns; iexists _; isplitr
              swap; · iexact HS1
              ipureintro; exact View.read_writes_of_cover _ _ _ _ _ (scover2_A_1 _ _ _ _ _ _ _ _ _ _ _ _ _ _ _ _ _ _ _)
          · iexact Hrest
        · iexact Hg
      isplitl [Ho]; · iexact Ho
      isplitl [H0]; · iexact H0
      isplitl [H1]; · iexact H1
      isplitl [H2]; · iexact H2
      iexists _; iexact H3
  · by_cases h1 : t.val = 15
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C_3 sout2_C_0 sout2_C_1; (try dsimp only)
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩⟩
      iapply ((kernelRun2_C c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) ((hcond2_1 t).mpr h1) (iblk2 V c 0 t) (iblk2 V c 1 t) (iblk2 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      ·
        iintro ⟨H0, H1, H2, H3, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover2_C_0 _ _ _ _ _ _ _ _ _ _ _ _ _ _ _ _ _ _ _ _ _)
              · unfold owns; iexists _; isplitr
                swap; · iexact HS1
                ipureintro; exact View.read_writes_of_cover _ _ _ _ _ (scover2_C_1 _ _ _ _ _ _ _ _ _ _ _ _ _ _ _ _ _ _ _ _ _)
            · iexact Hrest
          · iexact Hg
        isplitl [Ho]; · iexact Ho
        isplitl [H0]; · iexact H0
        isplitl [H1]; · iexact H1
        isplitl [H2]; · iexact H2
        icases H3 with ⟨%e3, H3⟩
        unfold owns; iexists _; isplitr
        swap; · iexact H3
        ipureintro; exact View.read_writes_of_cover _ _ _ _ _ (cover2_C_3 _ _ _ _ _ _ _ _ _ _ _ _ _ _ _ _ _ _ _ _ _)
    · have hc1 : ¬cond2_1 (grid2.coords t) := fun h => h1 ((hcond2_1 t).mp h)
      rw [Dat.leavesExact_idle (dat2 V c) 3 t (idleAt2_3 t hc1) (noFlush2_3 t hc1)]
      rw [outsAt2_B V c t h0 h1]
      unfold sout2_B_0 sout2_B_1; (try dsimp only)
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩⟩
      iapply ((kernelRun2_B c (grid2.coords t) (ms2_0 t) (hs2_0 t) (ms2_1 t) (hs2_1 t) (ms2_2 t) (hs2_2 t) (ms2_3 t) (hs2_3 t) scM2_0 (Memref.isWhole_whole _) scM2_1 (Memref.isWhole_whole _) (fun h => h0 ((hcond2_0 t).mp h)) hc1 (iblk2 V c 0 t) (iblk2 V c 1 t) (iblk2 V c 2 t) _ _).2.2 _ Set.univ _)
      isplitl [H0]; · iexact H0
      isplitl [H1]; · iexact H1
      isplitl [H2]; · iexact H2
      isplitl [H3]; · iexact H3
      isplitl [HS0]; · iexact HS0
      isplitl [HS1]; · iexact HS1
      ·
        iintro ⟨H0, H1, H2, H3, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover2_B_0 _ _ _ _ _ _ _ _ _ _ _ _ _ _ _ _ _ _ _ _ _)
              · unfold owns; iexists _; isplitr
                swap; · iexact HS1
                ipureintro; exact View.read_writes_of_cover _ _ _ _ _ (scover2_B_1 _ _ _ _ _ _ _ _ _ _ _ _ _ _ _ _ _ _ _ _ _)
            · iexact Hrest
          · iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulators' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨⟨HS0, HS1⟩, Hrest⟩, Hg⟩
  isplitl [HS0 HS1 Hrest]
  · isplitl [HS0 HS1]
    · isplitl [HS0]
      · iexists _; iexact HS0
      · iexists _; iexact HS1
    · iexact Hrest
  · iexact Hg

end Region

end Cert.KernelIdeal.Hand

end
-- ==== Proof.KIFrame.lean ====
/-
  The whole program as four segments — the three branches' regions, then the host operations that pool their outputs and
  classify — composed from the launch to the return: the buffers' contents at each boundary (a region leaves its
  arrays at what its write-backs fold to and every other buffer as it found it; the host stretch leaves what its
  operations compute), each region's record over the thread state "every unscoped buffer at the boundary's contents,
  the generator register at some state, nothing owed", and the run, which ends with every unscoped buffer at the last
  boundary's contents; the argument arrays read back through the boundaries to the launch memory.
-/
import proofs.«181729_j86371792323176_1_alg».proof.Proof.KIRegion0
import proofs.«181729_j86371792323176_1_alg».proof.Proof.KIRegion1
import proofs.«181729_j86371792323176_1_alg».proof.Proof.KIRegion2
import Idealize.ShloMosaic.Lib.Pipeline.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch: the first region's entry. -/
abbrev Wb0 : Dev nD → Valuation τ sig (Elt F) := fun c b => (s₀ m ρ).mem ((c : Dev nD), b)
abbrev Ve0 : (c : Dev nD) → (b : Ref sig .tc) → Buf (Elt F) ((c : Thread nD τ).loc b) := fun c b => Wb0 m ρ c b

/-- At region 0's exit: its arrays at what the pipeline leaves, every other buffer as entered. -/
def Wb1 (c : Dev nD) : Valuation τ sig (Elt F) :=
  Pipeline.withArrays spec0 c (Wb0 m ρ c) fun w => (dat0 (Ve0 m ρ) c).arrAt w cfg0.N
theorem Wb1_arr (c : Dev nD) (w : Fin cfg0.W) :
    Wb1 m ρ c (Proc.devRef .tc (Pipeline.arrRef spec0 w)) = (dat0 (Ve0 m ρ) c).arrAt w cfg0.N := by
  unfold Wb1; exact Pipeline.withArrays_arr spec0 launch0.win.arr_inj c _ _ w
theorem Wb1_of_ne (c : Dev nD) (b : Ref sig .tc) (hb : ∀ w, Pipeline.arrRef spec0 w ≠ b) :
    Wb1 m ρ c (Proc.devRef .tc b) = Wb0 m ρ c (Proc.devRef .tc b) := by
  unfold Wb1; exact Pipeline.withArrays_of_ne spec0 c _ _ b hb
abbrev Ve1 : (c : Dev nD) → (b : Ref sig .tc) → Buf (Elt F) ((c : Thread nD τ).loc b) := fun c b => Wb1 m ρ c b
theorem hF0 (c : Dev nD) (w : Fin cfg0.W) : (dat0 (Ve0 m ρ) c).arrAt w cfg0.N = Ve1 m ρ c (Pipeline.arrRef spec0 w) :=
  (Wb1_arr m ρ c w).symm
theorem hrest0 (c : Dev nD) : ∀ b, b ∉ Finset.univ.image (Pipeline.arrRef spec0) → Ve1 m ρ c b = Ve0 m ρ c b :=
  fun b hb => Wb1_of_ne m ρ c b fun w e => hb (Finset.mem_image.mpr ⟨w, Finset.mem_univ _, e⟩)

/-- At region 1's exit: its arrays at what the pipeline leaves, every other buffer as entered. -/
def Wb2 (c : Dev nD) : Valuation τ sig (Elt F) :=
  Pipeline.withArrays spec1 c (Wb1 m ρ c) fun w => (dat1 (Ve1 m ρ) c).arrAt w cfg1.N
theorem Wb2_arr (c : Dev nD) (w : Fin cfg1.W) :
    Wb2 m ρ c (Proc.devRef .tc (Pipeline.arrRef spec1 w)) = (dat1 (Ve1 m ρ) c).arrAt w cfg1.N := by
  unfold Wb2; exact Pipeline.withArrays_arr spec1 launch1.win.arr_inj c _ _ w
theorem Wb2_of_ne (c : Dev nD) (b : Ref sig .tc) (hb : ∀ w, Pipeline.arrRef spec1 w ≠ b) :
    Wb2 m ρ c (Proc.devRef .tc b) = Wb1 m ρ c (Proc.devRef .tc b) := by
  unfold Wb2; exact Pipeline.withArrays_of_ne spec1 c _ _ b hb
abbrev Ve2 : (c : Dev nD) → (b : Ref sig .tc) → Buf (Elt F) ((c : Thread nD τ).loc b) := fun c b => Wb2 m ρ c b
theorem hF1 (c : Dev nD) (w : Fin cfg1.W) : (dat1 (Ve1 m ρ) c).arrAt w cfg1.N = Ve2 m ρ c (Pipeline.arrRef spec1 w) :=
  (Wb2_arr m ρ c w).symm
theorem hrest1 (c : Dev nD) : ∀ b, b ∉ Finset.univ.image (Pipeline.arrRef spec1) → Ve2 m ρ c b = Ve1 m ρ c b :=
  fun b hb => Wb2_of_ne m ρ c b fun w e => hb (Finset.mem_image.mpr ⟨w, Finset.mem_univ _, e⟩)

/-- At region 2's exit: its arrays at what the pipeline leaves, every other buffer as entered. -/
def Wb3 (c : Dev nD) : Valuation τ sig (Elt F) :=
  Pipeline.withArrays spec2 c (Wb2 m ρ c) fun w => (dat2 (Ve2 m ρ) c).arrAt w cfg2.N
theorem Wb3_arr (c : Dev nD) (w : Fin cfg2.W) :
    Wb3 m ρ c (Proc.devRef .tc (Pipeline.arrRef spec2 w)) = (dat2 (Ve2 m ρ) c).arrAt w cfg2.N := by
  unfold Wb3; exact Pipeline.withArrays_arr spec2 launch2.win.arr_inj c _ _ w
theorem Wb3_of_ne (c : Dev nD) (b : Ref sig .tc) (hb : ∀ w, Pipeline.arrRef spec2 w ≠ b) :
    Wb3 m ρ c (Proc.devRef .tc b) = Wb2 m ρ c (Proc.devRef .tc b) := by
  unfold Wb3; exact Pipeline.withArrays_of_ne spec2 c _ _ b hb
abbrev Ve3 : (c : Dev nD) → (b : Ref sig .tc) → Buf (Elt F) ((c : Thread nD τ).loc b) := fun c b => Wb3 m ρ c b
theorem hF2 (c : Dev nD) (w : Fin cfg2.W) : (dat2 (Ve2 m ρ) c).arrAt w cfg2.N = Ve3 m ρ c (Pipeline.arrRef spec2 w) :=
  (Wb3_arr m ρ c w).symm
theorem hrest2 (c : Dev nD) : ∀ b, b ∉ Finset.univ.image (Pipeline.arrRef spec2) → Ve3 m ρ c b = Ve2 m ρ c b :=
  fun b hb => Wb3_of_ne m ρ c b fun w e => hb (Finset.mem_image.mpr ⟨w, Finset.mem_univ _, e⟩)

/-- After the host operations: the return. -/
abbrev Wb4 : Dev nD → Valuation τ sig (Elt F) := fun c => StableHlo.after hostOps3 (Wb3 m ρ c)

/-- No host operation allocates a buffer. -/
theorem hostOps3_fresh' : (hostOps3 : List (HloOp τ sig (Elt F))).Forall fun op => op.fresh = ∅ := by
  simp only [List.Forall]; repeat' constructor

/-! ### The arguments stay as launched through every boundary -/
theorem Wb1_main_arg0 (c : Dev nD) : Wb1 m ρ c (Proc.devRef .tc main_arg0) = m ((c : Thread nD τ).loc main_arg0) :=
  ((Wb1_arr m ρ c 0).trans (((dat0 (Ve0 m ρ) c).arrAt_in 0 rfl _).trans (A_eq0 (Ve0 m ρ) c 0))).trans (rfl)
theorem Wb2_main_arg0 (c : Dev nD) : Wb2 m ρ c (Proc.devRef .tc main_arg0) = m ((c : Thread nD τ).loc main_arg0) :=
  (Wb2_of_ne m ρ c main_arg0 (by decide)).trans (Wb1_main_arg0 m ρ c)
theorem Wb3_main_arg0 (c : Dev nD) : Wb3 m ρ c (Proc.devRef .tc main_arg0) = m ((c : Thread nD τ).loc main_arg0) :=
  (Wb3_of_ne m ρ c main_arg0 (by decide)).trans (Wb2_main_arg0 m ρ c)
theorem Wb4_main_arg0 (c : Dev nD) : Wb4 m ρ c (Proc.devRef .tc main_arg0) = m ((c : Thread nD τ).loc main_arg0) :=
  (StableHlo.after_of_forall_not_mem (b := Proc.devRef .tc main_arg0) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg0 m ρ c)
theorem Wb1_main_arg1 (c : Dev nD) : Wb1 m ρ c (Proc.devRef .tc main_arg1) = m ((c : Thread nD τ).loc main_arg1) :=
  (Wb1_of_ne m ρ c main_arg1 (by decide)).trans (rfl)
theorem Wb2_main_arg1 (c : Dev nD) : Wb2 m ρ c (Proc.devRef .tc main_arg1) = m ((c : Thread nD τ).loc main_arg1) :=
  ((Wb2_arr m ρ c 0).trans (((dat1 (Ve1 m ρ) c).arrAt_in 0 rfl _).trans (A_eq1 (Ve1 m ρ) c 0))).trans (Wb1_main_arg1 m ρ c)
theorem Wb3_main_arg1 (c : Dev nD) : Wb3 m ρ c (Proc.devRef .tc main_arg1) = m ((c : Thread nD τ).loc main_arg1) :=
  (Wb3_of_ne m ρ c main_arg1 (by decide)).trans (Wb2_main_arg1 m ρ c)
theorem Wb4_main_arg1 (c : Dev nD) : Wb4 m ρ c (Proc.devRef .tc main_arg1) = m ((c : Thread nD τ).loc main_arg1) :=
  (StableHlo.after_of_forall_not_mem (b := Proc.devRef .tc main_arg1) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg1 m ρ c)
theorem Wb1_main_arg2 (c : Dev nD) : Wb1 m ρ c (Proc.devRef .tc main_arg2) = m ((c : Thread nD τ).loc main_arg2) :=
  (Wb1_of_ne m ρ c main_arg2 (by decide)).trans (rfl)
theorem Wb2_main_arg2 (c : Dev nD) : Wb2 m ρ c (Proc.devRef .tc main_arg2) = m ((c : Thread nD τ).loc main_arg2) :=
  (Wb2_of_ne m ρ c main_arg2 (by decide)).trans (Wb1_main_arg2 m ρ c)
theorem Wb3_main_arg2 (c : Dev nD) : Wb3 m ρ c (Proc.devRef .tc main_arg2) = m ((c : Thread nD τ).loc main_arg2) :=
  ((Wb3_arr m ρ c 0).trans (((dat2 (Ve2 m ρ) c).arrAt_in 0 rfl _).trans (A_eq2 (Ve2 m ρ) c 0))).trans (Wb2_main_arg2 m ρ c)
theorem Wb4_main_arg2 (c : Dev nD) : Wb4 m ρ c (Proc.devRef .tc main_arg2) = m ((c : Thread nD τ).loc main_arg2) :=
  (StableHlo.after_of_forall_not_mem (b := Proc.devRef .tc main_arg2) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg2 m ρ c)
theorem Wb1_main_arg3 (c : Dev nD) : Wb1 m ρ c (Proc.devRef .tc main_arg3) = m ((c : Thread nD τ).loc main_arg3) :=
  ((Wb1_arr m ρ c 1).trans (((dat0 (Ve0 m ρ) c).arrAt_in 1 rfl _).trans (A_eq0 (Ve0 m ρ) c 1))).trans (rfl)
theorem Wb2_main_arg3 (c : Dev nD) : Wb2 m ρ c (Proc.devRef .tc main_arg3) = m ((c : Thread nD τ).loc main_arg3) :=
  (Wb2_of_ne m ρ c main_arg3 (by decide)).trans (Wb1_main_arg3 m ρ c)
theorem Wb3_main_arg3 (c : Dev nD) : Wb3 m ρ c (Proc.devRef .tc main_arg3) = m ((c : Thread nD τ).loc main_arg3) :=
  (Wb3_of_ne m ρ c main_arg3 (by decide)).trans (Wb2_main_arg3 m ρ c)
theorem Wb4_main_arg3 (c : Dev nD) : Wb4 m ρ c (Proc.devRef .tc main_arg3) = m ((c : Thread nD τ).loc main_arg3) :=
  (StableHlo.after_of_forall_not_mem (b := Proc.devRef .tc main_arg3) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg3 m ρ c)
theorem Wb1_main_arg4 (c : Dev nD) : Wb1 m ρ c (Proc.devRef .tc main_arg4) = m ((c : Thread nD τ).loc main_arg4) :=
  ((Wb1_arr m ρ c 2).trans (((dat0 (Ve0 m ρ) c).arrAt_in 2 rfl _).trans (A_eq0 (Ve0 m ρ) c 2))).trans (rfl)
theorem Wb2_main_arg4 (c : Dev nD) : Wb2 m ρ c (Proc.devRef .tc main_arg4) = m ((c : Thread nD τ).loc main_arg4) :=
  (Wb2_of_ne m ρ c main_arg4 (by decide)).trans (Wb1_main_arg4 m ρ c)
theorem Wb3_main_arg4 (c : Dev nD) : Wb3 m ρ c (Proc.devRef .tc main_arg4) = m ((c : Thread nD τ).loc main_arg4) :=
  (Wb3_of_ne m ρ c main_arg4 (by decide)).trans (Wb2_main_arg4 m ρ c)
theorem Wb4_main_arg4 (c : Dev nD) : Wb4 m ρ c (Proc.devRef .tc main_arg4) = m ((c : Thread nD τ).loc main_arg4) :=
  (StableHlo.after_of_forall_not_mem (b := Proc.devRef .tc main_arg4) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg4 m ρ c)
theorem Wb1_main_arg5 (c : Dev nD) : Wb1 m ρ c (Proc.devRef .tc main_arg5) = m ((c : Thread nD τ).loc main_arg5) :=
  (Wb1_of_ne m ρ c main_arg5 (by decide)).trans (rfl)
theorem Wb2_main_arg5 (c : Dev nD) : Wb2 m ρ c (Proc.devRef .tc main_arg5) = m ((c : Thread nD τ).loc main_arg5) :=
  ((Wb2_arr m ρ c 1).trans (((dat1 (Ve1 m ρ) c).arrAt_in 1 rfl _).trans (A_eq1 (Ve1 m ρ) c 1))).trans (Wb1_main_arg5 m ρ c)
theorem Wb3_main_arg5 (c : Dev nD) : Wb3 m ρ c (Proc.devRef .tc main_arg5) = m ((c : Thread nD τ).loc main_arg5) :=
  (Wb3_of_ne m ρ c main_arg5 (by decide)).trans (Wb2_main_arg5 m ρ c)
theorem Wb4_main_arg5 (c : Dev nD) : Wb4 m ρ c (Proc.devRef .tc main_arg5) = m ((c : Thread nD τ).loc main_arg5) :=
  (StableHlo.after_of_forall_not_mem (b := Proc.devRef .tc main_arg5) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg5 m ρ c)
theorem Wb1_main_arg6 (c : Dev nD) : Wb1 m ρ c (Proc.devRef .tc main_arg6) = m ((c : Thread nD τ).loc main_arg6) :=
  (Wb1_of_ne m ρ c main_arg6 (by decide)).trans (rfl)
theorem Wb2_main_arg6 (c : Dev nD) : Wb2 m ρ c (Proc.devRef .tc main_arg6) = m ((c : Thread nD τ).loc main_arg6) :=
  ((Wb2_arr m ρ c 2).trans (((dat1 (Ve1 m ρ) c).arrAt_in 2 rfl _).trans (A_eq1 (Ve1 m ρ) c 2))).trans (Wb1_main_arg6 m ρ c)
theorem Wb3_main_arg6 (c : Dev nD) : Wb3 m ρ c (Proc.devRef .tc main_arg6) = m ((c : Thread nD τ).loc main_arg6) :=
  (Wb3_of_ne m ρ c main_arg6 (by decide)).trans (Wb2_main_arg6 m ρ c)
theorem Wb4_main_arg6 (c : Dev nD) : Wb4 m ρ c (Proc.devRef .tc main_arg6) = m ((c : Thread nD τ).loc main_arg6) :=
  (StableHlo.after_of_forall_not_mem (b := Proc.devRef .tc main_arg6) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg6 m ρ c)
theorem Wb1_main_arg7 (c : Dev nD) : Wb1 m ρ c (Proc.devRef .tc main_arg7) = m ((c : Thread nD τ).loc main_arg7) :=
  (Wb1_of_ne m ρ c main_arg7 (by decide)).trans (rfl)
theorem Wb2_main_arg7 (c : Dev nD) : Wb2 m ρ c (Proc.devRef .tc main_arg7) = m ((c : Thread nD τ).loc main_arg7) :=
  (Wb2_of_ne m ρ c main_arg7 (by decide)).trans (Wb1_main_arg7 m ρ c)
theorem Wb3_main_arg7 (c : Dev nD) : Wb3 m ρ c (Proc.devRef .tc main_arg7) = m ((c : Thread nD τ).loc main_arg7) :=
  ((Wb3_arr m ρ c 1).trans (((dat2 (Ve2 m ρ) c).arrAt_in 1 rfl _).trans (A_eq2 (Ve2 m ρ) c 1))).trans (Wb2_main_arg7 m ρ c)
theorem Wb4_main_arg7 (c : Dev nD) : Wb4 m ρ c (Proc.devRef .tc main_arg7) = m ((c : Thread nD τ).loc main_arg7) :=
  (StableHlo.after_of_forall_not_mem (b := Proc.devRef .tc main_arg7) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg7 m ρ c)
theorem Wb1_main_arg8 (c : Dev nD) : Wb1 m ρ c (Proc.devRef .tc main_arg8) = m ((c : Thread nD τ).loc main_arg8) :=
  (Wb1_of_ne m ρ c main_arg8 (by decide)).trans (rfl)
theorem Wb2_main_arg8 (c : Dev nD) : Wb2 m ρ c (Proc.devRef .tc main_arg8) = m ((c : Thread nD τ).loc main_arg8) :=
  (Wb2_of_ne m ρ c main_arg8 (by decide)).trans (Wb1_main_arg8 m ρ c)
theorem Wb3_main_arg8 (c : Dev nD) : Wb3 m ρ c (Proc.devRef .tc main_arg8) = m ((c : Thread nD τ).loc main_arg8) :=
  ((Wb3_arr m ρ c 2).trans (((dat2 (Ve2 m ρ) c).arrAt_in 2 rfl _).trans (A_eq2 (Ve2 m ρ) c 2))).trans (Wb2_main_arg8 m ρ c)
theorem Wb4_main_arg8 (c : Dev nD) : Wb4 m ρ c (Proc.devRef .tc main_arg8) = m ((c : Thread nD τ).loc main_arg8) :=
  (StableHlo.after_of_forall_not_mem (b := Proc.devRef .tc main_arg8) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg8 m ρ c)
theorem Wb1_main_arg9 (c : Dev nD) : Wb1 m ρ c (Proc.devRef .tc main_arg9) = m ((c : Thread nD τ).loc main_arg9) :=
  (Wb1_of_ne m ρ c main_arg9 (by decide)).trans (rfl)
theorem Wb2_main_arg9 (c : Dev nD) : Wb2 m ρ c (Proc.devRef .tc main_arg9) = m ((c : Thread nD τ).loc main_arg9) :=
  (Wb2_of_ne m ρ c main_arg9 (by decide)).trans (Wb1_main_arg9 m ρ c)
theorem Wb3_main_arg9 (c : Dev nD) : Wb3 m ρ c (Proc.devRef .tc main_arg9) = m ((c : Thread nD τ).loc main_arg9) :=
  (Wb3_of_ne m ρ c main_arg9 (by decide)).trans (Wb2_main_arg9 m ρ c)
theorem Wb4_main_arg9 (c : Dev nD) : Wb4 m ρ c (Proc.devRef .tc main_arg9) = m ((c : Thread nD τ).loc main_arg9) :=
  (StableHlo.after_of_forall_not_mem (b := Proc.devRef .tc main_arg9) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg9 m ρ c)
theorem Wb1_main_arg10 (c : Dev nD) : Wb1 m ρ c (Proc.devRef .tc main_arg10) = m ((c : Thread nD τ).loc main_arg10) :=
  (Wb1_of_ne m ρ c main_arg10 (by decide)).trans (rfl)
theorem Wb2_main_arg10 (c : Dev nD) : Wb2 m ρ c (Proc.devRef .tc main_arg10) = m ((c : Thread nD τ).loc main_arg10) :=
  (Wb2_of_ne m ρ c main_arg10 (by decide)).trans (Wb1_main_arg10 m ρ c)
theorem Wb3_main_arg10 (c : Dev nD) : Wb3 m ρ c (Proc.devRef .tc main_arg10) = m ((c : Thread nD τ).loc main_arg10) :=
  (Wb3_of_ne m ρ c main_arg10 (by decide)).trans (Wb2_main_arg10 m ρ c)
theorem Wb4_main_arg10 (c : Dev nD) : Wb4 m ρ c (Proc.devRef .tc main_arg10) = m ((c : Thread nD τ).loc main_arg10) :=
  (StableHlo.after_of_forall_not_mem (b := Proc.devRef .tc main_arg10) _ _ (List.forall_iff_forall_mem.mp (by
          simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
          repeat' apply And.intro
          all_goals exact StableHlo.devRef_ne_of_ne (by decide)))).trans (Wb3_main_arg10 m ρ c)

/-- Each branch's output array is still what its own region left when the host operations start. -/
theorem Wb3_main_v0 (c : Dev nD) : Wb3 m ρ c (Proc.devRef .tc main_v0) = (dat0 (Ve0 m ρ) c).arrAt 3 cfg0.N :=
  (Wb3_of_ne m ρ c main_v0 (by decide)).trans ((Wb2_of_ne m ρ c main_v0 (by decide)).trans (Wb1_arr m ρ c 3))
theorem Wb3_main_v1 (c : Dev nD) : Wb3 m ρ c (Proc.devRef .tc main_v1) = (dat1 (Ve1 m ρ) c).arrAt 3 cfg1.N :=
  (Wb3_of_ne m ρ c main_v1 (by decide)).trans (Wb2_arr m ρ c 3)
theorem Wb3_main_v2 (c : Dev nD) : Wb3 m ρ c (Proc.devRef .tc main_v2) = (dat2 (Ve2 m ρ) c).arrAt 3 cfg2.N :=
  Wb3_arr m ρ c 3

/-! ## The proof data family and the thread state -/

/-- No pipeline has a prefetched table. -/
abbrev padm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) padm p) c
  | ⟨0, _⟩ => fun c => dat0 (Ve0 m ρ) c
  | ⟨1, _⟩ => fun c => dat1 (Ve1 m ρ) c
  | ⟨2, _⟩ => fun c => dat2 (Ve2 m ρ) c
abbrev 𝒱r : Variants := Variants.none
/-- No core owes another anything: no level is assigned. -/
abbrev Lr : GSem nD τ sig → Finset Unit := fun _ => ∅
abbrev lvr : GSem nD τ sig → Unit → ℕ := fun _ _ => 0
/-- What rides beside the buffers through every segment: the generator register at some state and the core owing nothing. -/
abbrev Rr (c : Dev nD) : sProp 𝕄 := iprop((∃ r, prngReg c r) ∗ ∃ W, owes (c : Thread nD τ) (0 : CellTallies nD τ sig Unit) W)
/-- The host stretch as a segment over the unscoped references from the contents W. -/
abbrev hsegr (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped reference is among those the thread state holds. -/
theorem mem_ucr (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes term. -/
abbrev Tlast (c : Dev nD) : sProp 𝕄 := iprop(StableHlo.held (c : Thread nD τ) (Pipeline.ucRefs τ sig) (Wb4 m ρ c) ∗ ∃ r, prngReg c r)

/-! ## The regions as segments -/

set_option backward.isDefEq.respectTransparency.types false in
/-- Region 0 over the thread state: entered from every unscoped buffer at boundary 0's contents, left at boundary 1's. Its
    arrays are split out of the unscoped buffers and put back at the exit contents; the generator register goes into the
    invariant and comes back; nothing is owed; the kernel has no semaphore of its own. -/
def reg0 : Pipeline.RegionSeg (pcfgs (F := F)) padm (pdats m ρ) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ Lr lvr 0 fun _ _ => rfl
  pre c := iprop(StableHlo.held (c : Thread nD τ) (Pipeline.ucRefs τ sig) (Wb0 m ρ c) ∗ Rr c)
  post c := iprop(StableHlo.held (c : Thread nD τ) (Pipeline.ucRefs τ sig) (Wb1 m ρ c) ∗ Rr c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (Ve0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m ρ) ((pdats m ρ 0 c).share_full fun _ => rfl)
      (Ve0 m ρ c) (Ve1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at boundary 1's contents, left at boundary 2's. Its
    arrays are split out of the unscoped buffers and put back at the exit contents; the generator register goes into the
    invariant and comes back; nothing is owed; the kernel has no semaphore of its own. -/
def reg1 : Pipeline.RegionSeg (pcfgs (F := F)) padm (pdats m ρ) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ Lr lvr 1 fun _ _ => rfl
  pre c := iprop(StableHlo.held (c : Thread nD τ) (Pipeline.ucRefs τ sig) (Wb1 m ρ c) ∗ Rr c)
  post c := iprop(StableHlo.held (c : Thread nD τ) (Pipeline.ucRefs τ sig) (Wb2 m ρ c) ∗ Rr c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (Ve1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m ρ) ((pdats m ρ 1 c).share_full fun _ => rfl)
      (Ve1 m ρ c) (Ve2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at boundary 2's contents, left at boundary 3's. Its
    arrays are split out of the unscoped buffers and put back at the exit contents; the generator register goes into the
    invariant and comes back; nothing is owed; the kernel has no semaphore of its own. -/
def reg2 : Pipeline.RegionSeg (pcfgs (F := F)) padm (pdats m ρ) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (Ve2 m ρ) c).loose
  hwaits := Pipeline.hwaits_of_owed_zero _ _ _ _ Lr lvr 2 fun _ _ => rfl
  pre c := iprop(StableHlo.held (c : Thread nD τ) (Pipeline.ucRefs τ sig) (Wb2 m ρ c) ∗ Rr c)
  post c := iprop(StableHlo.held (c : Thread nD τ) (Pipeline.ucRefs τ sig) (Wb3 m ρ c) ∗ Rr c)
  X c := iprop(∃ r, prngReg c r)
  Y c := iprop(∃ r, prngReg c r)
  Z c := Pipeline.unscopedRest (Ix := Unit) (Name := ℕ) (U := UR sig nD τ) (Lvl := ℕ) spec2 c (Ve2 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (Ve2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m ρ) ((pdats m ρ 2 c).share_full fun _ => rfl)
      (Ve2 m ρ c) (Ve3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The four segments in order. -/
abbrev segsr : List (Pipeline.Seg (pcfgs (F := F)) padm (pdats m ρ) () defs₀ 𝒱r Lr lvr) :=
  [ .region (reg0 m ρ),
    .region (reg1 m ρ),
    .region (reg2 m ρ),
    .host (hsegr hostOps3 hostOps3_sub hostOps3_fresh' (Wb3 m ρ)) ]
/-- The program is the run of the segments. -/
theorem main_runr (c : Dev nD) : main (F := F) c = Pipeline.Seg.run (segsr m ρ) := (main_chain c).trans (by chain_rfl)

set_option backward.isDefEq.respectTransparency.types false in
/-- From any memory with zero counters every weakly fair execution terminates, nothing faulting, and the final memory
    holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb4 m ρ c b) :=
  Pipeline.θ_run_regions_kit (pcfgs (F := F)) padm (pdats m ρ) () cellOf_inj emb₁ defs₀ 𝒱r Lr lvr m ρ main (segsr m ρ)
    (fun c Q => by rw [main_runr m ρ c])
    (by simp only [segsr, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m ρ c) ∗ Rr c)) (Tₙ := Tlast m ρ)
    (hch := ⟨fun _ => .rfl, fun _ => .rfl, fun _ => .rfl, fun _ => .rfl, fun c => by
      show iprop(StableHlo.held (c : Thread nD τ) (Pipeline.ucRefs τ sig) (Wb4 m ρ c) ∗ Rr c) ⊢ _
      iintro ⟨Hh, Hp, Ho⟩
      isplitl [Hh Hp]
      · isplitl [Hh]
        · iexact Hh
        · iexact Hp
      · iexact Ho⟩)
    (hinit := by
      refine Pipeline.initEach Lr lvr fun c => ?_
      rw [show unscopedBufs c (fun b => m ((c : Thread nD τ).loc b)) = StableHlo.held (c : Thread nD τ) (Pipeline.ucRefs τ sig) (Wb0 m ρ c)
        from Pipeline.unscopedBufs_held c (Wb0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wb4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_ucr main_arg0 (by decide))).trans (Wb4_main_arg0 m ρ c),
    (h c _ (mem_ucr main_arg1 (by decide))).trans (Wb4_main_arg1 m ρ c),
    (h c _ (mem_ucr main_arg2 (by decide))).trans (Wb4_main_arg2 m ρ c),
    (h c _ (mem_ucr main_arg3 (by decide))).trans (Wb4_main_arg3 m ρ c),
    (h c _ (mem_ucr main_arg4 (by decide))).trans (Wb4_main_arg4 m ρ c),
    (h c _ (mem_ucr main_arg5 (by decide))).trans (Wb4_main_arg5 m ρ c),
    (h c _ (mem_ucr main_arg6 (by decide))).trans (Wb4_main_arg6 m ρ c),
    (h c _ (mem_ucr main_arg7 (by decide))).trans (Wb4_main_arg7 m ρ c),
    (h c _ (mem_ucr main_arg8 (by decide))).trans (Wb4_main_arg8 m ρ c),
    (h c _ (mem_ucr main_arg9 (by decide))).trans (Wb4_main_arg9 m ρ c),
    (h c _ (mem_ucr main_arg10 (by decide))).trans (Wb4_main_arg10 m ρ c)⟩) (run_all m ρ)

end Cert.KernelIdeal.Hand

end
-- ==== Proof.BranchSpec.lean ====
/-
  The block decomposition one branch of the kernel works through, as pure functions of the three argument arrays of
  that branch. A branch multiplies a 128×8192 activation x by two 8192×2048 weights (W_nm and W_an), 512 columns of x
  (and the matching 512 rows of each weight) per grid point, adding each partial product into one of two
  128×2048 accumulators that start at zero; after the sixteenth point it scales the first accumulator, row by row,
  by the mean of the second accumulator's row. Everything here is generic in the float instance.
-/
import proofs.«181729_j86371792323176_1_alg».proof.Proof.Gen.KernelIdeal.Skeleton
import Idealize.ShloMosaic.Lib.ValueIdx

noncomputable section

namespace Cert.KernelIdeal.Branch

open Idealize.ShloMosaic Idealize.ShloMosaic.ValueIdx Cert.KernelIdeal Cert.KernelIdeal.Gen

variable {F : FTy → Type} [FloatOps F]

/-- Columns 512·t … 512·t + 511 of a 128×8192 array: the activation block grid point t works on. -/
def xblk (x : Vec F S128x8192 .f32) (t : Fin 16) : Vec F S128x512 .f32 := fun y =>
  x (ix2 (n0 := 128) (n1 := 8192) ⟨(y 0).val, idx2_lt0 y⟩
    ⟨512 * t.val + (y 1).val, by have h1 := idx2_lt1 y; have ht := t.isLt; omega⟩)

/-- Rows 512·t … 512·t + 511 of an 8192×2048 array: the weight block grid point t works on. -/
def wblk (w : Vec F S8192x2048 .f32) (t : Fin 16) : Vec F S512x2048 .f32 := fun y =>
  w (ix2 (n0 := 8192) (n1 := 2048) ⟨512 * t.val + (y 0).val, by have h0 := idx2_lt0 y; have ht := t.isLt; omega⟩
    ⟨(y 1).val, idx2_lt1 y⟩)

/-- The pair of accumulators (first the W_nm one, then the W_an one) after grid point n: each is the previous
    accumulator plus the product of the point's activation block with the point's weight block, starting from
    the zero arrays. -/
def acc (x : Vec F S128x8192 .f32) (wnm wan : Vec F S8192x2048 .f32) : ℕ → Vec F S128x2048 .f32 × Vec F S128x2048 .f32
  | 0 => (k0_pay4 (xblk x 0) (wblk wnm 0) k0_pay1, k0_pay5 (xblk x 0) (wblk wan 0) k0_pay2)
  | n + 1 =>
    if h : n + 1 < 16 then
      (k0_pay4 (xblk x ⟨n + 1, h⟩) (wblk wnm ⟨n + 1, h⟩) (acc x wnm wan n).1,
       k0_pay5 (xblk x ⟨n + 1, h⟩) (wblk wan ⟨n + 1, h⟩) (acc x wnm wan n).2)
    else acc x wnm wan n

/-- What the branch writes out at the last grid point: the W_nm accumulator scaled row by row by the mean of the
    W_an accumulator's row. -/
def branchOut (x : Vec F S128x8192 .f32) (wnm wan : Vec F S8192x2048 .f32) : Vec F S128x2048 .f32 :=
  k0_pay6 (acc x wnm wan 15).2 (acc x wnm wan 15).1

/-- The three branches run the same arithmetic: the second and third kernels' store values are the first's. -/
theorem pay1_1 : (k1_pay1 : FVec F S128x2048 .f32) = k0_pay1 := rfl
theorem pay1_2 : (k2_pay1 : FVec F S128x2048 .f32) = k0_pay1 := rfl
theorem pay2_1 : (k1_pay2 : FVec F S128x2048 .f32) = k0_pay2 := rfl
theorem pay2_2 : (k2_pay2 : FVec F S128x2048 .f32) = k0_pay2 := rfl
theorem pay4_1 : (k1_pay4 : _ → _ → _ → FVec F S128x2048 .f32) = k0_pay4 := rfl
theorem pay4_2 : (k2_pay4 : _ → _ → _ → FVec F S128x2048 .f32) = k0_pay4 := rfl
theorem pay5_1 : (k1_pay5 : _ → _ → _ → FVec F S128x2048 .f32) = k0_pay5 := rfl
theorem pay5_2 : (k2_pay5 : _ → _ → _ → FVec F S128x2048 .f32) = k0_pay5 := rfl
theorem pay6_1 : (k1_pay6 : _ → _ → FVec F S128x2048 .f32) = k0_pay6 := rfl
theorem pay6_2 : (k2_pay6 : _ → _ → FVec F S128x2048 .f32) = k0_pay6 := rfl

end Cert.KernelIdeal.Branch

end
-- ==== Proof.KIValue0.lean ====
/-
  Branch 0's value, for any float instance: what each case's stores leave is the body's arithmetic on the blocks and
  the accumulators it loaded; a window's block at grid point t is columns (of the activation) or rows (of a weight)
  512·t … 512·t + 511 of its array; so the accumulators after point n are the running block sums, the staging buffer
  after the last point is the scaled result, and the one write-back — at the last point, of the whole array — leaves the
  output array holding it.
-/
import proofs.«181729_j86371792323176_1_alg».proof.Proof.KIRegion0
import proofs.«181729_j86371792323176_1_alg».proof.Proof.BranchSpec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Branch

theorem hz0 : (![0, 0] : Fin 2 → Nat) = fun _ => 0 := funext fun a => by fin_cases a <;> rfl

/-! ## What each case's stores leave, as the body's arithmetic -/

theorem sout0_A_0_eq (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond0_0 i) (hc1 : ¬cond0_1 i) (x0 : Vec F S128x512 .f32) (x1 : Vec F S512x2048 .f32) (x2 : Vec F S512x2048 .f32) :
    sout0_A_0 c i arg1 harg1 arg2 harg2 arg3 harg3 arg4 harg4 arg5 harg5 arg6 harg6 hc0 hc1 x0 x1 x2 = k0_pay4 x0 x1 k0_pay1 := by
  unfold sout0_A_0
  rw [View.read_writes_eq_canon _ _ _ (scover0_A_0 c i arg1 harg1 arg2 harg2 arg3 harg3 arg4 harg4 arg5 harg5 arg6 harg6 hc0 hc1 x0 x1 x2)]
  unfold kernelRun0_A
  dsimp only
  sl_unfold_words
  rw [View.canon_cons_unit_zero (S := S128x2048) hz0, View.readCov_unit_zero (S := S128x2048) _ hz0]
  simp only [View.readAt_eq_ld, harg1.read_unread, harg2.read_unread, View.ld_unit_zero (S := S128x512) hz0, View.ld_unit_zero (S := S512x2048) hz0, View.ld_unit_zero (S := S128x2048) hz0]

theorem sout0_A_1_eq (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond0_0 i) (hc1 : ¬cond0_1 i) (x0 : Vec F S128x512 .f32) (x1 : Vec F S512x2048 .f32) (x2 : Vec F S512x2048 .f32) :
    sout0_A_1 c i arg1 harg1 arg2 harg2 arg3 harg3 arg4 harg4 arg5 harg5 arg6 harg6 hc0 hc1 x0 x1 x2 = k0_pay5 x0 x2 k0_pay2 := by
  unfold sout0_A_1
  rw [View.read_writes_eq_canon _ _ _ (scover0_A_1 c i arg1 harg1 arg2 harg2 arg3 harg3 arg4 harg4 arg5 harg5 arg6 harg6 hc0 hc1 x0 x1 x2)]
  unfold kernelRun0_A
  dsimp only
  sl_unfold_words
  rw [View.canon_cons_unit_zero (S := S128x2048) hz0, View.readCov_unit_zero (S := S128x2048) _ hz0]
  simp only [View.readAt_eq_ld, harg1.read_unread, harg3.read_unread, View.ld_unit_zero (S := S128x512) hz0, View.ld_unit_zero (S := S512x2048) hz0, View.ld_unit_zero (S := S128x2048) hz0]

theorem sout0_B_0_eq (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : ¬cond0_1 i) (x0 : Vec F S128x512 .f32) (x1 : Vec F S512x2048 .f32) (x2 : Vec F S512x2048 .f32) (xs0 xs1 : Vec F S128x2048 .f32) :
    sout0_B_0 c i arg1 harg1 arg2 harg2 arg3 harg3 arg4 harg4 arg5 harg5 arg6 harg6 hc0 hc1 x0 x1 x2 xs0 xs1 = k0_pay4 x0 x1 xs0 := by
  unfold sout0_B_0
  rw [View.read_writes_eq_canon _ _ _ (scover0_B_0 c i arg1 harg1 arg2 harg2 arg3 harg3 arg4 harg4 arg5 harg5 arg6 harg6 hc0 hc1 x0 x1 x2 xs0 xs1)]
  unfold kernelRun0_B
  dsimp only
  sl_unfold_words
  rw [View.canon_unit_zero hz0]
  simp only [View.readAt_eq_ld, harg1.read_unread, harg2.read_unread, harg5.read_unread, View.ld_unit_zero (S := S128x512) hz0, View.ld_unit_zero (S := S512x2048) hz0, View.ld_unit_zero (S := S128x2048) hz0]

theorem sout0_B_1_eq (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : ¬cond0_1 i) (x0 : Vec F S128x512 .f32) (x1 : Vec F S512x2048 .f32) (x2 : Vec F S512x2048 .f32) (xs0 xs1 : Vec F S128x2048 .f32) :
    sout0_B_1 c i arg1 harg1 arg2 harg2 arg3 harg3 arg4 harg4 arg5 harg5 arg6 harg6 hc0 hc1 x0 x1 x2 xs0 xs1 = k0_pay5 x0 x2 xs1 := by
  unfold sout0_B_1
  rw [View.read_writes_eq_canon _ _ _ (scover0_B_1 c i arg1 harg1 arg2 harg2 arg3 harg3 arg4 harg4 arg5 harg5 arg6 harg6 hc0 hc1 x0 x1 x2 xs0 xs1)]
  unfold kernelRun0_B
  dsimp only
  sl_unfold_words
  rw [View.canon_unit_zero hz0]
  simp only [View.readAt_eq_ld, harg1.read_unread, harg3.read_unread, harg6.read_unread, View.ld_unit_zero (S := S128x512) hz0, View.ld_unit_zero (S := S512x2048) hz0, View.ld_unit_zero (S := S128x2048) hz0]

theorem sout0_C_0_eq (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) :
    sout0_C_0 c i arg1 harg1 arg2 harg2 arg3 harg3 arg4 harg4 arg5 harg5 arg6 harg6 hc0 hc1 x0 x1 x2 xs0 xs1 = k0_pay4 x0 x1 xs0 := by
  unfold sout0_C_0
  rw [View.read_writes_eq_canon _ _ _ (scover0_C_0 c i arg1 harg1 arg2 harg2 arg3 harg3 arg4 harg4 arg5 harg5 arg6 harg6 hc0 hc1 x0 x1 x2 xs0 xs1)]
  unfold kernelRun0_C
  dsimp only
  sl_unfold_words
  rw [View.canon_unit_zero hz0]
  simp only [View.readAt_eq_ld, harg1.read_unread, harg2.read_unread, harg5.read_unread, View.ld_unit_zero (S := S128x512) hz0, View.ld_unit_zero (S := S512x2048) hz0, View.ld_unit_zero (S := S128x2048) hz0]

theorem sout0_C_1_eq (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) :
    sout0_C_1 c i arg1 harg1 arg2 harg2 arg3 harg3 arg4 harg4 arg5 harg5 arg6 harg6 hc0 hc1 x0 x1 x2 xs0 xs1 = k0_pay5 x0 x2 xs1 := by
  unfold sout0_C_1
  rw [View.read_writes_eq_canon _ _ _ (scover0_C_1 c i arg1 harg1 arg2 harg2 arg3 harg3 arg4 harg4 arg5 harg5 arg6 harg6 hc0 hc1 x0 x1 x2 xs0 xs1)]
  unfold kernelRun0_C
  dsimp only
  sl_unfold_words
  rw [View.canon_unit_zero hz0]
  simp only [View.readAt_eq_ld, harg1.read_unread, harg3.read_unread, harg6.read_unread, View.ld_unit_zero (S := S128x512) hz0, View.ld_unit_zero (S := S512x2048) hz0, View.ld_unit_zero (S := S128x2048) hz0]

theorem out0_C_3_eq (c : Dev nD) (i : grid0.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond0_0 i) (hc1 : cond0_1 i) (x0 : Vec F S128x512 .f32) (x1 : Vec F S512x2048 .f32) (x2 : Vec F S512x2048 .f32) (xs0 xs1 : Vec F S128x2048 .f32) :
    out0_C_3 c i arg1 harg1 arg2 harg2 arg3 harg3 arg4 harg4 arg5 harg5 arg6 harg6 hc0 hc1 x0 x1 x2 xs0 xs1 = k0_pay6 (k0_pay5 x0 x2 xs1) (k0_pay4 x0 x1 xs0) := by
  unfold out0_C_3
  rw [View.read_writes_eq_canon _ _ _ (cover0_C_3 c i arg1 harg1 arg2 harg2 arg3 harg3 arg4 harg4 arg5 harg5 arg6 harg6 hc0 hc1 x0 x1 x2 xs0 xs1)]
  unfold kernelRun0_C
  dsimp only
  sl_unfold_words
  rw [View.canon_unit_zero hz0, View.readCov_unit_zero (S := S128x2048) _ hz0, View.readCov_unit_zero (S := S128x2048) _ hz0]
  simp only [View.readAt_eq_ld, harg1.read_unread, harg2.read_unread, harg3.read_unread, harg5.read_unread, harg6.read_unread, View.ld_unit_zero (S := S128x512) hz0, View.ld_unit_zero (S := S512x2048) hz0, View.ld_unit_zero (S := S128x2048) hz0]

section Region
variable (V : (c : Dev nD) → (b : Ref sig .tc) → Buf (Elt F) ((c : Thread nD τ).loc b))

/-! ## The windows' blocks are blocks of the arrays -/

/-- The block index of each input window at grid point t: the activation's window moves along the columns, a weight's
    along the rows. -/
theorem idx0_0 : ∀ t : Fin cfg0.N, win0_0.index t 0 = 0 ∧ win0_0.index t 1 = t.val :=
  (by decide +kernel : ∀ t : Fin grid0.N, win0_0.index t 0 = 0 ∧ win0_0.index t 1 = t.val)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = t.val ∧ win0_2.index t 1 = 0 :=
  (by decide +kernel : ∀ t : Fin grid0.N, win0_2.index t 0 = t.val ∧ win0_2.index t 1 = 0)

theorem iblk0_0_eq (c : Dev nD) (t : Fin cfg0.N) : iblk0 V c 0 t = xblk (V c main_arg0 : Vec F S128x8192 .f32) ⟨t.val, lt_of_lt_of_eq t.isLt N_0⟩ := by
  funext y
  unfold iblk0 xblk
  rw [View.read_apply]
  show V c main_arg0 (((cfg0.win 0).blk t).view.emb y) = V c main_arg0 _
  refine congrArg _ (funext fun a => Fin.ext ?_)
  match a with
  | ⟨0, _⟩ => show win0_0.index t 0 * 128 + 1 * (y 0).val = (y 0).val; rw [(idx0_0 t).1]; omega
  | ⟨1, _⟩ => show win0_0.index t 1 * 512 + 1 * (y 1).val = 512 * t.val + (y 1).val; rw [(idx0_0 t).2]; omega

theorem iblk0_1_eq (c : Dev nD) (t : Fin cfg0.N) : iblk0 V c 1 t = wblk (V c main_arg3 : Vec F S8192x2048 .f32) ⟨t.val, lt_of_lt_of_eq t.isLt N_0⟩ := by
  funext y
  unfold iblk0 wblk
  rw [View.read_apply]
  show V c main_arg3 (((cfg0.win 1).blk t).view.emb y) = V c main_arg3 _
  refine congrArg _ (funext fun a => Fin.ext ?_)
  match a with
  | ⟨0, _⟩ => show win0_1.index t 0 * 512 + 1 * (y 0).val = 512 * t.val + (y 0).val; rw [(idx0_1 t).1]; omega
  | ⟨1, _⟩ => show win0_1.index t 1 * 2048 + 1 * (y 1).val = (y 1).val; rw [(idx0_1 t).2]; omega

theorem iblk0_2_eq (c : Dev nD) (t : Fin cfg0.N) : iblk0 V c 2 t = wblk (V c main_arg4 : Vec F S8192x2048 .f32) ⟨t.val, lt_of_lt_of_eq t.isLt N_0⟩ := by
  funext y
  unfold iblk0 wblk
  rw [View.read_apply]
  show V c main_arg4 (((cfg0.win 2).blk t).view.emb y) = V c main_arg4 _
  refine congrArg _ (funext fun a => Fin.ext ?_)
  match a with
  | ⟨0, _⟩ => show win0_2.index t 0 * 512 + 1 * (y 0).val = 512 * t.val + (y 0).val; rw [(idx0_2 t).1]; omega
  | ⟨1, _⟩ => show win0_2.index t 1 * 2048 + 1 * (y 1).val = (y 1).val; rw [(idx0_2 t).2]; omega

/-! ## The accumulators are the running block sums -/

/-- After grid point n the two accumulators hold the n + 1 block products added one after another onto zero. -/
theorem outsAt0_acc (c : Dev nD) : ∀ (n : ℕ) (hn : n < cfg0.N),
    (outsAt0 V c n hn).2.1 = (acc (V c main_arg0 : Vec F S128x8192 .f32) (V c main_arg3 : Vec F S8192x2048 .f32) (V c main_arg4 : Vec F S8192x2048 .f32) n).1 ∧ (outsAt0 V c n hn).2.2 = (acc (V c main_arg0 : Vec F S128x8192 .f32) (V c main_arg3 : Vec F S8192x2048 .f32) (V c main_arg4 : Vec F S8192x2048 .f32) n).2
  | 0, hn => by
    rw [outsAt0_A V c ⟨0, hn⟩ rfl]
    dsimp only
    rw [sout0_A_0_eq, sout0_A_1_eq, iblk0_0_eq, iblk0_1_eq, iblk0_2_eq]
    exact ⟨rfl, rfl⟩
  | n + 1, hn => by
    have hN : cfg0.N = 16 := N_0
    have hlt : n + 1 < 16 := by omega
    have ih := outsAt0_acc c n (Nat.lt_of_succ_lt hn)
    have hstep : acc (V c main_arg0 : Vec F S128x8192 .f32) (V c main_arg3 : Vec F S8192x2048 .f32) (V c main_arg4 : Vec F S8192x2048 .f32) (n + 1) = (k0_pay4 (xblk (V c main_arg0 : Vec F S128x8192 .f32) ⟨n + 1, hlt⟩) (wblk (V c main_arg3 : Vec F S8192x2048 .f32) ⟨n + 1, hlt⟩) (acc (V c main_arg0 : Vec F S128x8192 .f32) (V c main_arg3 : Vec F S8192x2048 .f32) (V c main_arg4 : Vec F S8192x2048 .f32) n).1, k0_pay5 (xblk (V c main_arg0 : Vec F S128x8192 .f32) ⟨n + 1, hlt⟩) (wblk (V c main_arg4 : Vec F S8192x2048 .f32) ⟨n + 1, hlt⟩) (acc (V c main_arg0 : Vec F S128x8192 .f32) (V c main_arg3 : Vec F S8192x2048 .f32) (V c main_arg4 : Vec F S8192x2048 .f32) n).2) := dif_pos hlt
    rw [hstep]
    by_cases h1 : n + 1 = 15
    · rw [outsAt0_C V c ⟨n + 1, hn⟩ (Nat.succ_ne_zero n) h1]
      dsimp only
      rw [sout0_C_0_eq, sout0_C_1_eq, iblk0_0_eq, iblk0_1_eq, iblk0_2_eq]
      refine ⟨?_, ?_⟩
      · show k0_pay4 _ _ (outsAt0 V c n _).2.1 = _
        rw [ih.1]; try rfl
      · show k0_pay5 _ _ (outsAt0 V c n _).2.2 = _
        rw [ih.2]; try rfl
    · rw [outsAt0_B V c ⟨n + 1, hn⟩ (Nat.succ_ne_zero n) h1]
      dsimp only
      rw [sout0_B_0_eq, sout0_B_1_eq, iblk0_0_eq, iblk0_1_eq, iblk0_2_eq]
      refine ⟨?_, ?_⟩
      · show k0_pay4 _ _ (outsAt0 V c n _).2.1 = _
        rw [ih.1]; try rfl
      · show k0_pay5 _ _ (outsAt0 V c n _).2.2 = _
        rw [ih.2]; try rfl

/-- After the last grid point the output's staging buffer holds the branch's result. -/
theorem out0_last (c : Dev nD) (h15 : 15 < cfg0.N) : (outsAt0 V c 15 h15).1 = branchOut (V c main_arg0 : Vec F S128x8192 .f32) (V c main_arg3 : Vec F S8192x2048 .f32) (V c main_arg4 : Vec F S8192x2048 .f32) := by
  have hacc := outsAt0_acc V c 15 h15
  have e : (outsAt0 V c 15 h15).1 = k0_pay6 (outsAt0 V c 15 h15).2.2 (outsAt0 V c 15 h15).2.1 := by
    rw [outsAt0_C V c ⟨15, h15⟩ (show (15 : ℕ) ≠ 0 by decide) rfl]
    dsimp only
    rw [out0_C_3_eq, sout0_C_0_eq, sout0_C_1_eq]
  rw [e, hacc.1, hacc.2]; rfl

/-! ## The output array after the region -/

/-- The one write-back, at the last point, writes the branch's result: the block is the whole array. -/
theorem flushed0_eq (c : Dev nD) (t : Fin cfg0.N) (hf : (cfg0.win 3).flush t = true) :
    (dat0 V c).flushed 3 t = ((cfg0.win 3).blk t).view.read (Elt F) (branchOut (V c main_arg0 : Vec F S128x8192 .f32) (V c main_arg3 : Vec F S8192x2048 .f32) (V c main_arg4 : Vec F S8192x2048 .f32) : Buf (Elt F) ((c : Thread nD τ).loc main_v0)) := by
  have hN : cfg0.N = 16 := N_0
  have h15 : t.val = 15 := by have := (flush0_3 t).mp hf; have := t.isLt; omega
  obtain rfl : t = t0_15 := Fin.ext h15
  show (cfg0.win 3).cut (grid0.coords t0_15) ((dat0 V c).after 3 t0_15) = _
  rw [after0_3]
  refine (congrArg ((cfg0.win 3).cut (grid0.coords t0_15)) (out0_last V c t0_15.isLt)).trans ?_
  have hz' : (fun a => win0_3.index t0_15 a * main_v0.ty.shape.size a) = fun _ => 0 := funext fun a => by fin_cases a <;> decide
  exact (Memref.read_access_unit_zero (Elt F) main_v0 hz' (fun a => by rw [congrFun hz' a]; simp) (branchOut (V c main_arg0 : Vec F S128x8192 .f32) (V c main_arg3 : Vec F S8192x2048 .f32) (V c main_arg4 : Vec F S8192x2048 .f32))).symm

/-- So the output array ends holding the branch's result. -/
theorem final0 (c : Dev nD) : (dat0 V c).arrAt 3 cfg0.N = (branchOut (V c main_arg0 : Vec F S128x8192 .f32) (V c main_arg3 : Vec F S8192x2048 .f32) (V c main_arg4 : Vec F S8192x2048 .f32) : Buf (Elt F) ((c : Thread nD τ).loc main_v0)) :=
  (dat0 V c).arrAt_eq_of_cover 3 _ (flushed0_eq V c) fun i =>
    ⟨t0_15, (flush0_3 t0_15).mpr rfl, by
      show i ∈ ((View.whole main_v0).slice (win0_3.rect t0_15)).set
      rw [View.set_slice_whole, Rect.mem_set_unit]
      intro a
      have h0 : (i 0 : Nat) < 128 := (i 0).isLt
      have h1 : (i 1 : Nat) < 2048 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 128 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 2048 from by decide +kernel]; omega⟩

end Region

end Cert.KernelIdeal.Hand

end
-- ==== Proof.KIValue1.lean ====
/-
  Branch 1's value, for any float instance: what each case's stores leave is the body's arithmetic on the blocks and
  the accumulators it loaded; a window's block at grid point t is columns (of the activation) or rows (of a weight)
  512·t … 512·t + 511 of its array; so the accumulators after point n are the running block sums, the staging buffer
  after the last point is the scaled result, and the one write-back — at the last point, of the whole array — leaves the
  output array holding it.
-/
import proofs.«181729_j86371792323176_1_alg».proof.Proof.KIRegion1
import proofs.«181729_j86371792323176_1_alg».proof.Proof.BranchSpec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Branch

theorem hz1 : (![0, 0] : Fin 2 → Nat) = fun _ => 0 := funext fun a => by fin_cases a <;> rfl

/-! ## What each case's stores leave, as the body's arithmetic -/

theorem sout1_A_0_eq (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i) (x0 : Vec F S128x512 .f32) (x1 : Vec F S512x2048 .f32) (x2 : Vec F S512x2048 .f32) :
    sout1_A_0 c i arg1 harg1 arg2 harg2 arg3 harg3 arg4 harg4 arg5 harg5 arg6 harg6 hc0 hc1 x0 x1 x2 = k1_pay4 x0 x1 k1_pay1 := by
  unfold sout1_A_0
  rw [View.read_writes_eq_canon _ _ _ (scover1_A_0 c i arg1 harg1 arg2 harg2 arg3 harg3 arg4 harg4 arg5 harg5 arg6 harg6 hc0 hc1 x0 x1 x2)]
  unfold kernelRun1_A
  dsimp only
  sl_unfold_words
  rw [View.canon_cons_unit_zero (S := S128x2048) hz1, View.readCov_unit_zero (S := S128x2048) _ hz1]
  simp only [View.readAt_eq_ld, harg1.read_unread, harg2.read_unread, View.ld_unit_zero (S := S128x512) hz1, View.ld_unit_zero (S := S512x2048) hz1, View.ld_unit_zero (S := S128x2048) hz1]

theorem sout1_A_1_eq (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond1_0 i) (hc1 : ¬cond1_1 i) (x0 : Vec F S128x512 .f32) (x1 : Vec F S512x2048 .f32) (x2 : Vec F S512x2048 .f32) :
    sout1_A_1 c i arg1 harg1 arg2 harg2 arg3 harg3 arg4 harg4 arg5 harg5 arg6 harg6 hc0 hc1 x0 x1 x2 = k1_pay5 x0 x2 k1_pay2 := by
  unfold sout1_A_1
  rw [View.read_writes_eq_canon _ _ _ (scover1_A_1 c i arg1 harg1 arg2 harg2 arg3 harg3 arg4 harg4 arg5 harg5 arg6 harg6 hc0 hc1 x0 x1 x2)]
  unfold kernelRun1_A
  dsimp only
  sl_unfold_words
  rw [View.canon_cons_unit_zero (S := S128x2048) hz1, View.readCov_unit_zero (S := S128x2048) _ hz1]
  simp only [View.readAt_eq_ld, harg1.read_unread, harg3.read_unread, View.ld_unit_zero (S := S128x512) hz1, View.ld_unit_zero (S := S512x2048) hz1, View.ld_unit_zero (S := S128x2048) hz1]

theorem sout1_B_0_eq (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i) (x0 : Vec F S128x512 .f32) (x1 : Vec F S512x2048 .f32) (x2 : Vec F S512x2048 .f32) (xs0 xs1 : Vec F S128x2048 .f32) :
    sout1_B_0 c i arg1 harg1 arg2 harg2 arg3 harg3 arg4 harg4 arg5 harg5 arg6 harg6 hc0 hc1 x0 x1 x2 xs0 xs1 = k1_pay4 x0 x1 xs0 := by
  unfold sout1_B_0
  rw [View.read_writes_eq_canon _ _ _ (scover1_B_0 c i arg1 harg1 arg2 harg2 arg3 harg3 arg4 harg4 arg5 harg5 arg6 harg6 hc0 hc1 x0 x1 x2 xs0 xs1)]
  unfold kernelRun1_B
  dsimp only
  sl_unfold_words
  rw [View.canon_unit_zero hz1]
  simp only [View.readAt_eq_ld, harg1.read_unread, harg2.read_unread, harg5.read_unread, View.ld_unit_zero (S := S128x512) hz1, View.ld_unit_zero (S := S512x2048) hz1, View.ld_unit_zero (S := S128x2048) hz1]

theorem sout1_B_1_eq (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : ¬cond1_1 i) (x0 : Vec F S128x512 .f32) (x1 : Vec F S512x2048 .f32) (x2 : Vec F S512x2048 .f32) (xs0 xs1 : Vec F S128x2048 .f32) :
    sout1_B_1 c i arg1 harg1 arg2 harg2 arg3 harg3 arg4 harg4 arg5 harg5 arg6 harg6 hc0 hc1 x0 x1 x2 xs0 xs1 = k1_pay5 x0 x2 xs1 := by
  unfold sout1_B_1
  rw [View.read_writes_eq_canon _ _ _ (scover1_B_1 c i arg1 harg1 arg2 harg2 arg3 harg3 arg4 harg4 arg5 harg5 arg6 harg6 hc0 hc1 x0 x1 x2 xs0 xs1)]
  unfold kernelRun1_B
  dsimp only
  sl_unfold_words
  rw [View.canon_unit_zero hz1]
  simp only [View.readAt_eq_ld, harg1.read_unread, harg3.read_unread, harg6.read_unread, View.ld_unit_zero (S := S128x512) hz1, View.ld_unit_zero (S := S512x2048) hz1, View.ld_unit_zero (S := S128x2048) hz1]

theorem sout1_C_0_eq (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) :
    sout1_C_0 c i arg1 harg1 arg2 harg2 arg3 harg3 arg4 harg4 arg5 harg5 arg6 harg6 hc0 hc1 x0 x1 x2 xs0 xs1 = k1_pay4 x0 x1 xs0 := by
  unfold sout1_C_0
  rw [View.read_writes_eq_canon _ _ _ (scover1_C_0 c i arg1 harg1 arg2 harg2 arg3 harg3 arg4 harg4 arg5 harg5 arg6 harg6 hc0 hc1 x0 x1 x2 xs0 xs1)]
  unfold kernelRun1_C
  dsimp only
  sl_unfold_words
  rw [View.canon_unit_zero hz1]
  simp only [View.readAt_eq_ld, harg1.read_unread, harg2.read_unread, harg5.read_unread, View.ld_unit_zero (S := S128x512) hz1, View.ld_unit_zero (S := S512x2048) hz1, View.ld_unit_zero (S := S128x2048) hz1]

theorem sout1_C_1_eq (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) :
    sout1_C_1 c i arg1 harg1 arg2 harg2 arg3 harg3 arg4 harg4 arg5 harg5 arg6 harg6 hc0 hc1 x0 x1 x2 xs0 xs1 = k1_pay5 x0 x2 xs1 := by
  unfold sout1_C_1
  rw [View.read_writes_eq_canon _ _ _ (scover1_C_1 c i arg1 harg1 arg2 harg2 arg3 harg3 arg4 harg4 arg5 harg5 arg6 harg6 hc0 hc1 x0 x1 x2 xs0 xs1)]
  unfold kernelRun1_C
  dsimp only
  sl_unfold_words
  rw [View.canon_unit_zero hz1]
  simp only [View.readAt_eq_ld, harg1.read_unread, harg3.read_unread, harg6.read_unread, View.ld_unit_zero (S := S128x512) hz1, View.ld_unit_zero (S := S512x2048) hz1, View.ld_unit_zero (S := S128x2048) hz1]

theorem out1_C_3_eq (c : Dev nD) (i : grid1.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond1_0 i) (hc1 : cond1_1 i) (x0 : Vec F S128x512 .f32) (x1 : Vec F S512x2048 .f32) (x2 : Vec F S512x2048 .f32) (xs0 xs1 : Vec F S128x2048 .f32) :
    out1_C_3 c i arg1 harg1 arg2 harg2 arg3 harg3 arg4 harg4 arg5 harg5 arg6 harg6 hc0 hc1 x0 x1 x2 xs0 xs1 = k1_pay6 (k1_pay5 x0 x2 xs1) (k1_pay4 x0 x1 xs0) := by
  unfold out1_C_3
  rw [View.read_writes_eq_canon _ _ _ (cover1_C_3 c i arg1 harg1 arg2 harg2 arg3 harg3 arg4 harg4 arg5 harg5 arg6 harg6 hc0 hc1 x0 x1 x2 xs0 xs1)]
  unfold kernelRun1_C
  dsimp only
  sl_unfold_words
  rw [View.canon_unit_zero hz1, View.readCov_unit_zero (S := S128x2048) _ hz1, View.readCov_unit_zero (S := S128x2048) _ hz1]
  simp only [View.readAt_eq_ld, harg1.read_unread, harg2.read_unread, harg3.read_unread, harg5.read_unread, harg6.read_unread, View.ld_unit_zero (S := S128x512) hz1, View.ld_unit_zero (S := S512x2048) hz1, View.ld_unit_zero (S := S128x2048) hz1]

section Region
variable (V : (c : Dev nD) → (b : Ref sig .tc) → Buf (Elt F) ((c : Thread nD τ).loc b))

/-! ## The windows' blocks are blocks of the arrays -/

/-- The block index of each input window at grid point t: the activation's window moves along the columns, a weight's
    along the rows. -/
theorem idx1_0 : ∀ t : Fin cfg1.N, win1_0.index t 0 = 0 ∧ win1_0.index t 1 = t.val :=
  (by decide +kernel : ∀ t : Fin grid1.N, win1_0.index t 0 = 0 ∧ win1_0.index t 1 = t.val)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = t.val ∧ win1_2.index t 1 = 0 :=
  (by decide +kernel : ∀ t : Fin grid1.N, win1_2.index t 0 = t.val ∧ win1_2.index t 1 = 0)

theorem iblk1_0_eq (c : Dev nD) (t : Fin cfg1.N) : iblk1 V c 0 t = xblk (V c main_arg1 : Vec F S128x8192 .f32) ⟨t.val, lt_of_lt_of_eq t.isLt N_1⟩ := by
  funext y
  unfold iblk1 xblk
  rw [View.read_apply]
  show V c main_arg1 (((cfg1.win 0).blk t).view.emb y) = V c main_arg1 _
  refine congrArg _ (funext fun a => Fin.ext ?_)
  match a with
  | ⟨0, _⟩ => show win1_0.index t 0 * 128 + 1 * (y 0).val = (y 0).val; rw [(idx1_0 t).1]; omega
  | ⟨1, _⟩ => show win1_0.index t 1 * 512 + 1 * (y 1).val = 512 * t.val + (y 1).val; rw [(idx1_0 t).2]; omega

theorem iblk1_1_eq (c : Dev nD) (t : Fin cfg1.N) : iblk1 V c 1 t = wblk (V c main_arg5 : Vec F S8192x2048 .f32) ⟨t.val, lt_of_lt_of_eq t.isLt N_1⟩ := by
  funext y
  unfold iblk1 wblk
  rw [View.read_apply]
  show V c main_arg5 (((cfg1.win 1).blk t).view.emb y) = V c main_arg5 _
  refine congrArg _ (funext fun a => Fin.ext ?_)
  match a with
  | ⟨0, _⟩ => show win1_1.index t 0 * 512 + 1 * (y 0).val = 512 * t.val + (y 0).val; rw [(idx1_1 t).1]; omega
  | ⟨1, _⟩ => show win1_1.index t 1 * 2048 + 1 * (y 1).val = (y 1).val; rw [(idx1_1 t).2]; omega

theorem iblk1_2_eq (c : Dev nD) (t : Fin cfg1.N) : iblk1 V c 2 t = wblk (V c main_arg6 : Vec F S8192x2048 .f32) ⟨t.val, lt_of_lt_of_eq t.isLt N_1⟩ := by
  funext y
  unfold iblk1 wblk
  rw [View.read_apply]
  show V c main_arg6 (((cfg1.win 2).blk t).view.emb y) = V c main_arg6 _
  refine congrArg _ (funext fun a => Fin.ext ?_)
  match a with
  | ⟨0, _⟩ => show win1_2.index t 0 * 512 + 1 * (y 0).val = 512 * t.val + (y 0).val; rw [(idx1_2 t).1]; omega
  | ⟨1, _⟩ => show win1_2.index t 1 * 2048 + 1 * (y 1).val = (y 1).val; rw [(idx1_2 t).2]; omega

/-! ## The accumulators are the running block sums -/

/-- After grid point n the two accumulators hold the n + 1 block products added one after another onto zero. -/
theorem outsAt1_acc (c : Dev nD) : ∀ (n : ℕ) (hn : n < cfg1.N),
    (outsAt1 V c n hn).2.1 = (acc (V c main_arg1 : Vec F S128x8192 .f32) (V c main_arg5 : Vec F S8192x2048 .f32) (V c main_arg6 : Vec F S8192x2048 .f32) n).1 ∧ (outsAt1 V c n hn).2.2 = (acc (V c main_arg1 : Vec F S128x8192 .f32) (V c main_arg5 : Vec F S8192x2048 .f32) (V c main_arg6 : Vec F S8192x2048 .f32) n).2
  | 0, hn => by
    rw [outsAt1_A V c ⟨0, hn⟩ rfl]
    dsimp only
    rw [sout1_A_0_eq, sout1_A_1_eq, iblk1_0_eq, iblk1_1_eq, iblk1_2_eq]
    exact ⟨rfl, rfl⟩
  | n + 1, hn => by
    have hN : cfg1.N = 16 := N_1
    have hlt : n + 1 < 16 := by omega
    have ih := outsAt1_acc c n (Nat.lt_of_succ_lt hn)
    have hstep : acc (V c main_arg1 : Vec F S128x8192 .f32) (V c main_arg5 : Vec F S8192x2048 .f32) (V c main_arg6 : Vec F S8192x2048 .f32) (n + 1) = (k0_pay4 (xblk (V c main_arg1 : Vec F S128x8192 .f32) ⟨n + 1, hlt⟩) (wblk (V c main_arg5 : Vec F S8192x2048 .f32) ⟨n + 1, hlt⟩) (acc (V c main_arg1 : Vec F S128x8192 .f32) (V c main_arg5 : Vec F S8192x2048 .f32) (V c main_arg6 : Vec F S8192x2048 .f32) n).1, k0_pay5 (xblk (V c main_arg1 : Vec F S128x8192 .f32) ⟨n + 1, hlt⟩) (wblk (V c main_arg6 : Vec F S8192x2048 .f32) ⟨n + 1, hlt⟩) (acc (V c main_arg1 : Vec F S128x8192 .f32) (V c main_arg5 : Vec F S8192x2048 .f32) (V c main_arg6 : Vec F S8192x2048 .f32) n).2) := dif_pos hlt
    rw [hstep]
    by_cases h1 : n + 1 = 15
    · rw [outsAt1_C V c ⟨n + 1, hn⟩ (Nat.succ_ne_zero n) h1]
      dsimp only
      rw [sout1_C_0_eq, sout1_C_1_eq, iblk1_0_eq, iblk1_1_eq, iblk1_2_eq]
      refine ⟨?_, ?_⟩
      · show k1_pay4 _ _ (outsAt1 V c n _).2.1 = _
        rw [ih.1]; try rfl
      · show k1_pay5 _ _ (outsAt1 V c n _).2.2 = _
        rw [ih.2]; try rfl
    · rw [outsAt1_B V c ⟨n + 1, hn⟩ (Nat.succ_ne_zero n) h1]
      dsimp only
      rw [sout1_B_0_eq, sout1_B_1_eq, iblk1_0_eq, iblk1_1_eq, iblk1_2_eq]
      refine ⟨?_, ?_⟩
      · show k1_pay4 _ _ (outsAt1 V c n _).2.1 = _
        rw [ih.1]; try rfl
      · show k1_pay5 _ _ (outsAt1 V c n _).2.2 = _
        rw [ih.2]; try rfl

/-- After the last grid point the output's staging buffer holds the branch's result. -/
theorem out1_last (c : Dev nD) (h15 : 15 < cfg1.N) : (outsAt1 V c 15 h15).1 = branchOut (V c main_arg1 : Vec F S128x8192 .f32) (V c main_arg5 : Vec F S8192x2048 .f32) (V c main_arg6 : Vec F S8192x2048 .f32) := by
  have hacc := outsAt1_acc V c 15 h15
  have e : (outsAt1 V c 15 h15).1 = k1_pay6 (outsAt1 V c 15 h15).2.2 (outsAt1 V c 15 h15).2.1 := by
    rw [outsAt1_C V c ⟨15, h15⟩ (show (15 : ℕ) ≠ 0 by decide) rfl]
    dsimp only
    rw [out1_C_3_eq, sout1_C_0_eq, sout1_C_1_eq]
  rw [e, hacc.1, hacc.2]; rfl

/-! ## The output array after the region -/

/-- The one write-back, at the last point, writes the branch's result: the block is the whole array. -/
theorem flushed1_eq (c : Dev nD) (t : Fin cfg1.N) (hf : (cfg1.win 3).flush t = true) :
    (dat1 V c).flushed 3 t = ((cfg1.win 3).blk t).view.read (Elt F) (branchOut (V c main_arg1 : Vec F S128x8192 .f32) (V c main_arg5 : Vec F S8192x2048 .f32) (V c main_arg6 : Vec F S8192x2048 .f32) : Buf (Elt F) ((c : Thread nD τ).loc main_v1)) := by
  have hN : cfg1.N = 16 := N_1
  have h15 : t.val = 15 := by have := (flush1_3 t).mp hf; have := t.isLt; omega
  obtain rfl : t = t1_15 := Fin.ext h15
  show (cfg1.win 3).cut (grid1.coords t1_15) ((dat1 V c).after 3 t1_15) = _
  rw [after1_3]
  refine (congrArg ((cfg1.win 3).cut (grid1.coords t1_15)) (out1_last V c t1_15.isLt)).trans ?_
  have hz' : (fun a => win1_3.index t1_15 a * main_v1.ty.shape.size a) = fun _ => 0 := funext fun a => by fin_cases a <;> decide
  exact (Memref.read_access_unit_zero (Elt F) main_v1 hz' (fun a => by rw [congrFun hz' a]; simp) (branchOut (V c main_arg1 : Vec F S128x8192 .f32) (V c main_arg5 : Vec F S8192x2048 .f32) (V c main_arg6 : Vec F S8192x2048 .f32))).symm

/-- So the output array ends holding the branch's result. -/
theorem final1 (c : Dev nD) : (dat1 V c).arrAt 3 cfg1.N = (branchOut (V c main_arg1 : Vec F S128x8192 .f32) (V c main_arg5 : Vec F S8192x2048 .f32) (V c main_arg6 : Vec F S8192x2048 .f32) : Buf (Elt F) ((c : Thread nD τ).loc main_v1)) :=
  (dat1 V c).arrAt_eq_of_cover 3 _ (flushed1_eq V c) fun i =>
    ⟨t1_15, (flush1_3 t1_15).mpr rfl, by
      show i ∈ ((View.whole main_v1).slice (win1_3.rect t1_15)).set
      rw [View.set_slice_whole, Rect.mem_set_unit]
      intro a
      have h0 : (i 0 : Nat) < 128 := (i 0).isLt
      have h1 : (i 1 : Nat) < 2048 := (i 1).isLt
      match a with
      | ⟨0, _⟩ => show win1_3.index t1_15 0 * win1_3.size 0 ≤ (i 0 : Nat) ∧ (i 0 : Nat) < win1_3.index t1_15 0 * win1_3.size 0 + win1_3.xsize (grid1.coords t1_15) 0
                  rw [show win1_3.index t1_15 0 * win1_3.size 0 = 0 from by decide +kernel, show win1_3.xsize (grid1.coords t1_15) 0 = 128 from by decide +kernel]; omega
      | ⟨1, _⟩ => show win1_3.index t1_15 1 * win1_3.size 1 ≤ (i 1 : Nat) ∧ (i 1 : Nat) < win1_3.index t1_15 1 * win1_3.size 1 + win1_3.xsize (grid1.coords t1_15) 1
                  rw [show win1_3.index t1_15 1 * win1_3.size 1 = 0 from by decide +kernel, show win1_3.xsize (grid1.coords t1_15) 1 = 2048 from by decide +kernel]; omega⟩

end Region

end Cert.KernelIdeal.Hand

end
-- ==== Proof.KIValue2.lean ====
/-
  Branch 2's value, for any float instance: what each case's stores leave is the body's arithmetic on the blocks and
  the accumulators it loaded; a window's block at grid point t is columns (of the activation) or rows (of a weight)
  512·t … 512·t + 511 of its array; so the accumulators after point n are the running block sums, the staging buffer
  after the last point is the scaled result, and the one write-back — at the last point, of the whole array — leaves the
  output array holding it.
-/
import proofs.«181729_j86371792323176_1_alg».proof.Proof.KIRegion2
import proofs.«181729_j86371792323176_1_alg».proof.Proof.BranchSpec
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Branch

theorem hz2 : (![0, 0] : Fin 2 → Nat) = fun _ => 0 := funext fun a => by fin_cases a <;> rfl

/-! ## What each case's stores leave, as the body's arithmetic -/

theorem sout2_A_0_eq (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond2_0 i) (hc1 : ¬cond2_1 i) (x0 : Vec F S128x512 .f32) (x1 : Vec F S512x2048 .f32) (x2 : Vec F S512x2048 .f32) :
    sout2_A_0 c i arg1 harg1 arg2 harg2 arg3 harg3 arg4 harg4 arg5 harg5 arg6 harg6 hc0 hc1 x0 x1 x2 = k2_pay4 x0 x1 k2_pay1 := by
  unfold sout2_A_0
  rw [View.read_writes_eq_canon _ _ _ (scover2_A_0 c i arg1 harg1 arg2 harg2 arg3 harg3 arg4 harg4 arg5 harg5 arg6 harg6 hc0 hc1 x0 x1 x2)]
  unfold kernelRun2_A
  dsimp only
  sl_unfold_words
  rw [View.canon_cons_unit_zero (S := S128x2048) hz2, View.readCov_unit_zero (S := S128x2048) _ hz2]
  simp only [View.readAt_eq_ld, harg1.read_unread, harg2.read_unread, View.ld_unit_zero (S := S128x512) hz2, View.ld_unit_zero (S := S512x2048) hz2, View.ld_unit_zero (S := S128x2048) hz2]

theorem sout2_A_1_eq (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : cond2_0 i) (hc1 : ¬cond2_1 i) (x0 : Vec F S128x512 .f32) (x1 : Vec F S512x2048 .f32) (x2 : Vec F S512x2048 .f32) :
    sout2_A_1 c i arg1 harg1 arg2 harg2 arg3 harg3 arg4 harg4 arg5 harg5 arg6 harg6 hc0 hc1 x0 x1 x2 = k2_pay5 x0 x2 k2_pay2 := by
  unfold sout2_A_1
  rw [View.read_writes_eq_canon _ _ _ (scover2_A_1 c i arg1 harg1 arg2 harg2 arg3 harg3 arg4 harg4 arg5 harg5 arg6 harg6 hc0 hc1 x0 x1 x2)]
  unfold kernelRun2_A
  dsimp only
  sl_unfold_words
  rw [View.canon_cons_unit_zero (S := S128x2048) hz2, View.readCov_unit_zero (S := S128x2048) _ hz2]
  simp only [View.readAt_eq_ld, harg1.read_unread, harg3.read_unread, View.ld_unit_zero (S := S128x512) hz2, View.ld_unit_zero (S := S512x2048) hz2, View.ld_unit_zero (S := S128x2048) hz2]

theorem sout2_B_0_eq (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : ¬cond2_1 i) (x0 : Vec F S128x512 .f32) (x1 : Vec F S512x2048 .f32) (x2 : Vec F S512x2048 .f32) (xs0 xs1 : Vec F S128x2048 .f32) :
    sout2_B_0 c i arg1 harg1 arg2 harg2 arg3 harg3 arg4 harg4 arg5 harg5 arg6 harg6 hc0 hc1 x0 x1 x2 xs0 xs1 = k2_pay4 x0 x1 xs0 := by
  unfold sout2_B_0
  rw [View.read_writes_eq_canon _ _ _ (scover2_B_0 c i arg1 harg1 arg2 harg2 arg3 harg3 arg4 harg4 arg5 harg5 arg6 harg6 hc0 hc1 x0 x1 x2 xs0 xs1)]
  unfold kernelRun2_B
  dsimp only
  sl_unfold_words
  rw [View.canon_unit_zero hz2]
  simp only [View.readAt_eq_ld, harg1.read_unread, harg2.read_unread, harg5.read_unread, View.ld_unit_zero (S := S128x512) hz2, View.ld_unit_zero (S := S512x2048) hz2, View.ld_unit_zero (S := S128x2048) hz2]

theorem sout2_B_1_eq (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : ¬cond2_1 i) (x0 : Vec F S128x512 .f32) (x1 : Vec F S512x2048 .f32) (x2 : Vec F S512x2048 .f32) (xs0 xs1 : Vec F S128x2048 .f32) :
    sout2_B_1 c i arg1 harg1 arg2 harg2 arg3 harg3 arg4 harg4 arg5 harg5 arg6 harg6 hc0 hc1 x0 x1 x2 xs0 xs1 = k2_pay5 x0 x2 xs1 := by
  unfold sout2_B_1
  rw [View.read_writes_eq_canon _ _ _ (scover2_B_1 c i arg1 harg1 arg2 harg2 arg3 harg3 arg4 harg4 arg5 harg5 arg6 harg6 hc0 hc1 x0 x1 x2 xs0 xs1)]
  unfold kernelRun2_B
  dsimp only
  sl_unfold_words
  rw [View.canon_unit_zero hz2]
  simp only [View.readAt_eq_ld, harg1.read_unread, harg3.read_unread, harg6.read_unread, View.ld_unit_zero (S := S128x512) hz2, View.ld_unit_zero (S := S512x2048) hz2, View.ld_unit_zero (S := S128x2048) hz2]

theorem sout2_C_0_eq (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) :
    sout2_C_0 c i arg1 harg1 arg2 harg2 arg3 harg3 arg4 harg4 arg5 harg5 arg6 harg6 hc0 hc1 x0 x1 x2 xs0 xs1 = k2_pay4 x0 x1 xs0 := by
  unfold sout2_C_0
  rw [View.read_writes_eq_canon _ _ _ (scover2_C_0 c i arg1 harg1 arg2 harg2 arg3 harg3 arg4 harg4 arg5 harg5 arg6 harg6 hc0 hc1 x0 x1 x2 xs0 xs1)]
  unfold kernelRun2_C
  dsimp only
  sl_unfold_words
  rw [View.canon_unit_zero hz2]
  simp only [View.readAt_eq_ld, harg1.read_unread, harg2.read_unread, harg5.read_unread, View.ld_unit_zero (S := S128x512) hz2, View.ld_unit_zero (S := S512x2048) hz2, View.ld_unit_zero (S := S128x2048) hz2]

theorem sout2_C_1_eq (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) :
    sout2_C_1 c i arg1 harg1 arg2 harg2 arg3 harg3 arg4 harg4 arg5 harg5 arg6 harg6 hc0 hc1 x0 x1 x2 xs0 xs1 = k2_pay5 x0 x2 xs1 := by
  unfold sout2_C_1
  rw [View.read_writes_eq_canon _ _ _ (scover2_C_1 c i arg1 harg1 arg2 harg2 arg3 harg3 arg4 harg4 arg5 harg5 arg6 harg6 hc0 hc1 x0 x1 x2 xs0 xs1)]
  unfold kernelRun2_C
  dsimp only
  sl_unfold_words
  rw [View.canon_unit_zero hz2]
  simp only [View.readAt_eq_ld, harg1.read_unread, harg3.read_unread, harg6.read_unread, View.ld_unit_zero (S := S128x512) hz2, View.ld_unit_zero (S := S512x2048) hz2, View.ld_unit_zero (S := S128x2048) hz2]

theorem out2_C_3_eq (c : Dev nD) (i : grid2.Coords) (arg1 : Memref sig .tc .vmem S128x512 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (hc0 : ¬cond2_0 i) (hc1 : cond2_1 i) (x0 : Vec F S128x512 .f32) (x1 : Vec F S512x2048 .f32) (x2 : Vec F S512x2048 .f32) (xs0 xs1 : Vec F S128x2048 .f32) :
    out2_C_3 c i arg1 harg1 arg2 harg2 arg3 harg3 arg4 harg4 arg5 harg5 arg6 harg6 hc0 hc1 x0 x1 x2 xs0 xs1 = k2_pay6 (k2_pay5 x0 x2 xs1) (k2_pay4 x0 x1 xs0) := by
  unfold out2_C_3
  rw [View.read_writes_eq_canon _ _ _ (cover2_C_3 c i arg1 harg1 arg2 harg2 arg3 harg3 arg4 harg4 arg5 harg5 arg6 harg6 hc0 hc1 x0 x1 x2 xs0 xs1)]
  unfold kernelRun2_C
  dsimp only
  sl_unfold_words
  rw [View.canon_unit_zero hz2, View.readCov_unit_zero (S := S128x2048) _ hz2, View.readCov_unit_zero (S := S128x2048) _ hz2]
  simp only [View.readAt_eq_ld, harg1.read_unread, harg2.read_unread, harg3.read_unread, harg5.read_unread, harg6.read_unread, View.ld_unit_zero (S := S128x512) hz2, View.ld_unit_zero (S := S512x2048) hz2, View.ld_unit_zero (S := S128x2048) hz2]

section Region
variable (V : (c : Dev nD) → (b : Ref sig .tc) → Buf (Elt F) ((c : Thread nD τ).loc b))

/-! ## The windows' blocks are blocks of the arrays -/

/-- The block index of each input window at grid point t: the activation's window moves along the columns, a weight's
    along the rows. -/
theorem idx2_0 : ∀ t : Fin cfg2.N, win2_0.index t 0 = 0 ∧ win2_0.index t 1 = t.val :=
  (by decide +kernel : ∀ t : Fin grid2.N, win2_0.index t 0 = 0 ∧ win2_0.index t 1 = t.val)
theorem idx2_1 : ∀ t : Fin cfg2.N, win2_1.index t 0 = t.val ∧ win2_1.index t 1 = 0 :=
  (by decide +kernel : ∀ t : Fin grid2.N, win2_1.index t 0 = t.val ∧ win2_1.index t 1 = 0)
theorem idx2_2 : ∀ t : Fin cfg2.N, win2_2.index t 0 = t.val ∧ win2_2.index t 1 = 0 :=
  (by decide +kernel : ∀ t : Fin grid2.N, win2_2.index t 0 = t.val ∧ win2_2.index t 1 = 0)

theorem iblk2_0_eq (c : Dev nD) (t : Fin cfg2.N) : iblk2 V c 0 t = xblk (V c main_arg2 : Vec F S128x8192 .f32) ⟨t.val, lt_of_lt_of_eq t.isLt N_2⟩ := by
  funext y
  unfold iblk2 xblk
  rw [View.read_apply]
  show V c main_arg2 (((cfg2.win 0).blk t).view.emb y) = V c main_arg2 _
  refine congrArg _ (funext fun a => Fin.ext ?_)
  match a with
  | ⟨0, _⟩ => show win2_0.index t 0 * 128 + 1 * (y 0).val = (y 0).val; rw [(idx2_0 t).1]; omega
  | ⟨1, _⟩ => show win2_0.index t 1 * 512 + 1 * (y 1).val = 512 * t.val + (y 1).val; rw [(idx2_0 t).2]; omega

theorem iblk2_1_eq (c : Dev nD) (t : Fin cfg2.N) : iblk2 V c 1 t = wblk (V c main_arg7 : Vec F S8192x2048 .f32) ⟨t.val, lt_of_lt_of_eq t.isLt N_2⟩ := by
  funext y
  unfold iblk2 wblk
  rw [View.read_apply]
  show V c main_arg7 (((cfg2.win 1).blk t).view.emb y) = V c main_arg7 _
  refine congrArg _ (funext fun a => Fin.ext ?_)
  match a with
  | ⟨0, _⟩ => show win2_1.index t 0 * 512 + 1 * (y 0).val = 512 * t.val + (y 0).val; rw [(idx2_1 t).1]; omega
  | ⟨1, _⟩ => show win2_1.index t 1 * 2048 + 1 * (y 1).val = (y 1).val; rw [(idx2_1 t).2]; omega

theorem iblk2_2_eq (c : Dev nD) (t : Fin cfg2.N) : iblk2 V c 2 t = wblk (V c main_arg8 : Vec F S8192x2048 .f32) ⟨t.val, lt_of_lt_of_eq t.isLt N_2⟩ := by
  funext y
  unfold iblk2 wblk
  rw [View.read_apply]
  show V c main_arg8 (((cfg2.win 2).blk t).view.emb y) = V c main_arg8 _
  refine congrArg _ (funext fun a => Fin.ext ?_)
  match a with
  | ⟨0, _⟩ => show win2_2.index t 0 * 512 + 1 * (y 0).val = 512 * t.val + (y 0).val; rw [(idx2_2 t).1]; omega
  | ⟨1, _⟩ => show win2_2.index t 1 * 2048 + 1 * (y 1).val = (y 1).val; rw [(idx2_2 t).2]; omega

/-! ## The accumulators are the running block sums -/

/-- After grid point n the two accumulators hold the n + 1 block products added one after another onto zero. -/
theorem outsAt2_acc (c : Dev nD) : ∀ (n : ℕ) (hn : n < cfg2.N),
    (outsAt2 V c n hn).2.1 = (acc (V c main_arg2 : Vec F S128x8192 .f32) (V c main_arg7 : Vec F S8192x2048 .f32) (V c main_arg8 : Vec F S8192x2048 .f32) n).1 ∧ (outsAt2 V c n hn).2.2 = (acc (V c main_arg2 : Vec F S128x8192 .f32) (V c main_arg7 : Vec F S8192x2048 .f32) (V c main_arg8 : Vec F S8192x2048 .f32) n).2
  | 0, hn => by
    rw [outsAt2_A V c ⟨0, hn⟩ rfl]
    dsimp only
    rw [sout2_A_0_eq, sout2_A_1_eq, iblk2_0_eq, iblk2_1_eq, iblk2_2_eq]
    exact ⟨rfl, rfl⟩
  | n + 1, hn => by
    have hN : cfg2.N = 16 := N_2
    have hlt : n + 1 < 16 := by omega
    have ih := outsAt2_acc c n (Nat.lt_of_succ_lt hn)
    have hstep : acc (V c main_arg2 : Vec F S128x8192 .f32) (V c main_arg7 : Vec F S8192x2048 .f32) (V c main_arg8 : Vec F S8192x2048 .f32) (n + 1) = (k0_pay4 (xblk (V c main_arg2 : Vec F S128x8192 .f32) ⟨n + 1, hlt⟩) (wblk (V c main_arg7 : Vec F S8192x2048 .f32) ⟨n + 1, hlt⟩) (acc (V c main_arg2 : Vec F S128x8192 .f32) (V c main_arg7 : Vec F S8192x2048 .f32) (V c main_arg8 : Vec F S8192x2048 .f32) n).1, k0_pay5 (xblk (V c main_arg2 : Vec F S128x8192 .f32) ⟨n + 1, hlt⟩) (wblk (V c main_arg8 : Vec F S8192x2048 .f32) ⟨n + 1, hlt⟩) (acc (V c main_arg2 : Vec F S128x8192 .f32) (V c main_arg7 : Vec F S8192x2048 .f32) (V c main_arg8 : Vec F S8192x2048 .f32) n).2) := dif_pos hlt
    rw [hstep]
    by_cases h1 : n + 1 = 15
    · rw [outsAt2_C V c ⟨n + 1, hn⟩ (Nat.succ_ne_zero n) h1]
      dsimp only
      rw [sout2_C_0_eq, sout2_C_1_eq, iblk2_0_eq, iblk2_1_eq, iblk2_2_eq]
      refine ⟨?_, ?_⟩
      · show k2_pay4 _ _ (outsAt2 V c n _).2.1 = _
        rw [ih.1]; try rfl
      · show k2_pay5 _ _ (outsAt2 V c n _).2.2 = _
        rw [ih.2]; try rfl
    · rw [outsAt2_B V c ⟨n + 1, hn⟩ (Nat.succ_ne_zero n) h1]
      dsimp only
      rw [sout2_B_0_eq, sout2_B_1_eq, iblk2_0_eq, iblk2_1_eq, iblk2_2_eq]
      refine ⟨?_, ?_⟩
      · show k2_pay4 _ _ (outsAt2 V c n _).2.1 = _
        rw [ih.1]; try rfl
      · show k2_pay5 _ _ (outsAt2 V c n _).2.2 = _
        rw [ih.2]; try rfl

/-- After the last grid point the output's staging buffer holds the branch's result. -/
theorem out2_last (c : Dev nD) (h15 : 15 < cfg2.N) : (outsAt2 V c 15 h15).1 = branchOut (V c main_arg2 : Vec F S128x8192 .f32) (V c main_arg7 : Vec F S8192x2048 .f32) (V c main_arg8 : Vec F S8192x2048 .f32) := by
  have hacc := outsAt2_acc V c 15 h15
  have e : (outsAt2 V c 15 h15).1 = k2_pay6 (outsAt2 V c 15 h15).2.2 (outsAt2 V c 15 h15).2.1 := by
    rw [outsAt2_C V c ⟨15, h15⟩ (show (15 : ℕ) ≠ 0 by decide) rfl]
    dsimp only
    rw [out2_C_3_eq, sout2_C_0_eq, sout2_C_1_eq]
  rw [e, hacc.1, hacc.2]; rfl

/-! ## The output array after the region -/

/-- The one write-back, at the last point, writes the branch's result: the block is the whole array. -/
theorem flushed2_eq (c : Dev nD) (t : Fin cfg2.N) (hf : (cfg2.win 3).flush t = true) :
    (dat2 V c).flushed 3 t = ((cfg2.win 3).blk t).view.read (Elt F) (branchOut (V c main_arg2 : Vec F S128x8192 .f32) (V c main_arg7 : Vec F S8192x2048 .f32) (V c main_arg8 : Vec F S8192x2048 .f32) : Buf (Elt F) ((c : Thread nD τ).loc main_v2)) := by
  have hN : cfg2.N = 16 := N_2
  have h15 : t.val = 15 := by have := (flush2_3 t).mp hf; have := t.isLt; omega
  obtain rfl : t = t2_15 := Fin.ext h15
  show (cfg2.win 3).cut (grid2.coords t2_15) ((dat2 V c).after 3 t2_15) = _
  rw [after2_3]
  refine (congrArg ((cfg2.win 3).cut (grid2.coords t2_15)) (out2_last V c t2_15.isLt)).trans ?_
  have hz' : (fun a => win2_3.index t2_15 a * main_v2.ty.shape.size a) = fun _ => 0 := funext fun a => by fin_cases a <;> decide
  exact (Memref.read_access_unit_zero (Elt F) main_v2 hz' (fun a => by rw [congrFun hz' a]; simp) (branchOut (V c main_arg2 : Vec F S128x8192 .f32) (V c main_arg7 : Vec F S8192x2048 .f32) (V c main_arg8 : Vec F S8192x2048 .f32))).symm

/-- So the output array ends holding the branch's result. -/
theorem final2 (c : Dev nD) : (dat2 V c).arrAt 3 cfg2.N = (branchOut (V c main_arg2 : Vec F S128x8192 .f32) (V c main_arg7 : Vec F S8192x2048 .f32) (V c main_arg8 : Vec F S8192x2048 .f32) : Buf (Elt F) ((c : Thread nD τ).loc main_v2)) :=
  (dat2 V c).arrAt_eq_of_cover 3 _ (flushed2_eq V c) fun i =>
    ⟨t2_15, (flush2_3 t2_15).mpr rfl, by
      show i ∈ ((View.whole main_v2).slice (win2_3.rect t2_15)).set
      rw [View.set_slice_whole, Rect.mem_set_unit]
      intro a
      have h0 : (i 0 : Nat) < 128 := (i 0).isLt
      have h1 : (i 1 : Nat) < 2048 := (i 1).isLt
      match a with
      | ⟨0, _⟩ => show win2_3.index t2_15 0 * win2_3.size 0 ≤ (i 0 : Nat) ∧ (i 0 : Nat) < win2_3.index t2_15 0 * win2_3.size 0 + win2_3.xsize (grid2.coords t2_15) 0
                  rw [show win2_3.index t2_15 0 * win2_3.size 0 = 0 from by decide +kernel, show win2_3.xsize (grid2.coords t2_15) 0 = 128 from by decide +kernel]; omega
      | ⟨1, _⟩ => show win2_3.index t2_15 1 * win2_3.size 1 ≤ (i 1 : Nat) ∧ (i 1 : Nat) < win2_3.index t2_15 1 * win2_3.size 1 + win2_3.xsize (grid2.coords t2_15) 1
                  rw [show win2_3.index t2_15 1 * win2_3.size 1 = 0 from by decide +kernel, show win2_3.xsize (grid2.coords t2_15) 1 = 2048 from by decide +kernel]; omega⟩

end Region

end Cert.KernelIdeal.Hand

end
-- ==== Proof.TailValue.lean ====
/-
  What both programs do with the three branch outputs once they exist: the three 128×2048 arrays are laid side
  by side into a 128×6144 array, regrouped as 128×2048×3 and averaged over each group of three, the averages
  multiplied by the 2048×18 classifier weight, the bias row added, and a softmax taken along each row of 18
  (subtract the row maximum, exponentiate, divide by the row's sum). The chain is written once, as one function
  of the three arrays, the weight and the bias; nothing downstream ever opens it.
-/
import proofs.«181729_j86371792323176_1_alg».proof.Proof.Gen.KernelIdeal.Launch
import Idealize.ShloMosaic.Lib.StableHlo.Run
import Idealize.ShloMosaic.PureOps.Ideal.Laws

noncomputable section

namespace Cert.TailValue

open Idealize.ShloMosaic Idealize.ShloMosaic.TcCoe Idealize.ShloMosaic.StableHlo Cert.KernelIdeal Cert.KernelIdeal.Gen

/-- Pooling, classifier and softmax applied to three branch outputs, operation by operation in the order both
    programs print them. -/
def tail (b0 b1 b2 : Vec Ideal S128x2048 .f32) (wc : Vec Ideal S2048x18 .f32) (bc : Vec Ideal S18 .f32) :
    Vec Ideal S128x18 .f32 :=
  -- the three outputs side by side, then every three neighbouring columns as one group
  have joined : FVec Ideal S128x6144 .f32 :=
    concatenate S128x6144 1 [⟨S128x2048, b0⟩, ⟨S128x2048, b1⟩, ⟨S128x2048, b2⟩]
      concatenates_S128x2048_S128x2048_S128x2048_S128x6144_d1
  have grouped : FVec Ideal S128x2048x3 .f32 := shapeCast S128x2048x3 joined shapeCasts_S128x6144_S128x2048x3
  -- the mean of each group: its sum divided by 3
  have zero : FVec Ideal S_ .f32 := constant S_ .f32 0x00000000#32
  have sums : FVec Ideal S128x2048 .f32 := Host.reduceAdd grouped zero reducesTo_S128x2048x3_S128x2048_d2 h_S_
  have three : FVec Ideal S_ .f32 := constant S_ .f32 0x40400000#32
  have threes : FVec Ideal S128x2048 .f32 := broadcastInDim S128x2048 ![] bcast_S_S128x2048 three
  have pooled : FVec Ideal S128x2048 .f32 := Host.divf sums threes
  -- the classifier: pooled · Wc + bc, the bias repeated down the rows
  have scores : FVec Ideal S128x18 .f32 :=
    Host.dotGeneral (φ₂ := .f32) dot_S128x2048_S2048x18_S128x18_1_0_0_1_n_n none pooled wc
  have biasRow : FVec Ideal S1x18 .f32 := broadcastInDim S1x18 ![1] bcast_S18_S1x18_1 bc
  have bias : FVec Ideal S128x18 .f32 := broadcastInDim S128x18 ![0, 1] bcast_S1x18_S128x18_0_1 biasRow
  have logits : FVec Ideal S128x18 .f32 := addf scores bias
  -- the softmax along each row: the row maximum (never below -∞) is subtracted first
  have negInf : FVec Ideal S_ .f32 := constant S_ .f32 0xFF800000#32
  have rowMax : FVec Ideal S128 .f32 := Host.reduce FloatOps.maximumf logits negInf reducesTo_S128x18_S128_d1 h_S_
  have negInf' : FVec Ideal S_ .f32 := constant S_ .f32 0xFF800000#32
  have floor : FVec Ideal S128 .f32 := broadcastInDim S128 ![] bcast_S_S128 negInf'
  have rowMax' : FVec Ideal S128 .f32 := maximumf floor rowMax
  have maxCol : FVec Ideal S128x1 .f32 := broadcastInDim S128x1 ![0] bcast_S128_S128x1_0 rowMax'
  have maxes : FVec Ideal S128x18 .f32 := broadcastInDim S128x18 ![0, 1] bcast_S128x1_S128x18_0_1 maxCol
  have shifted : FVec Ideal S128x18 .f32 := subf logits maxes
  have exps : FVec Ideal S128x18 .f32 := Host.exp shifted
  have zero' : FVec Ideal S_ .f32 := constant S_ .f32 0x00000000#32
  have rowSum : FVec Ideal S128 .f32 := Host.reduceAdd exps zero' reducesTo_S128x18_S128_d1 h_S_
  have sumCol : FVec Ideal S128x1 .f32 := broadcastInDim S128x1 ![0] bcast_S128_S128x1_0 rowSum
  have sumsB : FVec Ideal S128x18 .f32 := broadcastInDim S128x18 ![0, 1] bcast_S128x1_S128x18_0_1 sumCol
  Host.divf exps sumsB

set_option maxRecDepth 8192 in
set_option maxHeartbeats 2000000 in
/-- The kernel program's host operations after its three calls leave, in the result array, exactly this chain
    applied to whatever the three calls' output arrays, the classifier weight and the bias hold. -/
theorem kernel_tail (W : Valuation Cert.KernelIdeal.τ Cert.KernelIdeal.sig (Elt Ideal)) :
    StableHlo.after (hostOps3 (F := Ideal)) W (Proc.devRef .tc main_v22)
      = tail (W (Proc.devRef .tc main_v0)) (W (Proc.devRef .tc main_v1)) (W (Proc.devRef .tc main_v2))
          (W (Proc.devRef .tc main_arg9)) (W (Proc.devRef .tc main_arg10)) := by
  dsimp only [hostOps3]
  after_results_simp
  rfl

end Cert.TailValue

end
-- ==== Proof.KIResult.lean ====
/-
  The idealized kernel's run read as values: when the host operations start, each branch's output array holds that
  branch's result of the launch arguments, and the host operations apply the shared pooling-and-classification tail to
  the three; so the program's result is the tail of the three branch results, and every argument ends as launched.
-/
import proofs.«181729_j86371792323176_1_alg».proof.Proof.KIFrame
import proofs.«181729_j86371792323176_1_alg».proof.Proof.KIValue0
import proofs.«181729_j86371792323176_1_alg».proof.Proof.KIValue1
import proofs.«181729_j86371792323176_1_alg».proof.Proof.KIValue2
import proofs.«181729_j86371792323176_1_alg».proof.Proof.TailValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

open Cert.KernelIdeal.Branch

variable (m : (ℓ : Loc nD τ sig) → Buf (Elt Ideal) ℓ) (ρ : Dev nD → PrngReg)

/-- The result buffer at the return: the shared tail of the three branches' results of the launch arguments. -/
theorem result_eq (c : Dev nD) :
    Wb4 (F := Ideal) m ρ c (Proc.devRef .tc main_v22) = Cert.TailValue.tail (branchOut (m ((c.tc : Thread nD τ).loc main_arg0)) (m ((c.tc : Thread nD τ).loc main_arg3)) (m ((c.tc : Thread nD τ).loc main_arg4))) (branchOut (m ((c.tc : Thread nD τ).loc main_arg1)) (m ((c.tc : Thread nD τ).loc main_arg5)) (m ((c.tc : Thread nD τ).loc main_arg6))) (branchOut (m ((c.tc : Thread nD τ).loc main_arg2)) (m ((c.tc : Thread nD τ).loc main_arg7)) (m ((c.tc : Thread nD τ).loc main_arg8))) (m ((c.tc : Thread nD τ).loc main_arg9)) (m ((c.tc : Thread nD τ).loc main_arg10)) := by
  show StableHlo.after (hostOps3 (F := Ideal)) (Wb3 m ρ c) (Proc.devRef .tc main_v22) = _
  rw [Cert.TailValue.kernel_tail, Wb3_main_v0, Wb3_main_v1, Wb3_main_v2, final0, final1, final2, Wb3_main_arg9, Wb3_main_arg10]
  rw [show Ve1 m ρ c main_arg1 = m ((c.tc : Thread nD τ).loc main_arg1) from Wb1_main_arg1 m ρ c,
    show Ve1 m ρ c main_arg5 = m ((c.tc : Thread nD τ).loc main_arg5) from Wb1_main_arg5 m ρ c,
    show Ve1 m ρ c main_arg6 = m ((c.tc : Thread nD τ).loc main_arg6) from Wb1_main_arg6 m ρ c,
    show Ve2 m ρ c main_arg2 = m ((c.tc : Thread nD τ).loc main_arg2) from Wb2_main_arg2 m ρ c,
    show Ve2 m ρ c main_arg7 = m ((c.tc : Thread nD τ).loc main_arg7) from Wb2_main_arg7 m ρ c,
    show Ve2 m ρ c main_arg8 = m ((c.tc : Thread nD τ).loc main_arg8) from Wb2_main_arg8 m ρ c]

/-- Every weakly fair execution of the idealized kernel's program terminates with the result buffer at that value and
    every argument as launched. -/
theorem kernel_run : θ_run (defs (F := Ideal)) (onTc (τ := τ) (main (F := Ideal))) ⟨m, fun _ => 0, ρ⟩ (fun r => ∀ c : Dev nD,
      r.2.mem ((c.tc : Thread nD τ).loc main_v22) = Cert.TailValue.tail (branchOut (m ((c.tc : Thread nD τ).loc main_arg0)) (m ((c.tc : Thread nD τ).loc main_arg3)) (m ((c.tc : Thread nD τ).loc main_arg4))) (branchOut (m ((c.tc : Thread nD τ).loc main_arg1)) (m ((c.tc : Thread nD τ).loc main_arg5)) (m ((c.tc : Thread nD τ).loc main_arg6))) (branchOut (m ((c.tc : Thread nD τ).loc main_arg2)) (m ((c.tc : Thread nD τ).loc main_arg7)) (m ((c.tc : Thread nD τ).loc main_arg8))) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_ucr main_v22 (by decide))).trans (result_eq m ρ c),
    (h c _ (mem_ucr main_arg0 (by decide))).trans (Wb4_main_arg0 m ρ c),
    (h c _ (mem_ucr main_arg1 (by decide))).trans (Wb4_main_arg1 m ρ c),
    (h c _ (mem_ucr main_arg2 (by decide))).trans (Wb4_main_arg2 m ρ c),
    (h c _ (mem_ucr main_arg3 (by decide))).trans (Wb4_main_arg3 m ρ c),
    (h c _ (mem_ucr main_arg4 (by decide))).trans (Wb4_main_arg4 m ρ c),
    (h c _ (mem_ucr main_arg5 (by decide))).trans (Wb4_main_arg5 m ρ c),
    (h c _ (mem_ucr main_arg6 (by decide))).trans (Wb4_main_arg6 m ρ c),
    (h c _ (mem_ucr main_arg7 (by decide))).trans (Wb4_main_arg7 m ρ c),
    (h c _ (mem_ucr main_arg8 (by decide))).trans (Wb4_main_arg8 m ρ c),
    (h c _ (mem_ucr main_arg9 (by decide))).trans (Wb4_main_arg9 m ρ c),
    (h c _ (mem_ucr main_arg10 (by decide))).trans (Wb4_main_arg10 m ρ c)⟩) (run_all m ρ)

end Cert.KernelIdeal.Hand

end
-- ==== Proof.RefBranch.lean ====
/-
  One branch of the reference, as a function of the branch's activation x (128×8192) and its two weights W_nm and
  W_an (8192×2048 each): the two full products x·W_nm and x·W_an, the mean of each row of x·W_an (its sum over the
  2048 columns divided by 2048), and that mean multiplied along its row of x·W_nm. Read at an entry (p, q) it is

      ((∑_j ∑_k x(p,k)·W_an(k,j)) / 2048) · ∑_k x(p,k)·W_nm(k,q),

  with k over the 8192 contracted coordinates and j over the 2048 columns.
-/
import proofs.«181729_j86371792323176_1_alg».proof.Proof.Gen.ReferenceIdeal.Read

noncomputable section

namespace Cert.RefSide

open Idealize.ShloMosaic Idealize.ShloMosaic.ValueIdx Cert.ReferenceIdeal Cert.ReferenceIdeal.Gen Cert.ReferenceIdeal.Read

/-- The reference's branch: mean over the columns of x·W_an, kept as a column, spread back over the 2048 columns and
    multiplied entry by entry with x·W_nm. -/
def refBranch (x : Vec Ideal S128x8192 .f32) (wnm wan : Vec Ideal S8192x2048 .f32) : Vec Ideal S128x2048 .f32 :=
  mulf
    (broadcastInDim S128x2048 ![0, 1] bcast_S128x1_S128x2048_0_1
      (Host.divf
        (broadcastInDim S128x1 ![0] bcast_S128_S128x1_0
          (Host.reduceAdd
            (Host.dotGeneral (φ₁ := .f32) (φ₂ := .f32) dot_S128x8192_S8192x2048_S128x2048_1_0_0_1_n_n none x wan)
            (constant (F := Ideal) S_ .f32 0x00000000#32) reducesTo_S128x2048_S128_d1 h_S_))
        (broadcastInDim S128x1 ![] bcast_S_S128x1 (constant (F := Ideal) S_ .f32 0x45000000#32))))
    (Host.dotGeneral (φ₁ := .f32) (φ₂ := .f32) dot_S128x8192_S8192x2048_S128x2048_1_0_0_1_n_n none x wnm)

/-- It is the eighth stage of the reference program read operation by operation (the first branch's product of
    the broadcast mean with x·W_nm), taken at any three arrays. -/
theorem refBranch_eq_stage (x : Vec Ideal S128x8192 .f32) (wnm wan : Vec Ideal S8192x2048 .f32) :
    refBranch x wnm wan = val_main_v7 (F := Ideal) x wnm wan := rfl

/-- The row index (p, k) of the activation and the index (k, q) of a weight that the product at (p, q) reads at the
    contracted coordinate k. -/
theorem lidx_ix2 (p : Fin 128) (q : Fin 2048) (k : Fin 8192) : lidx_main_v0 (ix2 p q) k = ix2 p k :=
  funext fun a => Fin.ext (by match a with | ⟨0, _⟩ => rfl | ⟨1, _⟩ => rfl)
theorem ridx_ix2 (p : Fin 128) (q : Fin 2048) (k : Fin 8192) : ridx_main_v0 (ix2 p q) k = ix2 k q :=
  funext fun a => Fin.ext (by match a with | ⟨0, _⟩ => rfl | ⟨1, _⟩ => rfl)
theorem lidx1_ix2 (p : Fin 128) (q : Fin 2048) (k : Fin 8192) : lidx_main_v1 (ix2 p q) k = ix2 p k :=
  funext fun a => Fin.ext (by match a with | ⟨0, _⟩ => rfl | ⟨1, _⟩ => rfl)
theorem ridx1_ix2 (p : Fin 128) (q : Fin 2048) (k : Fin 8192) : ridx_main_v1 (ix2 p q) k = ix2 k q :=
  funext fun a => Fin.ext (by match a with | ⟨0, _⟩ => rfl | ⟨1, _⟩ => rfl)

/-- A full product read at (p, q): the sum over the 8192 contracted coordinates. -/
theorem prodNm_apply (x : Vec Ideal S128x8192 .f32) (w : Vec Ideal S8192x2048 .f32) (p : Fin 128) (q : Fin 2048) :
    val_main_v0 (F := Ideal) x w (ix2 p q) = ∑ k : Fin 8192, x (ix2 p k) * w (ix2 k q) := by
  rw [val_main_v0_apply]
  exact Finset.sum_congr rfl fun k _ => by rw [lidx_ix2, ridx_ix2]
theorem prodAn_apply (x : Vec Ideal S128x8192 .f32) (w : Vec Ideal S8192x2048 .f32) (p : Fin 128) (q : Fin 2048) :
    val_main_v1 (F := Ideal) x w (ix2 p q) = ∑ k : Fin 8192, x (ix2 p k) * w (ix2 k q) := by
  rw [val_main_v1_apply]
  exact Finset.sum_congr rfl fun k _ => by rw [lidx1_ix2, ridx1_ix2]

/-- The mean column read at row p: the sum over all 2048 columns of x·W_an, from the initial value zero, divided by
    2048. -/
theorem meanCol_apply (x : Vec Ideal S128x8192 .f32) (wan : Vec Ideal S8192x2048 .f32) (p : Fin 128) (q : Fin 2048) :
    val_main_v6 (F := Ideal) x wan (ix2 p q)
      = Ideal.div (∑ j : Fin 2048, ∑ k : Fin 8192, x (ix2 p k) * wan (ix2 k j)) (Ideal.ofBits .f32 0x45000000#32) := by
  rw [val_main_v6_apply, val_main_v5_apply, val_main_v3_apply, val_main_v2_apply, val_main_v4_apply,
    val_main_cst_0_apply, val_main_cst_apply]
  show Ideal.div (Ideal.ofBits .f32 0x00000000#32 + _) (Ideal.ofBits .f32 0x45000000#32) = _
  rw [Ideal.ofBits_zero_f32, zero_add]
  refine congrArg (fun s => Ideal.div s _) (Finset.sum_congr rfl fun j _ => ?_)
  have hidx : idx_main_v2 (idx_main_v3 (idx_main_v6 (ix2 p q))) j = ix2 p j :=
    funext fun a => Fin.ext (by match a with | ⟨0, _⟩ => rfl | ⟨1, _⟩ => rfl)
  rw [hidx, prodAn_apply]

/-- The reference's branch at the entry (p, q). -/
theorem refBranch_apply (x : Vec Ideal S128x8192 .f32) (wnm wan : Vec Ideal S8192x2048 .f32) (p : Fin 128) (q : Fin 2048) :
    refBranch x wnm wan (ix2 p q)
      = Ideal.div (∑ j : Fin 2048, ∑ k : Fin 8192, x (ix2 p k) * wan (ix2 k j)) (Ideal.ofBits .f32 0x45000000#32)
          * ∑ k : Fin 8192, x (ix2 p k) * wnm (ix2 k q) := by
  rw [refBranch_eq_stage, val_main_v7_apply, meanCol_apply, prodNm_apply]
  rfl

end Cert.RefSide

end
-- ==== Proof.RefSide.lean ====
/-
  The reference program's run, with its result stated as the shared pooling, classifier and softmax chain applied
  to the three reference branches (each a function of that branch's activation and its two weights), its eleven
  argument arrays left as they were; and the reference's frame, which is the same run with the result dropped.
-/
import proofs.«181729_j86371792323176_1_alg».proof.Proof.Gen.ReferenceIdeal.Read
import proofs.«181729_j86371792323176_1_alg».proof.Proof.Gen.Pre_finite_inputs
import proofs.«181729_j86371792323176_1_alg».proof.Defs
import proofs.«181729_j86371792323176_1_alg».proof.Proof.RefBranch
import proofs.«181729_j86371792323176_1_alg».proof.Proof.TailValue

noncomputable section

namespace Cert.RefSide

open Idealize.ShloMosaic Idealize.ShloMosaic.TcCoe Idealize.SL.Sem Cert.ReferenceIdeal

set_option maxRecDepth 8192 in
/-- The term the reference's run names as its result is the chain applied to the three branches: the program's
    first thirty operations are the three branches, the remaining twenty-five the chain, operation for operation. -/
theorem result_eq (m' : (ℓ : Loc nD τ sig) → Buf (Elt Ideal) ℓ) (c : Dev nD) :
    Cert.ReferenceIdeal.Value.res_main_v43 (F := Ideal) m' c
      = Cert.TailValue.tail
          (refBranch (m' ((c.tc : Thread nD τ).loc main_arg0)) (m' ((c.tc : Thread nD τ).loc main_arg3)) (m' ((c.tc : Thread nD τ).loc main_arg4)))
          (refBranch (m' ((c.tc : Thread nD τ).loc main_arg1)) (m' ((c.tc : Thread nD τ).loc main_arg5)) (m' ((c.tc : Thread nD τ).loc main_arg6)))
          (refBranch (m' ((c.tc : Thread nD τ).loc main_arg2)) (m' ((c.tc : Thread nD τ).loc main_arg7)) (m' ((c.tc : Thread nD τ).loc main_arg8)))
          (m' ((c.tc : Thread nD τ).loc main_arg9)) (m' ((c.tc : Thread nD τ).loc main_arg10)) := by
  unfold Cert.ReferenceIdeal.Value.res_main_v43
  rfl

/-- From any memory with zero counters every weakly fair execution of the reference terminates, its result array
    holding the chain applied to the three branches of the argument arrays, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v43)
        = Cert.TailValue.tail
          (refBranch (m' ((c.tc : Thread nD τ).loc main_arg0)) (m' ((c.tc : Thread nD τ).loc main_arg3)) (m' ((c.tc : Thread nD τ).loc main_arg4)))
          (refBranch (m' ((c.tc : Thread nD τ).loc main_arg1)) (m' ((c.tc : Thread nD τ).loc main_arg5)) (m' ((c.tc : Thread nD τ).loc main_arg6)))
          (refBranch (m' ((c.tc : Thread nD τ).loc main_arg2)) (m' ((c.tc : Thread nD τ).loc main_arg7)) (m' ((c.tc : Thread nD τ).loc main_arg8)))
          (m' ((c.tc : Thread nD τ).loc main_arg9)) (m' ((c.tc : Thread nD τ).loc main_arg10))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)) :=
  (θ_run defs _ _).mono (fun _ h c => ⟨(h c).1.trans (result_eq m' c), (h c).2⟩)
    (Cert.ReferenceIdeal.Value.run (F := Ideal) m' ρ')

/-- The reference runs to the end without a fault and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.RefSide

end
-- ==== Proof.LibKeepdims.lean ====
/-
  A row statistic kept as a column, read at an index.

  A kernel that reduces each row of an [a, b] array to one number and then uses that number on every lane of the row
  (a sum with keepdims, a row norm, a row maximum) writes three layout steps: the lane reduction [a, b] → [a], a
  cast [a] → [a, 1] that keeps the statistic as a column, and a broadcast [a, 1] → [a, b] back over the lanes.
  Each lemma below reads one of these steps at an index written out in coordinates: the column at (i, u) is the
  vector at i; the broadcast at (p, c) is the column at (p, 0); the lane sum at p is the sum over k of the array
  at (p, k). They hold for every extent a and b and every element type (the lane sum: at the exact instance, where a
  float sum is the sum of extended reals).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- An `[a]` vector cast to the column `[a, 1]` reads, at `(i, u)`, the vector at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast over `b` lanes reads, at `(p, c)`, the column at row `p`: the row coordinate is kept (or
    is `0` when there is only one row), the unit axis is read at `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance a float `add` reduction of an `[a, b]` array along its lanes reads, at row `p`, the sum over
    the lane `k` of the array at `(p, k)`: the reduced index with the lane coordinate put back is `(p, k)`. -/
theorem multiReduction_add_lanes {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Cert.Lib.Keepdims

end
-- ==== Proof.BranchPayloads.lean ====
/-
  The arithmetic one grid point of a branch does, read at an entry (p, q) of a 128×2048 array, on the extended reals
  (where rounding to bf16 is the identity and a product into a zero accumulator is the exact sum of products):

    * the arrays the accumulators start from are zero everywhere;
    * one step adds to the accumulator, at (p, q), the sum over the block's 512 contracted coordinates k of
      a(p, k) · b(k, q), for a the 128×512 activation block and b the 512×2048 weight block;
    * the last step multiplies the first accumulator at (p, q) by the mean of row p of the second one: the sum over
      its 2048 columns divided by 2048.
-/
import proofs.«181729_j86371792323176_1_alg».proof.Proof.Gen.KernelIdeal.Skeleton
import proofs.«181729_j86371792323176_1_alg».proof.Proof.LibKeepdims
import Idealize.ShloMosaic.Lib.Pipeline.Value
import Idealize.ShloMosaic.Lib.ValueIdx
import Idealize.ShloMosaic.PureOps.Ideal.Laws

noncomputable section

namespace Cert.BranchValue

open Idealize.ShloMosaic Idealize.ShloMosaic.ValueIdx Cert.KernelIdeal Cert.KernelIdeal.Gen Cert.Lib.Keepdims

/-! ## The zero start -/

/-- The array the first accumulator starts from is zero at every entry. -/
theorem zeroNm_apply (p : Fin 128) (q : Fin 2048) : k0_pay1 (F := Ideal) (ix2 p q) = 0 := by
  have e : k0_pay1 (F := Ideal) = broadcast S128x2048 (Scalar.ofBits (F := Ideal) .f32 0x00000000#32) := by
    unfold k0_pay1; exact shapeCast_self _ _
  rw [e]
  exact Ideal.ofBits_zero_f32

/-- So is the array the second accumulator starts from. -/
theorem zeroAn_apply (p : Fin 128) (q : Fin 2048) : k0_pay2 (F := Ideal) (ix2 p q) = 0 := by
  have e : k0_pay2 (F := Ideal) = broadcast S128x2048 (Scalar.ofBits (F := Ideal) .f32 0x00000000#32) := by
    unfold k0_pay2; exact shapeCast_self _ _
  rw [e]
  exact Ideal.ofBits_zero_f32

/-! ## One block product -/

/-- The coordinates of the two operand entries the block product reads at output entry i and contraction
    index c: row i₀ and the contracted coordinate on the left, the contracted coordinate and column i₁ on the right. -/
theorem lhs_0 (i : S128x2048.Idx) (c : dot_S128x512_S512x2048_S128x2048_1_0_0_1_n_n.contr.Idx) :
    (dot_S128x512_S512x2048_S128x2048_1_0_0_1_n_n.lhsIdx i c 0).val = (i 0).val := by
  unfold DotDims.lhsIdx
  rw [dif_neg (show ¬(0 : Fin S128x512.rank) ∈ dot_S128x512_S512x2048_S128x2048_1_0_0_1_n_n.lhsBatch by decide), dif_pos (show (0 : Fin S128x512.rank) ∈ dot_S128x512_S512x2048_S128x2048_1_0_0_1_n_n.lhsNonContracting by decide)]
  rfl
theorem lhs_1 (i : S128x2048.Idx) (c : dot_S128x512_S512x2048_S128x2048_1_0_0_1_n_n.contr.Idx) :
    (dot_S128x512_S512x2048_S128x2048_1_0_0_1_n_n.lhsIdx i c 1).val = (c ⟨0, by decide⟩).val :=
  dot_S128x512_S512x2048_S128x2048_1_0_0_1_n_n.lhsIdx_val_of_single rfl i c
theorem rhs_0 (i : S128x2048.Idx) (c : dot_S128x512_S512x2048_S128x2048_1_0_0_1_n_n.contr.Idx) :
    (dot_S128x512_S512x2048_S128x2048_1_0_0_1_n_n.rhsIdx i c 0).val = (c ⟨0, by decide⟩).val :=
  dot_S128x512_S512x2048_S128x2048_1_0_0_1_n_n.rhsIdx_val_of_single rfl i c
theorem rhs_1 (i : S128x2048.Idx) (c : dot_S128x512_S512x2048_S128x2048_1_0_0_1_n_n.contr.Idx) :
    (dot_S128x512_S512x2048_S128x2048_1_0_0_1_n_n.rhsIdx i c 1).val = (i 1).val := by
  unfold DotDims.rhsIdx
  rw [dif_neg (show ¬(1 : Fin S512x2048.rank) ∈ dot_S128x512_S512x2048_S128x2048_1_0_0_1_n_n.rhsBatch by decide), dif_pos (show (1 : Fin S512x2048.rank) ∈ dot_S128x512_S512x2048_S128x2048_1_0_0_1_n_n.rhsNonContracting by decide)]
  rfl

/-- A 128×512 by 512×2048 product into the zero accumulator, at (p, q): the sum over the 512 contracted
    coordinates of the products of the entries. -/
theorem blockProd_apply {φ₁ φ₂ : FTy} (a : FVec Ideal S128x512 φ₁) (b : FVec Ideal S512x2048 φ₂) (p : Fin 128) (q : Fin 2048) :
    matmul dot_S128x512_S512x2048_S128x2048_1_0_0_1_n_n none a b (constant S128x2048 .f32 0x00000000#32) (ix2 p q)
      = ∑ k : Fin 512, a (ix2 p k) * b (ix2 k q) := by
  show FloatOps.matmul dot_S128x512_S512x2048_S128x2048_1_0_0_1_n_n none a b (constant S128x2048 .f32 0x00000000#32) (ix2 p q) = _
  rw [Ideal.matmul_constant_zero_apply, ← Equiv.sum_comp (contrEquiv1 dot_S128x512_S512x2048_S128x2048_1_0_0_1_n_n 512 rfl rfl).symm]
  refine Finset.sum_congr rfl fun k _ => ?_
  have hk := contrEquiv1_symm_val dot_S128x512_S512x2048_S128x2048_1_0_0_1_n_n 512 rfl rfl k
  have el : dot_S128x512_S512x2048_S128x2048_1_0_0_1_n_n.lhsIdx (ix2 p q) ((contrEquiv1 dot_S128x512_S512x2048_S128x2048_1_0_0_1_n_n 512 rfl rfl).symm k) = ix2 p k := funext fun ax => Fin.ext (by
    match ax with
    | ⟨0, _⟩ => exact lhs_0 _ _
    | ⟨1, _⟩ => exact (lhs_1 _ _).trans hk)
  have er : dot_S128x512_S512x2048_S128x2048_1_0_0_1_n_n.rhsIdx (ix2 p q) ((contrEquiv1 dot_S128x512_S512x2048_S128x2048_1_0_0_1_n_n 512 rfl rfl).symm k) = ix2 k q := funext fun ax => Fin.ext (by
    match ax with
    | ⟨0, _⟩ => exact (rhs_0 _ _).trans hk
    | ⟨1, _⟩ => exact rhs_1 _ _)
  rw [el, er]

/-! ## One accumulator step -/

/-- The step of the first accumulator: what was there plus the block product. -/
theorem stepNm_apply (a : FVec Ideal S128x512 .f32) (b : FVec Ideal S512x2048 .f32) (c : FVec Ideal S128x2048 .f32)
    (p : Fin 128) (q : Fin 2048) :
    k0_pay4 a b c (ix2 p q) = c (ix2 p q) + ∑ k : Fin 512, a (ix2 p k) * b (ix2 k q) := by
  have e : k0_pay4 (F := Ideal) a b c
      = addf c (matmul dot_S128x512_S512x2048_S128x2048_1_0_0_1_n_n none (truncf .bf16 a bitsLt_bf16_f32) (truncf .bf16 b bitsLt_bf16_f32)
          (constant S128x2048 .f32 0x00000000#32)) := by
    unfold k0_pay4 k0_pay3; exact shapeCast_self _ _
  rw [e, addf_apply, blockProd_apply]
  rfl

/-- The step of the second accumulator is the same arithmetic. -/
theorem stepAn_apply (a : FVec Ideal S128x512 .f32) (b : FVec Ideal S512x2048 .f32) (c : FVec Ideal S128x2048 .f32)
    (p : Fin 128) (q : Fin 2048) :
    k0_pay5 a b c (ix2 p q) = c (ix2 p q) + ∑ k : Fin 512, a (ix2 p k) * b (ix2 k q) := by
  have e : k0_pay5 (F := Ideal) a b c
      = addf c (matmul dot_S128x512_S512x2048_S128x2048_1_0_0_1_n_n none (truncf .bf16 a bitsLt_bf16_f32) (truncf .bf16 b bitsLt_bf16_f32)
          (constant S128x2048 .f32 0x00000000#32)) := by
    unfold k0_pay5 k0_pay3; exact shapeCast_self _ _
  rw [e, addf_apply, blockProd_apply]
  rfl

/-! ## The last step -/

/-- The sum along row p of a 128×2048 array, from the zero word. -/
theorem rowSum_apply (an : FVec Ideal S128x2048 .f32) (hφ : FKind.Formats .f32)
    (hacc : (0x00000000#32 : BitVec 32) = 0x00000000#32) (p : Fin 128) :
    multiReduction .add [1] S128 an 0x00000000#32 reduces_S128x2048_S128 hφ hacc (ix1 p) = ∑ j : Fin 2048, an (ix2 p j) :=
  multiReduction_add_lanes an 0x00000000#32 reduces_S128x2048_S128 hφ hacc p

/-- What the branch writes out, at (p, q): the mean of row p of the second accumulator times the first
    accumulator at (p, q). -/
theorem out_apply (an nm : FVec Ideal S128x2048 .f32) (p : Fin 128) (q : Fin 2048) :
    k0_pay6 (F := Ideal) an nm (ix2 p q)
      = Ideal.div (∑ j : Fin 2048, an (ix2 p j)) (Ideal.ofBits .f32 0x45000000#32) * nm (ix2 p q) := by
  have e : k0_pay6 (F := Ideal) an nm
      = mulf (broadcastTo S128x2048
          (divf (shapeCast S128x1 (multiReduction .add [1] S128 an 0x00000000#32 reduces_S128x2048_S128 (.inl rfl) rfl)
              shapeCasts_S128_S128x1)
            (broadcast S128x1 (Scalar.ofBits (F := Ideal) .f32 0x45000000#32)))
          broadcasts_S128x1_S128x2048) nm := rfl
  rw [e, mulf_apply, broadcastTo_a1_ab_apply, divf_apply, shapeCast_a_a1_apply]
  refine congrArg (fun s => Ideal.div s _ * _) ?_
  exact rowSum_apply an _ _ p

end Cert.BranchValue

end
-- ==== Proof.BranchSums.lean ====
/-
  Why a branch of the kernel computes what a branch of the reference computes.

  Fix an entry (p, q). The kernel's first accumulator starts at zero and, at grid point t, gains the partial sum

      ∑_{k < 512} x(p, 512·t + k) · W(512·t + k, q)

  of the 512 products whose contracted coordinate lies in block t. So after grid point n it holds the sum of the
  partial sums of blocks 0 … n, and after the sixteenth point the sum of all sixteen. The coordinates
  512·t + k, for t < 16 and k < 512, are each of the 8192 contracted coordinates exactly once, and addition of
  extended reals is associative and commutative, so the sixteen partial sums add up to the full sum
  ∑_{K < 8192} x(p, K) · W(K, q) — the entry of the product x·W that the reference computes in one go. The same
  holds for the second accumulator and W_an, and the last step (row mean of the second accumulator times the
  first) is then the reference's branch entry for entry. No finiteness is used.
-/
import proofs.«181729_j86371792323176_1_alg».proof.Proof.BranchSpec
import proofs.«181729_j86371792323176_1_alg».proof.Proof.BranchPayloads
import proofs.«181729_j86371792323176_1_alg».proof.Proof.RefBranch

noncomputable section

namespace Cert.BranchValue

open Idealize.ShloMosaic Idealize.ShloMosaic.ValueIdx Cert.KernelIdeal Cert.KernelIdeal.Gen Cert.KernelIdeal.Branch

/-! ## Sixteen blocks of 512 make 8192 -/

/-- A sum over 8192 coordinates taken block by block: block t holds the coordinates 512·t + k, k < 512. Each
    coordinate K is 512·(K / 512) + K % 512 for exactly one pair, and the order of a finite sum in a commutative
    monoid does not matter. -/
theorem sum_sixteen_blocks {M : Type*} [AddCommMonoid M] (g : Fin 8192 → M) :
    ∑ t : Fin 16, ∑ k : Fin 512, g ⟨512 * t.val + k.val, by have := t.isLt; have := k.isLt; omega⟩ = ∑ K : Fin 8192, g K := by
  have h := Equiv.sum_comp (finProdFinEquiv (m := 16) (n := 512)) g
  refine Eq.trans ?_ h
  rw [Fintype.sum_prod_type]
  refine Finset.sum_congr rfl fun t _ => Finset.sum_congr rfl fun k _ => congrArg g (Fin.ext ?_)
  show 512 * t.val + k.val = k.val + 512 * t.val
  omega

/-! ## The blocks of the arguments at an entry -/

/-- Entry (p, k) of the activation block of grid point t is entry (p, 512·t + k) of the activation. -/
theorem xblk_apply (x : Vec Ideal S128x8192 .f32) (t : Fin 16) (p : Fin 128) (k : Fin 512) :
    xblk x t (ix2 p k) = x (ix2 p ⟨512 * t.val + k.val, by have := t.isLt; have := k.isLt; omega⟩) := rfl

/-- Entry (k, q) of the weight block of grid point t is entry (512·t + k, q) of the weight. -/
theorem wblk_apply (w : Vec Ideal S8192x2048 .f32) (t : Fin 16) (k : Fin 512) (q : Fin 2048) :
    wblk w t (ix2 k q) = w (ix2 ⟨512 * t.val + k.val, by have := t.isLt; have := k.isLt; omega⟩ q) := rfl

/-- What block t contributes to entry (p, q) of the product x·W: the partial sum over the block's 512 contracted
    coordinates (and nothing for a t that is not a grid point). -/
def blockTerm (x : Vec Ideal S128x8192 .f32) (w : Vec Ideal S8192x2048 .f32) (p : Fin 128) (q : Fin 2048) (t : ℕ) : EReal :=
  if h : t < 16 then ∑ k : Fin 512, xblk x ⟨t, h⟩ (ix2 p k) * wblk w ⟨t, h⟩ (ix2 k q) else 0

/-- The sixteen contributions together are the full sum over the 8192 contracted coordinates. -/
theorem blocks_total (x : Vec Ideal S128x8192 .f32) (w : Vec Ideal S8192x2048 .f32) (p : Fin 128) (q : Fin 2048) :
    ∑ t ∈ Finset.range 16, blockTerm x w p q t = ∑ K : Fin 8192, x (ix2 p K) * w (ix2 K q) := by
  rw [← Fin.sum_univ_eq_sum_range (fun t => blockTerm x w p q t) 16]
  refine Eq.trans (Finset.sum_congr rfl fun t _ => ?_) (sum_sixteen_blocks fun K => x (ix2 p K) * w (ix2 K q))
  unfold blockTerm
  rw [dif_pos t.isLt]
  exact Finset.sum_congr rfl fun k _ => by rw [xblk_apply, wblk_apply]

/-! ## The accumulators after grid point n -/

/-- The first accumulator after grid point n, at (p, q): the contributions of blocks 0 … n to x·W_nm. -/
theorem accNm_apply (x : Vec Ideal S128x8192 .f32) (wnm wan : Vec Ideal S8192x2048 .f32) (p : Fin 128) (q : Fin 2048) :
    ∀ n : ℕ, n < 16 → (acc x wnm wan n).1 (ix2 p q) = ∑ t ∈ Finset.range (n + 1), blockTerm x wnm p q t
  | 0, _ => by
    show k0_pay4 (xblk x 0) (wblk wnm 0) (k0_pay1 (F := Ideal)) (ix2 p q) = _
    rw [stepNm_apply, zeroNm_apply, zero_add, Finset.sum_range_one]
    unfold blockTerm
    rw [dif_pos (by decide : (0 : ℕ) < 16)]
    rfl
  | n + 1, h => by
    have ih := accNm_apply x wnm wan p q n (by omega)
    show (if h' : n + 1 < 16 then
            (k0_pay4 (xblk x ⟨n + 1, h'⟩) (wblk wnm ⟨n + 1, h'⟩) (acc x wnm wan n).1,
             k0_pay5 (xblk x ⟨n + 1, h'⟩) (wblk wan ⟨n + 1, h'⟩) (acc x wnm wan n).2)
          else acc x wnm wan n).1 (ix2 p q) = _
    rw [dif_pos h]
    show k0_pay4 (xblk x ⟨n + 1, h⟩) (wblk wnm ⟨n + 1, h⟩) (acc x wnm wan n).1 (ix2 p q) = _
    rw [stepNm_apply, ih, Finset.sum_range_succ _ (n + 1)]
    unfold blockTerm
    rw [dif_pos h]

/-- The second accumulator after grid point n, at (p, q): the contributions of blocks 0 … n to x·W_an. -/
theorem accAn_apply (x : Vec Ideal S128x8192 .f32) (wnm wan : Vec Ideal S8192x2048 .f32) (p : Fin 128) (q : Fin 2048) :
    ∀ n : ℕ, n < 16 → (acc x wnm wan n).2 (ix2 p q) = ∑ t ∈ Finset.range (n + 1), blockTerm x wan p q t
  | 0, _ => by
    show k0_pay5 (xblk x 0) (wblk wan 0) (k0_pay2 (F := Ideal)) (ix2 p q) = _
    rw [stepAn_apply, zeroAn_apply, zero_add, Finset.sum_range_one]
    unfold blockTerm
    rw [dif_pos (by decide : (0 : ℕ) < 16)]
    rfl
  | n + 1, h => by
    have ih := accAn_apply x wnm wan p q n (by omega)
    show (if h' : n + 1 < 16 then
            (k0_pay4 (xblk x ⟨n + 1, h'⟩) (wblk wnm ⟨n + 1, h'⟩) (acc x wnm wan n).1,
             k0_pay5 (xblk x ⟨n + 1, h'⟩) (wblk wan ⟨n + 1, h'⟩) (acc x wnm wan n).2)
          else acc x wnm wan n).2 (ix2 p q) = _
    rw [dif_pos h]
    show k0_pay5 (xblk x ⟨n + 1, h⟩) (wblk wan ⟨n + 1, h⟩) (acc x wnm wan n).2 (ix2 p q) = _
    rw [stepAn_apply, ih, Finset.sum_range_succ _ (n + 1)]
    unfold blockTerm
    rw [dif_pos h]

/-- After the sixteenth grid point the accumulators hold the full products x·W_nm and x·W_an. -/
theorem accNm_final (x : Vec Ideal S128x8192 .f32) (wnm wan : Vec Ideal S8192x2048 .f32) (p : Fin 128) (q : Fin 2048) :
    (acc x wnm wan 15).1 (ix2 p q) = ∑ K : Fin 8192, x (ix2 p K) * wnm (ix2 K q) :=
  (accNm_apply x wnm wan p q 15 (by decide)).trans (blocks_total x wnm p q)
theorem accAn_final (x : Vec Ideal S128x8192 .f32) (wnm wan : Vec Ideal S8192x2048 .f32) (p : Fin 128) (q : Fin 2048) :
    (acc x wnm wan 15).2 (ix2 p q) = ∑ K : Fin 8192, x (ix2 p K) * wan (ix2 K q) :=
  (accAn_apply x wnm wan p q 15 (by decide)).trans (blocks_total x wan p q)

/-! ## The branch -/

/-- What a branch of the kernel writes out is the reference's branch of the same three arrays. -/
theorem branchOut_eq_ref (x : Vec Ideal S128x8192 .f32) (wnm wan : Vec Ideal S8192x2048 .f32) :
    branchOut (F := Ideal) x wnm wan = Cert.RefSide.refBranch x wnm wan := by
  funext i
  obtain ⟨p, q, rfl⟩ : ∃ (p : Fin 128) (q : Fin 2048), i = ix2 p q := ⟨i 0, i 1, eq_ix2 i⟩
  rw [Cert.RefSide.refBranch_apply]
  unfold branchOut
  rw [out_apply, accNm_final]
  refine congrArg (fun s => Ideal.div s _ * _) (Finset.sum_congr rfl fun j _ => ?_)
  exact accAn_final x wnm wan p j

end Cert.BranchValue

end
-- ==== Proof.lean ====
/-
  The certificate of the three-branch projection kernel against its jnp reference.

  Each branch multiplies a 128×8192 activation by two 8192×2048 weights, sixteen blocks of 512 along the contracted
  axis, one block per grid point, adding each block product into one of two accumulators kept across the grid points
  and zeroed at the first; at the last point it writes out the first accumulator scaled, row by row, by the mean of the
  second accumulator's row. The host then concatenates the three branch outputs, averages adjacent triples of columns,
  applies the classifier and a softmax. The reference computes each branch with two whole matrix products and the same
  row-mean scaling, then the same host operations.

  Frames. The program is three kernel regions followed by one stretch of host operations. Per branch the body is run
  once per case of its two conditionals (first point, middle points, last point); the contents of the two accumulators
  and of the output's staging buffer after each point are defined by recursion on the point and carried from point to
  point by the region's invariant; the three regions and the host stretch are composed over the thread state "every
  unscoped buffer at the boundary's contents". The same text proves the word-level program's frame and the idealized
  program's (it never looks inside a float). The reference's frame is its run with the result dropped.

  Values, on the extended reals. The accumulators after point n are the n + 1 block products added one after another
  onto zero, so after the sixteenth point they are the two 8192-term products, by associativity and commutativity of
  addition alone (no finiteness is used, the precondition is never opened); the output of a branch is therefore the
  reference's branch term, and the shared host tail, kept as one function of the three branch outputs, is applied to
  equal arguments on both sides.

  The ideal pass rewrote nothing, so the preservation claim is trivial.
-/
import proofs.«181729_j86371792323176_1_alg».proof.Defs
import proofs.«181729_j86371792323176_1_alg».proof.Proof.Gen.Kernel
import proofs.«181729_j86371792323176_1_alg».proof.Proof.Gen.KernelIdeal
import proofs.«181729_j86371792323176_1_alg».proof.Proof.Gen.ReferenceIdeal
import proofs.«181729_j86371792323176_1_alg».proof.Proof.Gen.Pre_finite_inputs
import proofs.«181729_j86371792323176_1_alg».proof.Proof.KBFrame
import proofs.«181729_j86371792323176_1_alg».proof.Proof.KIFrame
import proofs.«181729_j86371792323176_1_alg».proof.Proof.KIResult
import proofs.«181729_j86371792323176_1_alg».proof.Proof.RefSide
import proofs.«181729_j86371792323176_1_alg».proof.Proof.BranchSums
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- On the extended reals both programs end with the shared host tail applied to the three branch results, and a
    branch's sixteen accumulated block products are the reference's whole products. -/
theorem algebraic : Cert.algebraic_KernelIdeal_ReferenceIdeal := by
  intro m ρ m' ρ' _ hagree
  refine ⟨fun c => Cert.TailValue.tail (Cert.KernelIdeal.Branch.branchOut (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (Cert.KernelIdeal.Branch.branchOut (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (Cert.KernelIdeal.Branch.branchOut (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.Hand.kernel_run m ρ, ?_⟩
  refine (θ_run Cert.ReferenceIdeal.defs _ _).mono (fun r h c => ⟨(h c).1.trans ?_, (h c).2⟩) (Cert.RefSide.ref_run m' ρ')
  obtain ⟨h0, h1, h2, h3, h4, h5, h6, h7, h8, h9, h10⟩ := hagree c
  rw [h0, h1, h2, h3, h4, h5, h6, h7, h8, h9, h10]
  dsimp only
  rw [Cert.BranchValue.branchOut_eq_ref, Cert.BranchValue.branchOut_eq_ref, Cert.BranchValue.branchOut_eq_ref]

theorem claim : Cert.Claim := ⟨Cert.Kernel.Gen.facts, Cert.KernelIdeal.Gen.facts, Cert.ReferenceIdeal.Gen.facts, Cert.Pre_finite_inputs.Gen.facts,
  frame_k, frame_ki, Cert.RefSide.frame_ri, trivial, algebraic⟩

end Cert.Proof

end
